-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x163 : Shape := ⟨2, ![100000, 163]⟩
abbrev S2x1600000 : Shape := ⟨2, ![2, 1600000]⟩
abbrev S100000 : Shape := ⟨1, ![100000]⟩
abbrev S163x64 : Shape := ⟨2, ![163, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x163 : S_.BroadcastsInDim S100000x163 (![] : Fin 0 → Fin S100000x163.rank)
  reducesTo_S100000x163_S_d0_1 : S100000x163.ReducesTo [0, 1] S_
  h_S_ : 0 < S_.numel
  bcast_S_S163x64 : S_.BroadcastsInDim S163x64 (![] : Fin 0 → Fin S163x64.rank)
  reducesTo_S163x64_S_d0_1 : S163x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S64x64 .f32) (main_arg10 : FVec F S64 .f32) (main_arg11 : FVec F S64x1 .f32) (main_arg12 : FVec F S1 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x1 .f32 := Host.absf main_arg11
  let main_cst_16 : FVec F S_ .f32 := constant S_ .f32 0x7F800000#32
  let main_v45 : FVec F S64x1 .f32 := broadcastInDim S64x1 ![] bcast_S_S64x1 main_cst_16
  let main_v46 : IVec S64x1 1 := cmpf .olt main_v44 main_v45
  let main_c_17 : IVec S_ 1 := constantI S_ 1 1#1
  let main_v47 : IVec S_ 1 := (fun x v => Host.reduce IntOp.andi x v reducesTo_S64x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S64 .f32) (main_arg7 : FVec F S64x64 .f32) (main_arg8 : FVec F S64 .f32) (main_arg9 : FVec F S64x64 .f32) (main_arg10 : FVec F S64 .f32) (main_arg11 : FVec F S64x1 .f32) (main_arg12 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x163 .f32) (main_arg1 : IVec S2x1600000 32) (main_arg2 : IVec S100000 32) (main_arg3 : FVec F S163x64 .f32) (main_arg4 : FVec F S64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S64x1 .f32) (main_arg12 : FVec F S1 .f32) : IVec S_ 1 :=
  let main_v0 : FVec F S100000x163 .f32 := Host.absf main_arg0
  let main_cst : FVec F S_ .f32 := constant S_ .f32 0x7F800000#32
  let main_v1 : FVec F S100000x163 .f32 := broadcastInDim S100000x163 ![] bcast_S_S100000x163 main_cst
  let main_v2 : IVec S100000x163 1 := cmpf .olt main_v0 main_v1
  let main_c : IVec S_ 1 := constantI S_ 1 1#1
  let main_v3 : IVec S_ 1 := (fun x v => Host.reduce IntOp.andi x v reducesTo_S100000x163_S_d0_1 h_S_) main_v2 main_c
  let main_v4 : FVec F S163x64 .f32 := Host.absf main_arg3
  let main_cst_0 : FVec F S_ .f32 := constant S_ .f32 0x7F800000#32
  let main_v5 : FVec F S163x64 .f32 := broadcastInDim S163x64 ![] bcast_S_S163x64 main_cst_0
  let main_v6 : IVec S163x64 1 := cmpf .olt main_v4 main_v5
  let main_c_1 : IVec S_ 1 := constantI S_ 1 1#1
  let main_v7 : IVec S_ 1 := (fun x v => Host.reduce IntOp.andi x v reducesTo_S163x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_v13 main_v16
-- ==== Kernel.lean ====
abbrev S100000x163 : Shape := ⟨2, ![100000, 163]⟩
abbrev S2x1600000 : Shape := ⟨2, ![2, 1600000]⟩
abbrev S100000 : Shape := ⟨1, ![100000]⟩
abbrev S163x64 : Shape := ⟨2, ![163, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S100000x64 : Shape := ⟨2, ![100000, 64]⟩
abbrev S5000x163 : Shape := ⟨2, ![5000, 163]⟩
abbrev S5000x64 : Shape := ⟨2, ![5000, 64]⟩
abbrev S1600000x64 : Shape := ⟨2, ![1600000, 64]⟩
abbrev S1x64 : Shape := ⟨2, ![1, 64]⟩
abbrev S10000x64 : Shape := ⟨2, ![10000, 64]⟩
abbrev S10000x1 : Shape := ⟨2, ![10000, 1]⟩
abbrev S1024 : Shape := ⟨1, ![1024]⟩
abbrev S1024x64 : Shape := ⟨2, ![1024, 64]⟩
abbrev S1024x1 : Shape := ⟨2, ![1024, 1]⟩
abbrev S1x1 : Shape := ⟨2, ![1, 1]⟩

abbrev nBuf : Space → Nat
  | .hbm => 125
  | .vmem => 48
  | .smem => 0
  | _ => 0

abbrev bufTy : (tb : Table) → Fin (tcTables nBuf tb) → BufTy
  | .hbm, ⟨0, _⟩ => ⟨S100000x163, .f32⟩
  | .hbm, ⟨1, _⟩ => ⟨S2x1600000, .i32⟩
  | .hbm, ⟨2, _⟩ => ⟨S100000, .i32⟩
  | .hbm, ⟨3, _⟩ => ⟨S163x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x1, .f32⟩
  | .hbm, ⟨12, _⟩ => ⟨S1, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .f32⟩
  | .hbm, ⟨18, _⟩ => ⟨S1600000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000, .f32⟩
  | .hbm, ⟨45, _⟩ => ⟨S1600000, .f32⟩
  | .hbm, ⟨46, _⟩ => ⟨S100000, .f32⟩
  | .hbm, ⟨47, _⟩ => ⟨S100000x1, .f32⟩
  | .hbm, ⟨48, _⟩ => ⟨S100000x64, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x64, .f32⟩
  | .hbm, ⟨58, _⟩ => ⟨S1600000x1, .f32⟩
  | .hbm, ⟨59, _⟩ => ⟨S1600000x64, .f32⟩
  | .hbm, ⟨60, _⟩ => ⟨S1600000x64, .f32⟩
  | .hbm, ⟨61, _⟩ => ⟨S_, .f32⟩
  | .hbm, ⟨62, _⟩ => ⟨S100000x64, .f32⟩
  | .hbm, ⟨63, _⟩ => ⟨S1600000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000x64, .f32⟩
  | .hbm, ⟨77, _⟩ => ⟨S1600000x1, .f32⟩
  | .hbm, ⟨78, _⟩ => ⟨S1600000x64, .f32⟩
  | .hbm, ⟨79, _⟩ => ⟨S1600000x64, .f32⟩
  | .hbm, ⟨80, _⟩ => ⟨S_, .f32⟩
  | .hbm, ⟨81, _⟩ => ⟨S100000x64, .f32⟩
  | .hbm, ⟨82, _⟩ => ⟨S1600000x1, .i32⟩
  | .hbm, ⟨83, _⟩ => ⟨S100000x64, .f32⟩
  | .hbm, ⟨84, _⟩ => ⟨S1x64, .f32⟩
  | .hbm, ⟨85, _⟩ => ⟨S100000x64, .f32⟩
  | .hbm, ⟨86, _⟩ => ⟨S100000x64, .f32⟩
  | .hbm, ⟨87, _⟩ => ⟨S_, .i32⟩
  | .hbm, ⟨88, _⟩ => ⟨S1600000, .i32⟩
  | .hbm, ⟨89, _⟩ => ⟨S1600000, .i1⟩
  | .hbm, ⟨90, _⟩ => ⟨S_, .i32⟩
  | .hbm, ⟨91, _⟩ => ⟨S1600000, .i32⟩
  | .hbm, ⟨92, _⟩ => ⟨S1600000, .i32⟩
  | .hbm, ⟨93, _⟩ => ⟨S1600000, .i32⟩
  | .hbm, ⟨94, _⟩ => ⟨S1600000x1, .i32⟩
  | .hbm, ⟨95, _⟩ => ⟨S1600000x64, .f32⟩
  | .hbm, ⟨96, _⟩ => ⟨S1600000x1, .f32⟩
  | .hbm, ⟨97, _⟩ => ⟨S1600000x64, .f32⟩
  | .hbm, ⟨98, _⟩ => ⟨S1600000x64, .f32⟩
  | .hbm, ⟨99, _⟩ => ⟨S_, .f32⟩
  | .hbm, ⟨100, _⟩ => ⟨S100000x64, .f32⟩
  | .hbm, ⟨101, _⟩ => ⟨S1600000x1, .i32⟩
  | .hbm, ⟨102, _⟩ => ⟨S100000x64, .f32⟩
  | .hbm, ⟨103, _⟩ => ⟨S1x64, .f32⟩
  | .hbm, ⟨104, _⟩ => ⟨S100000x64, .f32⟩
  | .hbm, ⟨105, _⟩ => ⟨S_, .f32⟩
  | .hbm, ⟨106, _⟩ => ⟨S100000, .f32⟩
  | .hbm, ⟨107, _⟩ => ⟨S_, .f32⟩
  | .hbm, ⟨108, _⟩ => ⟨S1024, .f32⟩
  | .hbm, ⟨109, _⟩ => ⟨S100000x1, .i32⟩
  | .hbm, ⟨110, _⟩ => ⟨S1024, .f32⟩
  | .hbm, ⟨111, _⟩ => ⟨S_, .f32⟩
  | .hbm, ⟨112, _⟩ => ⟨S1024x64, .f32⟩
  | .hbm, ⟨113, _⟩ => ⟨S100000x1, .i32⟩
  | .hbm, ⟨114, _⟩ => ⟨S1024x64, .f32⟩
  | .hbm, ⟨115, _⟩ => ⟨S_, .f32⟩
  | .hbm, ⟨116, _⟩ => ⟨S1024, .f32⟩
  | .hbm, ⟨117, _⟩ => ⟨S1024, .f32⟩
  | .hbm, ⟨118, _⟩ => ⟨S1024x1, .f32⟩
  | .hbm, ⟨119, _⟩ => ⟨S1024x64, .f32⟩
  | .hbm, ⟨120, _⟩ => ⟨S1024x64, .f32⟩
  | .hbm, ⟨121, _⟩ => ⟨S1x64, .f32⟩
  | .hbm, ⟨122, _⟩ => ⟨S1x1, .f32⟩
  | .hbm, ⟨123, _⟩ => ⟨S1024x1, .f32⟩
  | .hbm, ⟨124, _⟩ => ⟨S1024, .f32⟩
  | .local _ .vmem, ⟨0, _⟩ => ⟨S5000x163, .f32⟩
  | .local _ .vmem, ⟨1, _⟩ => ⟨S5000x163, .f32⟩
  | .local _ .vmem, ⟨2, _⟩ => ⟨S163x64, .f32⟩
  | .local _ .vmem, ⟨3, _⟩ => ⟨S5000x64, .f32⟩
  | .local _ .vmem, ⟨4, _⟩ => ⟨S5000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x1, .f32⟩
  | .local _ .vmem, ⟨10, _⟩ => ⟨S10000x1, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | .local _ .vmem, ⟨14, _⟩ => ⟨S5000x64, .f32⟩
  | .local _ .vmem, ⟨15, _⟩ => ⟨S5000x64, .f32⟩
  | .local _ .vmem, ⟨16, _⟩ => ⟨S64x64, .f32⟩
  | .local _ .vmem, ⟨17, _⟩ => ⟨S5000x64, .f32⟩
  | .local _ .vmem, ⟨18, _⟩ => ⟨S5000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x1, .f32⟩
  | .local _ .vmem, ⟨24, _⟩ => ⟨S10000x1, .f32⟩
  | .local _ .vmem, ⟨25, _⟩ => ⟨S1x64, .f32⟩
  | .local _ .vmem, ⟨26, _⟩ => ⟨S10000x64, .f32⟩
  | .local _ .vmem, ⟨27, _⟩ => ⟨S10000x64, .f32⟩
  | .local _ .vmem, ⟨28, _⟩ => ⟨S5000x64, .f32⟩
  | .local _ .vmem, ⟨29, _⟩ => ⟨S5000x64, .f32⟩
  | .local _ .vmem, ⟨30, _⟩ => ⟨S64x64, .f32⟩
  | .local _ .vmem, ⟨31, _⟩ => ⟨S5000x64, .f32⟩
  | .local _ .vmem, ⟨32, _⟩ => ⟨S5000x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S10000x1, .f32⟩
  | .local _ .vmem, ⟨38, _⟩ => ⟨S10000x1, .f32⟩
  | .local _ .vmem, ⟨39, _⟩ => ⟨S1x64, .f32⟩
  | .local _ .vmem, ⟨40, _⟩ => ⟨S10000x64, .f32⟩
  | .local _ .vmem, ⟨41, _⟩ => ⟨S10000x64, .f32⟩
  | .local _ .vmem, ⟨42, _⟩ => ⟨S1024x64, .f32⟩
  | .local _ .vmem, ⟨43, _⟩ => ⟨S64x64, .f32⟩
  | .local _ .vmem, ⟨44, _⟩ => ⟨S1x64, .f32⟩
  | .local _ .vmem, ⟨45, _⟩ => ⟨S64x1, .f32⟩
  | .local _ .vmem, ⟨46, _⟩ => ⟨S1x1, .f32⟩
  | .local _ .vmem, ⟨47, _⟩ => ⟨S1024x1, .f32⟩
  | _, _ => ⟨S100000x163, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c_8 : Ref sig .tc := ⟨.hbm, 68, rfl⟩
abbrev main_v45 : Ref sig .tc := ⟨.hbm, 69, rfl⟩
abbrev main_v46 : Ref sig .tc := ⟨.hbm, 70, rfl⟩
abbrev main_c_9 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_10 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_c_11 : Ref sig .tc := ⟨.hbm, 87, rfl⟩
abbrev main_v61 : Ref sig .tc := ⟨.hbm, 88, rfl⟩
abbrev main_v62 : Ref sig .tc := ⟨.hbm, 89, rfl⟩
abbrev main_c_12 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_13 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_14 : Ref sig .tc := ⟨.hbm, 105, rfl⟩
abbrev main_v76 : Ref sig .tc := ⟨.hbm, 106, rfl⟩
abbrev main_cst_15 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_16 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_17 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg1_0 : Ref sig .tc := ⟨.vmem, 43, rfl⟩
abbrev cc6_stg2_0 : Ref sig .tc := ⟨.vmem, 44, rfl⟩
abbrev cc6_stg3_0 : Ref sig .tc := ⟨.vmem, 45, rfl⟩
abbrev cc6_stg4_0 : Ref sig .tc := ⟨.vmem, 46, rfl⟩
abbrev cc6_stg5_0 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem1_0 : DmaSem sig := 43
abbrev cc6_sem2_0 : DmaSem sig := 44
abbrev cc6_sem3_0 : DmaSem sig := 45
abbrev cc6_sem4_0 : DmaSem sig := 46
abbrev cc6_sem5_0 : DmaSem sig := 47

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x163 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S163x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S10000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S10000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S1024x64 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1024x1 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x163_S5000x163_0_0 : ∀ a, (![0, 0] : Fin 2 → Nat) a + S5000x163.size a ≤ S5000x163.size a
  h_S5000x163 : 0 < S5000x163.numel
  inb_S163x64_S163x64_0_0 : ∀ a, (![0, 0] : Fin 2 → Nat) a + S163x64.size a ≤ S163x64.size a
  h_S163x64 : 0 < S163x64.numel
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  bcast_S_S1024 : S_.BroadcastsInDim S1024 (![] : Fin 0 → Fin S1024.rank)
  bcast_S100000_S100000x1_0 : S100000.BroadcastsInDim S100000x1 (![0] : Fin 1 → Fin S100000x1.rank)
  bcast_S_S1024x64 : S_.BroadcastsInDim S1024x64 (![] : Fin 0 → Fin S1024x64.rank)
  bcast_S1024_S1024x1_0 : S1024.BroadcastsInDim S1024x1 (![0] : Fin 1 → Fin S1024x1.rank)
  bcast_S1024x1_S1024x64_0_1 : S1024x1.BroadcastsInDim S1024x64 (![0, 1] : Fin 2 → Fin S1024x64.rank)
  shapeCasts_S1_S1x1 : S1.ShapeCasts S1x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  broadcasts_S1x64_S1024x64 : S1x64.Broadcasts S1024x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  shapeCasts_S1024x1_S1024 : S1024x1.ShapeCasts S1024
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x163_S163x64_S5000x64_1_0_0_1_n_n_wf : DotDims.WF S5000x163 S163x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  scatter_S1024_S100000x1_S100000_n_0_0_1_wf : ScatterDims.WF S1024 S100000x1 S100000 [] [0] [0] 1
  scatter_S1024x64_S100000x1_S100000x64_1_0_0_1_wf : ScatterDims.WF S1024x64 S100000x1 S100000x64 [1] [0] [0] 1
  dot_S1024x64_S64x64_S1024x64_1_0_0_1_n_n_wf : DotDims.WF S1024x64 S64x64 S1024x64 [1] [0] [0] [1] [] []
  dot_S1024x64_S64x1_S1024x1_1_0_0_1_n_n_wf : DotDims.WF S1024x64 S64x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x163.size a ≤ S100000x163.size a
  hwx0_0 : ∀ i : grid0.Coords, EltTy.bits .f32 = 32 ∨ (Rect.block (s := S100000x163) S5000x163.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S163x64.size a ≤ S163x64.size a
  hwx0_1 : ∀ i : grid0.Coords, EltTy.bits .f32 = 32 ∨ (Rect.block (s := S163x64) S163x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S100000x1.size a
  hwx3_2 : ∀ i : grid3.Coords, EltTy.bits .f32 = 32 ∨ (Rect.block (s := S100000x1) S10000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x64.size a ≤ S100000x64.size a
  hwx3_4 : ∀ i : grid3.Coords, EltTy.bits .f32 = 32 ∨ (Rect.block (s := S100000x64) S10000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S100000x64.size a
  hwx5_1 : ∀ i : grid5.Coords, EltTy.bits .f32 = 32 ∨ (Rect.block (s := S100000x64) S10000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x1.size a ≤ S100000x1.size a
  hwx5_2 : ∀ i : grid5.Coords, EltTy.bits .f32 = 32 ∨ (Rect.block (s := S100000x1) S10000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S10000x64.size a ≤ S100000x64.size a
  hwx5_4 : ∀ i : grid5.Coords, EltTy.bits .f32 = 32 ∨ (Rect.block (s := S100000x64) S10000x64.size (cc5_transform_4 i) (hinb5_4 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S1024x64.size a ≤ S1024x64.size a
  hwx6_0 : ∀ i : grid6.Coords, EltTy.bits .f32 = 32 ∨ (Rect.block (s := S1024x64) S1024x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x1.size a ≤ S64x1.size a
  hwx6_3 : ∀ i : grid6.Coords, EltTy.bits .f32 = 32 ∨ (Rect.block (s := S64x1) S64x1.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x1.size a ≤ S1x1.size a
  hwx6_4 : ∀ i : grid6.Coords, EltTy.bits .f32 = 32 ∨ (Rect.block (s := S1x1) S1x1.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1024x1.size a ≤ S1024x1.size a
  hwx6_5 : ∀ i : grid6.Coords, EltTy.bits .f32 = 32 ∨ (Rect.block (s := S1024x1) S1024x1.size (cc6_transform_5 i) (hinb6_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x163_S163x64_S5000x64_1_0_0_1_n_n : DotDims S5000x163 S163x64 S5000x64 where
  lhsContracting := [1]
  rhsContracting := [0]
  lhsNonContracting := [0]
  rhsNonContracting := [1]
  lhsBatch := []
  rhsBatch := []
  wf := dot_S5000x163_S163x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def scatter_S1024x64_S100000x1_S100000x64_1_0_0_1 : ScatterDims S1024x64 S100000x1 S100000x64 where
  updateWindowDims := [1]
  insertedWindowDims := [0]
  scatterDimsToOperandDims := [0]
  indexVectorDim := 1
  wf := scatter_S1024x64_S100000x1_S100000x64_1_0_0_1_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x64_S64x1_S1024x1_1_0_0_1_n_n : DotDims S1024x64 S64x1 S1024x1 where
  lhsContracting := [1]
  rhsContracting := [0]
  lhsNonContracting := [0]
  rhsNonContracting := [1]
  lhsBatch := []
  rhsBatch := []
  wf := dot_S1024x64_S64x1_S1024x1_1_0_0_1_n_n_wf

abbrev win0_0 : Pipeline.Window sig grid0 :=
  Pipeline.Window.ofSpec (Memref.whole main_arg0) S5000x163.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S163x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v27) S10000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S10000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v59) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v60) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v73) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v60) S10000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v27) S10000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v74) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v75) S10000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v87) S1024x64.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v88) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg11) S64x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v89) S1x1.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v90) S1024x1.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S100000x163 : Shape := ⟨2, ![100000, 163]⟩
abbrev S2x1600000 : Shape := ⟨2, ![2, 1600000]⟩
abbrev S100000 : Shape := ⟨1, ![100000]⟩
abbrev S163x64 : Shape := ⟨2, ![163, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x64 : Shape := ⟨2, ![100000, 64]⟩
abbrev S1600000x64 : Shape := ⟨2, ![1600000, 64]⟩
abbrev S100000x1 : Shape := ⟨2, ![100000, 1]⟩
abbrev S1x64 : Shape := ⟨2, ![1, 64]⟩
abbrev S1024 : Shape := ⟨1, ![1024]⟩
abbrev S1024x64 : Shape := ⟨2, ![1024, 64]⟩
abbrev S1024x1 : Shape := ⟨2, ![1024, 1]⟩
abbrev S1x1 : Shape := ⟨2, ![1, 1]⟩

abbrev nBuf : Space → Nat
  | .hbm => 176
  | .vmem => 0
  | .smem => 0
  | _ => 0

abbrev hbmTy0_0 (i : Nat) : BufTy := match i % 128 with
  | 0 => ⟨S100000x163, .f32⟩
  | 1 => ⟨S2x1600000, .i32⟩
  | 2 => ⟨S100000, .i32⟩
  | 3 => ⟨S163x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64x1, .f32⟩
  | 12 => ⟨S1, .f32⟩
  | 13 => ⟨S1x1600000, .i32⟩
  | 14 => ⟨S1600000, .i32⟩
  | 15 => ⟨S1x1600000, .i32⟩
  | 16 => ⟨S1600000, .i32⟩
  | 17 => ⟨S_, .f32⟩
  | 18 => ⟨S1600000, .f32⟩
  | 19 => ⟨S_, .f32⟩
  | 20 => ⟨S100000, .f32⟩
  | 21 => ⟨S1600000x1, .i32⟩
  | 22 => ⟨S100000, .f32⟩
  | 23 => ⟨S_, .f32⟩
  | 24 => ⟨S100000, .f32⟩
  | 25 => ⟨S100000, .f32⟩
  | 26 => ⟨S100000, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000, .f32⟩
  | 45 => ⟨S1600000, .f32⟩
  | 46 => ⟨S100000, .f32⟩
  | 47 => ⟨S100000x64, .f32⟩
  | 48 => ⟨S_, .i32⟩
  | 49 => ⟨S1600000, .i32⟩
  | 50 => ⟨S1600000, .i1⟩
  | 51 => ⟨S_, .i32⟩
  | 52 => ⟨S1600000, .i32⟩
  | 53 => ⟨S1600000, .i32⟩
  | 54 => ⟨S1600000, .i32⟩
  | 55 => ⟨S1600000x1, .i32⟩
  | 56 => ⟨S1600000x64, .f32⟩
  | 57 => ⟨S1600000x1, .f32⟩
  | 58 => ⟨S1600000x64, .f32⟩
  | 59 => ⟨S1600000x64, .f32⟩
  | 60 => ⟨S_, .f32⟩
  | 61 => ⟨S100000x64, .f32⟩
  | 62 => ⟨S1600000x1, .i32⟩
  | 63 => ⟨S100000x64, .f32⟩
  | 64 => ⟨S100000x1, .f32⟩
  | 65 => ⟨S100000x64, .f32⟩
  | 66 => ⟨S100000x64, .f32⟩
  | 67 => ⟨S100000x64, .f32⟩
  | 68 => ⟨S1x64, .f32⟩
  | 69 => ⟨S100000x64, .f32⟩
  | 70 => ⟨S100000x64, .f32⟩
  | 71 => ⟨S_, .f32⟩
  | 72 => ⟨S_, .f32⟩
  | 73 => ⟨S100000x64, .f32⟩
  | 74 => ⟨S100000x64, .i1⟩
  | 75 => ⟨S_, .f32⟩
  | 76 => ⟨S100000x64, .f32⟩
  | 77 => ⟨S100000x64, .f32⟩
  | 78 => ⟨S100000x64, .f32⟩
  | 79 => ⟨S100000x64, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000x64, .f32⟩
  | 89 => ⟨S1600000x1, .f32⟩
  | 90 => ⟨S1600000x64, .f32⟩
  | 91 => ⟨S1600000x64, .f32⟩
  | 92 => ⟨S_, .f32⟩
  | 93 => ⟨S100000x64, .f32⟩
  | 94 => ⟨S1600000x1, .i32⟩
  | 95 => ⟨S100000x64, .f32⟩
  | 96 => ⟨S100000x1, .f32⟩
  | 97 => ⟨S100000x64, .f32⟩
  | 98 => ⟨S100000x64, .f32⟩
  | 99 => ⟨S100000x64, .f32⟩
  | 100 => ⟨S1x64, .f32⟩
  | 101 => ⟨S100000x64, .f32⟩
  | 102 => ⟨S100000x64, .f32⟩
  | 103 => ⟨S_, .f32⟩
  | 104 => ⟨S_, .f32⟩
  | 105 => ⟨S100000x64, .f32⟩
  | 106 => ⟨S100000x64, .i1⟩
  | 107 => ⟨S_, .f32⟩
  | 108 => ⟨S100000x64, .f32⟩
  | 109 => ⟨S100000x64, .f32⟩
  | 110 => ⟨S100000x64, .f32⟩
  | 111 => ⟨S100000x64, .f32⟩
  | 112 => ⟨S_, .i32⟩
  | 113 => ⟨S1600000, .i32⟩
  | 114 => ⟨S1600000, .i1⟩
  | 115 => ⟨S_, .i32⟩
  | 116 => ⟨S1600000, .i32⟩
  | 117 => ⟨S1600000, .i32⟩
  | 118 => ⟨S1600000, .i32⟩
  | 119 => ⟨S1600000x1, .i32⟩
  | 120 => ⟨S1600000x64, .f32⟩
  | 121 => ⟨S1600000x1, .f32⟩
  | 122 => ⟨S1600000x64, .f32⟩
  | 123 => ⟨S1600000x64, .f32⟩
  | 124 => ⟨S_, .f32⟩
  | 125 => ⟨S100000x64, .f32⟩
  | 126 => ⟨S1600000x1, .i32⟩
  | 127 => ⟨S100000x64, .f32⟩
  | _ => ⟨S100000x163, .f32⟩

abbrev hbmTy0_1 (i : Nat) : BufTy := match i % 128 with
  | 0 => ⟨S100000x1, .f32⟩
  | 1 => ⟨S100000x64, .f32⟩
  | 2 => ⟨S100000x64, .f32⟩
  | 3 => ⟨S100000x64, .f32⟩
  | 4 => ⟨S1x64, .f32⟩
  | 5 => ⟨S100000x64, .f32⟩
  | 6 => ⟨S100000x64, .f32⟩
  | 7 => ⟨S_, .f32⟩
  | 8 => ⟨S_, .f32⟩
  | 9 => ⟨S100000x64, .f32⟩
  | 10 => ⟨S100000x64, .i1⟩
  | 11 => ⟨S_, .f32⟩
  | 12 => ⟨S100000x64, .f32⟩
  | 13 => ⟨S100000x64, .f32⟩
  | 14 => ⟨S100000x64, .f32⟩
  | 15 => ⟨S_, .f32⟩
  | 16 => ⟨S100000, .f32⟩
  | 17 => ⟨S_, .f32⟩
  | 18 => ⟨S1024, .f32⟩
  | 19 => ⟨S100000x1, .i32⟩
  | 20 => ⟨S1024, .f32⟩
  | 21 => ⟨S_, .f32⟩
  | 22 => ⟨S1024x64, .f32⟩
  | 23 => ⟨S100000x1, .i32⟩
  | 24 => ⟨S1024x64, .f32⟩
  | 25 => ⟨S_, .f32⟩
  | 26 => ⟨S1024, .f32⟩
  | 27 => ⟨S1024, .f32⟩
  | 28 => ⟨S1024x1, .f32⟩
  | 29 => ⟨S1024x64, .f32⟩
  | 30 => ⟨S1024x64, .f32⟩
  | 31 => ⟨S1024x64, .f32⟩
  | 32 => ⟨S1x64, .f32⟩
  | 33 => ⟨S1024x64, .f32⟩
  | 34 => ⟨S1024x64, .f32⟩
  | 35 => ⟨S_, .f32⟩
  | 36 => ⟨S_, .f32⟩
  | 37 => ⟨S1024x64, .f32⟩
  | 38 => ⟨S1024x64, .i1⟩
  | 39 => ⟨S_, .f32⟩
  | 40 => ⟨S1024x64, .f32⟩
  | 41 => ⟨S1024x64, .f32⟩
  | 42 => ⟨S1024x64, .f32⟩
  | 43 => ⟨S1024x1, .f32⟩
  | 44 => ⟨S1x1, .f32⟩
  | 45 => ⟨S1024x1, .f32⟩
  | 46 => ⟨S1024x1, .f32⟩
  | 47 => ⟨S1024, .f32⟩
  | _ => ⟨S100000x163, .f32⟩

abbrev hbmTy (i : Nat) : BufTy := match i / 128 with
  | 0 => hbmTy0_0 i
  | 1 => hbmTy0_1 i
  | _ => ⟨S100000x163, .f32⟩

abbrev bufTy : (tb : Table) → Fin (tcTables nBuf tb) → BufTy
  | .hbm, ⟨i, _⟩ => hbmTy i
  | _, _ => ⟨S100000x163, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_5 : Ref sig .tc := ⟨.hbm, 48, rfl⟩
abbrev main_v28 : Ref sig .tc := ⟨.hbm, 49, rfl⟩
abbrev main_v29 : Ref sig .tc := ⟨.hbm, 50, rfl⟩
abbrev main_c_6 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_8 : Ref sig .tc := ⟨.hbm, 71, rfl⟩
abbrev main_call0_cst : Ref sig .tc := ⟨.hbm, 72, rfl⟩
abbrev main_call0_v0 : Ref sig .tc := ⟨.hbm, 73, rfl⟩
abbrev main_call0_v1 : Ref sig .tc := ⟨.hbm, 74, rfl⟩
abbrev main_call0_v2 : Ref sig .tc := ⟨.hbm, 75, rfl⟩
abbrev main_call0_v3 : Ref sig .tc := ⟨.hbm, 76, rfl⟩
abbrev main_call0_v4 : Ref sig .tc := ⟨.hbm, 77, rfl⟩
abbrev main_v48 : Ref sig .tc := ⟨.hbm, 78, rfl⟩
abbrev main_v49 : Ref sig .tc := ⟨.hbm, 79, rfl⟩
abbrev main_c_9 : Ref sig .tc := ⟨.hbm, 80, rfl⟩
abbrev main_v50 : Ref sig .tc := ⟨.hbm, 81, rfl⟩
abbrev main_v51 : Ref sig .tc := ⟨.hbm, 82, rfl⟩
abbrev main_c_10 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_11 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_12 : Ref sig .tc := ⟨.hbm, 103, rfl⟩
abbrev main_call1_cst : Ref sig .tc := ⟨.hbm, 104, rfl⟩
abbrev main_call1_v0 : Ref sig .tc := ⟨.hbm, 105, rfl⟩
abbrev main_call1_v1 : Ref sig .tc := ⟨.hbm, 106, rfl⟩
abbrev main_call1_v2 : Ref sig .tc := ⟨.hbm, 107, rfl⟩
abbrev main_call1_v3 : Ref sig .tc := ⟨.hbm, 108, rfl⟩
abbrev main_call1_v4 : Ref sig .tc := ⟨.hbm, 109, rfl⟩
abbrev main_v70 : Ref sig .tc := ⟨.hbm, 110, rfl⟩
abbrev main_v71 : Ref sig .tc := ⟨.hbm, 111, rfl⟩
abbrev main_c_13 : Ref sig .tc := ⟨.hbm, 112, rfl⟩
abbrev main_v72 : Ref sig .tc := ⟨.hbm, 113, rfl⟩
abbrev main_v73 : Ref sig .tc := ⟨.hbm, 114, rfl⟩
abbrev main_c_14 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_cst_15 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_cst_16 : Ref sig .tc := ⟨.hbm, 135, rfl⟩
abbrev main_call2_cst : Ref sig .tc := ⟨.hbm, 136, rfl⟩
abbrev main_call2_v0 : Ref sig .tc := ⟨.hbm, 137, rfl⟩
abbrev main_call2_v1 : Ref sig .tc := ⟨.hbm, 138, rfl⟩
abbrev main_call2_v2 : Ref sig .tc := ⟨.hbm, 139, rfl⟩
abbrev main_call2_v3 : Ref sig .tc := ⟨.hbm, 140, rfl⟩
abbrev main_call2_v4 : Ref sig .tc := ⟨.hbm, 141, rfl⟩
abbrev main_v92 : Ref sig .tc := ⟨.hbm, 142, rfl⟩
abbrev main_cst_17 : Ref sig .tc := ⟨.hbm, 143, rfl⟩
abbrev main_v93 : Ref sig .tc := ⟨.hbm, 144, rfl⟩
abbrev main_cst_18 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_cst_19 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_cst_20 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_cst_21 : Ref sig .tc := ⟨.hbm, 163, rfl⟩
abbrev main_call3_cst : Ref sig .tc := ⟨.hbm, 164, rfl⟩
abbrev main_call3_v0 : Ref sig .tc := ⟨.hbm, 165, rfl⟩
abbrev main_call3_v1 : Ref sig .tc := ⟨.hbm, 166, rfl⟩
abbrev main_call3_v2 : Ref sig .tc := ⟨.hbm, 167, rfl⟩
abbrev main_call3_v3 : Ref sig .tc := ⟨.hbm, 168, rfl⟩
abbrev main_call3_v4 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1024 : S_.BroadcastsInDim S1024 (![] : Fin 0 → Fin S1024.rank)
  bcast_S_S1024x64 : S_.BroadcastsInDim S1024x64 (![] : Fin 0 → Fin S1024x64.rank)
  bcast_S1024_S1024x1_0 : S1024.BroadcastsInDim S1024x1 (![0] : Fin 1 → Fin S1024x1.rank)
  bcast_S1024x1_S1024x64_0_1 : S1024x1.BroadcastsInDim S1024x64 (![0, 1] : Fin 2 → Fin S1024x64.rank)
  bcast_S1x64_S1024x64_0_1 : S1x64.BroadcastsInDim S1024x64 (![0, 1] : Fin 2 → Fin S1024x64.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  shapeCasts_S1024x1_S1024 : S1024x1.ShapeCasts S1024
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x163_S163x64_S100000x64_1_0_0_1_n_n_wf : DotDims.WF S100000x163 S163x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S1024_S100000x1_S100000_n_0_0_1_wf : ScatterDims.WF S1024 S100000x1 S100000 [] [0] [0] 1
  scatter_S1024x64_S100000x1_S100000x64_1_0_0_1_wf : ScatterDims.WF S1024x64 S100000x1 S100000x64 [1] [0] [0] 1
  dot_S1024x64_S64x64_S1024x64_1_0_0_1_n_n_wf : DotDims.WF S1024x64 S64x64 S1024x64 [1] [0] [0] [1] [] []
  dot_S1024x64_S64x1_S1024x1_1_0_0_1_n_n_wf : DotDims.WF S1024x64 S64x1 S1024x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x163_S163x64_S100000x64_1_0_0_1_n_n : DotDims S100000x163 S163x64 S100000x64 where
  lhsContracting := [1]
  rhsContracting := [0]
  lhsNonContracting := [0]
  rhsNonContracting := [1]
  lhsBatch := []
  rhsBatch := []
  wf := dot_S100000x163_S163x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def scatter_S1024x64_S100000x1_S100000x64_1_0_0_1 : ScatterDims S1024x64 S100000x1 S100000x64 where
  updateWindowDims := [1]
  insertedWindowDims := [0]
  scatterDimsToOperandDims := [0]
  indexVectorDim := 1
  wf := scatter_S1024x64_S100000x1_S100000x64_1_0_0_1_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x64_S64x1_S1024x1_1_0_0_1_n_n : DotDims S1024x64 S64x1 S1024x1 where
  lhsContracting := [1]
  rhsContracting := [0]
  lhsNonContracting := [0]
  rhsNonContracting := [1]
  lhsBatch := []
  rhsBatch := []
  wf := dot_S1024x64_S64x1_S1024x1_1_0_0_1_n_n_wf

class Facts : Prop extends Facts₀ where

variable [Facts]
-- ==== Proof.KRun.lean ====
/-
  The idealized kernel program's run with its RESULT buffer named.

  @main of the kernel program is thirteen segments: six stretches of host operations and seven pallas_call regions
  (three dense products x·W tiled over 20 row blocks, three pointwise "aggregate + self-loop + bias, then leaky ReLU"
  stages tiled over 10 row blocks, and the final two-layer head on one block).  The buffer contents at each segment
  boundary are a fold from the launch memory: a stretch applies its operations (`StableHlo.after`), a region replaces
  its arrays by what its write-backs leave.  Every weakly fair execution terminates with every unscoped buffer at the
  last boundary's contents; here that is read at the result buffer (the [1024] vector of per-graph outputs) as well as
  at the thirteen arguments, which end as launched.
-/
import proofs.«148020_j2370821947640_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting; the result buffer ends at the last
    segment boundary's contents `W13` read at it, and the argument arrays end as launched. -/
theorem run_value : θ_run defs (onTc (τ := τ) (main (F := F))) ⟨m, fun _ => 0, ρ⟩ (fun r => ∀ c : Dev nD,
      r.2.mem ((c.tc : Thread nD τ).loc main_v91) = W13 m ρ c (Proc.devRef .tc main_v91)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v91 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c)⟩)

end Cert.KernelIdeal.KRun

end
-- ==== Proof.RefStages.lean ====
import proofs.«148020_j2370821947640_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages

Each stage is the composition, in program order, of the operations that compute it: E = 1600000 edges,
N = 100000 nodes, G = 1024 graphs, 64 features. -/

/-- The source row (row 0) of the 2 × E edge table, as a vector of length E. -/
def edgeSrc (ei : (⟨S2x1600000, .i32⟩ : BufTy).Contents (Elt F)) : (⟨S1600000, .i32⟩ : BufTy).Contents (Elt F) :=
  fun i => shapeCast S1600000 (extractStridedSlice S1x1600000 ![0, 0] ei slices_S2x1600000_S1x1600000_0_0) shapeCasts_S1x1600000_S1600000 i

/-- The destination row (row 1) of the 2 × E edge table, as a vector of length E. -/
def edgeDst (ei : (⟨S2x1600000, .i32⟩ : BufTy).Contents (Elt F)) : (⟨S1600000, .i32⟩ : BufTy).Contents (Elt F) :=
  fun i => shapeCast S1600000 (extractStridedSlice S1x1600000 ![1, 0] ei slices_S2x1600000_S1x1600000_1_0) shapeCasts_S1x1600000_S1600000 i

/-- A length-E index vector as the E × 1 index table a gather or scatter reads. -/
def idxCol (e : (⟨S1600000, .i32⟩ : BufTy).Contents (Elt F)) : (⟨S1600000x1, .i32⟩ : BufTy).Contents (Elt F) :=
  broadcastInDim S1600000x1 ![0] bcast_S1600000_S1600000x1_0 e

/-- Negative indices wrapped once: e ↦ e + N where e < 0, e elsewhere. -/
def wrapIdx (e : (⟨S1600000, .i32⟩ : BufTy).Contents (Elt F)) : (⟨S1600000, .i32⟩ : BufTy).Contents (Elt F) :=
  select (cmpi .slt e (broadcastInDim S1600000 ![] bcast_S_S1600000 (constantI S_ 32 0#32)))
    (addi e (broadcastInDim S1600000 ![] bcast_S_S1600000 (constantI S_ 32 100000#32))) e

/-- Node degree with the self loop: 1 + the number of edges arriving at the node (a scatter-add of ones at the destinations). -/
def deg (dst : (⟨S1600000, .i32⟩ : BufTy).Contents (Elt F)) : (⟨S100000, .f32⟩ : BufTy).Contents (Elt F) :=
  addf (Host.scatterAdd scatter_S100000_S1600000x1_S1600000_n_0_0_1
      (broadcastInDim S100000 ![] bcast_S_S100000 (constant S_ .f32 0x00000000#32)) (idxCol dst)
      (broadcastInDim S1600000 ![] bcast_S_S1600000 (constant S_ .f32 0x3F800000#32)))
    (broadcastInDim S100000 ![] bcast_S_S100000 (constant S_ .f32 0x3F800000#32))

/-- dis = deg^(-1/2), node by node. -/
def dis (dst : (⟨S1600000, .i32⟩ : BufTy).Contents (Elt F)) : (⟨S100000, .f32⟩ : BufTy).Contents (Elt F) :=
  Host.rsqrt (deg dst)

/-- The edge normalisation dis[src] · dis[dst], edge by edge (indices wrapped). -/
def edgeNorm (src dst : (⟨S1600000, .i32⟩ : BufTy).Contents (Elt F)) : (⟨S1600000, .f32⟩ : BufTy).Contents (Elt F) :=
  mulf (Host.gather gather_S100000_S1600000x1_S1600000_n_0_n_n_0_1_1 (dis dst) (idxCol (wrapIdx src)))
    (Host.gather gather_S100000_S1600000x1_S1600000_n_0_n_n_0_1_1 (dis dst) (idxCol (wrapIdx dst)))

/-- The self-loop normalisation dis · dis, node by node. -/
def selfNorm (dst : (⟨S1600000, .i32⟩ : BufTy).Contents (Elt F)) : (⟨S100000, .f32⟩ : BufTy).Contents (Elt F) :=
  mulf (dis dst) (dis dst)

/-- The first layer's dense product X · W₁ (N × 163 by 163 × 64). -/
def dense0 (x : (⟨S100000x163, .f32⟩ : BufTy).Contents (Elt F)) (w : (⟨S163x64, .f32⟩ : BufTy).Contents (Elt F)) : (⟨S100000x64, .f32⟩ : BufTy).Contents (Elt F) :=
  Host.dotGeneral dot_S100000x163_S163x64_S100000x64_1_0_0_1_n_n none x w

/-- A later layer's dense product H · W (N × 64 by 64 × 64). -/
def dense (h : (⟨S100000x64, .f32⟩ : BufTy).Contents (Elt F)) (w : (⟨S64x64, .f32⟩ : BufTy).Contents (Elt F)) : (⟨S100000x64, .f32⟩ : BufTy).Contents (Elt F) :=
  Host.dotGeneral dot_S100000x64_S64x64_S100000x64_1_0_0_1_n_n none h w

/-- The messages: the source node's row of the dense product times the edge's normalisation, edge by edge. -/
def messages (hp : (⟨S100000x64, .f32⟩ : BufTy).Contents (Elt F)) (src : (⟨S1600000, .i32⟩ : BufTy).Contents (Elt F)) (en : (⟨S1600000, .f32⟩ : BufTy).Contents (Elt F)) : (⟨S1600000x64, .f32⟩ : BufTy).Contents (Elt F) :=
  mulf (Host.gather gather_S100000x64_S1600000x1_S1600000x64_1_0_n_n_0_1_164 hp (idxCol (wrapIdx src)))
    (broadcastInDim S1600000x64 ![0, 1] bcast_S1600000x1_S1600000x64_0_1 (broadcastInDim S1600000x1 ![0] bcast_S1600000_S1600000x1_0 en))

/-- The aggregation: the messages summed at their destination nodes (a scatter-add into zeros). -/
def agg (msg : (⟨S1600000x64, .f32⟩ : BufTy).Contents (Elt F)) (dst : (⟨S1600000, .i32⟩ : BufTy).Contents (Elt F)) : (⟨S100000x64, .f32⟩ : BufTy).Contents (Elt F) :=
  Host.scatterAdd scatter_S100000x64_S1600000x1_S1600000x64_1_0_0_1
    (broadcastInDim S100000x64 ![] bcast_S_S100000x64 (constant S_ .f32 0x00000000#32)) (idxCol dst) msg

/-- The leaky rectifier on N × 64: z where z ≥ 0, 0.01 · z elsewhere. -/
def leaky (z : (⟨S100000x64, .f32⟩ : BufTy).Contents (Elt F)) : (⟨S100000x64, .f32⟩ : BufTy).Contents (Elt F) :=
  select (cmpf .oge z (broadcastInDim S100000x64 ![] bcast_S_S100000x64 (constant S_ .f32 0x00000000#32))) z
    (mulf (broadcastInDim S100000x64 ![] bcast_S_S100000x64 (id (constant S_ .f32 0x3C23D70A#32))) z)

/-- A layer's combination: leaky (aggregate + dense · selfNorm (broadcast along features) + bias (broadcast along nodes)). -/
def combine (ag hp : (⟨S100000x64, .f32⟩ : BufTy).Contents (Elt F)) (sn : (⟨S100000, .f32⟩ : BufTy).Contents (Elt F)) (b : (⟨S64, .f32⟩ : BufTy).Contents (Elt F)) : (⟨S100000x64, .f32⟩ : BufTy).Contents (Elt F) :=
  leaky (addf (addf ag (mulf hp (broadcastInDim S100000x64 ![0, 1] bcast_S100000x1_S100000x64_0_1 (broadcastInDim S100000x1 ![0] bcast_S100000_S100000x1_0 sn))))
    (broadcastInDim S100000x64 ![0, 1] bcast_S1x64_S100000x64_0_1 (broadcastInDim S1x64 ![1] bcast_S64_S1x64_1 b)))

/-- One graph-convolution layer from its dense product: combine (agg (messages hp)) hp. -/
def layer (hp : (⟨S100000x64, .f32⟩ : BufTy).Contents (Elt F)) (src dst : (⟨S1600000, .i32⟩ : BufTy).Contents (Elt F)) (b : (⟨S64, .f32⟩ : BufTy).Contents (Elt F)) : (⟨S100000x64, .f32⟩ : BufTy).Contents (Elt F) :=
  combine (agg (messages hp src (edgeNorm src dst)) dst) hp (selfNorm dst) b

/-- The number of nodes of each graph (a scatter-add of ones at the graph ids). -/
def counts (gid : (⟨S100000, .i32⟩ : BufTy).Contents (Elt F)) : (⟨S1024, .f32⟩ : BufTy).Contents (Elt F) :=
  Host.scatterAdd scatter_S1024_S100000x1_S100000_n_0_0_1
    (broadcastInDim S1024 ![] bcast_S_S1024 (constant S_ .f32 0x00000000#32))
    (broadcastInDim S100000x1 ![0] bcast_S100000_S100000x1_0 gid)
    (broadcastInDim S100000 ![] bcast_S_S100000 (constant S_ .f32 0x3F800000#32))

/-- The node features summed per graph (a scatter-add of the rows at the graph ids into zeros). -/
def sums (h : (⟨S100000x64, .f32⟩ : BufTy).Contents (Elt F)) (gid : (⟨S100000, .i32⟩ : BufTy).Contents (Elt F)) : (⟨S1024x64, .f32⟩ : BufTy).Contents (Elt F) :=
  Host.scatterAdd scatter_S1024x64_S100000x1_S100000x64_1_0_0_1
    (broadcastInDim S1024x64 ![] bcast_S_S1024x64 (constant S_ .f32 0x00000000#32))
    (broadcastInDim S100000x1 ![0] bcast_S100000_S100000x1_0 gid) h

/-- The per-graph mean: the sums divided by max(count, 1), broadcast along features. -/
def pool (sm : (⟨S1024x64, .f32⟩ : BufTy).Contents (Elt F)) (cnt : (⟨S1024, .f32⟩ : BufTy).Contents (Elt F)) : (⟨S1024x64, .f32⟩ : BufTy).Contents (Elt F) :=
  Host.divf sm (broadcastInDim S1024x64 ![0, 1] bcast_S1024x1_S1024x64_0_1 (broadcastInDim S1024x1 ![0] bcast_S1024_S1024x1_0
    (maximumf cnt (broadcastInDim S1024 ![] bcast_S_S1024 (constant S_ .f32 0x3F800000#32)))))

/-- The leaky rectifier on G × 64. -/
def leakyG (z : (⟨S1024x64, .f32⟩ : BufTy).Contents (Elt F)) : (⟨S1024x64, .f32⟩ : BufTy).Contents (Elt F) :=
  select (cmpf .oge z (broadcastInDim S1024x64 ![] bcast_S_S1024x64 (constant S_ .f32 0x00000000#32))) z
    (mulf (broadcastInDim S1024x64 ![] bcast_S_S1024x64 (id (constant S_ .f32 0x3C23D70A#32))) z)

/-- The head: leaky (pooled · W₁ + b₁) · W₂ + b₂, as a vector of length G. -/
def head (p : (⟨S1024x64, .f32⟩ : BufTy).Contents (Elt F)) (w1 : (⟨S64x64, .f32⟩ : BufTy).Contents (Elt F)) (b1 : (⟨S64, .f32⟩ : BufTy).Contents (Elt F)) (w2 : (⟨S64x1, .f32⟩ : BufTy).Contents (Elt F)) (b2 : (⟨S1, .f32⟩ : BufTy).Contents (Elt F)) : (⟨S1024, .f32⟩ : BufTy).Contents (Elt F) :=
  fun i => shapeCast S1024
    (addf (Host.dotGeneral dot_S1024x64_S64x1_S1024x1_1_0_0_1_n_n none
        (leakyG (addf (Host.dotGeneral dot_S1024x64_S64x64_S1024x64_1_0_0_1_n_n none p w1)
          (broadcastInDim S1024x64 ![0, 1] bcast_S1x64_S1024x64_0_1 (broadcastInDim S1x64 ![1] bcast_S64_S1x64_1 b1)))) w2)
      (broadcastInDim S1024x1 ![0, 1] bcast_S1x1_S1024x1_0_1 (broadcastInDim S1x1 ![1] bcast_S1_S1x1_1 b2)))
    shapeCasts_S1024x1_S1024 i

/-- The three layers' output from the inputs. -/
def h3 (x : (⟨S100000x163, .f32⟩ : BufTy).Contents (Elt F)) (ei : (⟨S2x1600000, .i32⟩ : BufTy).Contents (Elt F)) (w1 : (⟨S163x64, .f32⟩ : BufTy).Contents (Elt F)) (b1 : (⟨S64, .f32⟩ : BufTy).Contents (Elt F))
    (w2 : (⟨S64x64, .f32⟩ : BufTy).Contents (Elt F)) (b2 : (⟨S64, .f32⟩ : BufTy).Contents (Elt F)) (w3 : (⟨S64x64, .f32⟩ : BufTy).Contents (Elt F)) (b3 : (⟨S64, .f32⟩ : BufTy).Contents (Elt F)) : (⟨S100000x64, .f32⟩ : BufTy).Contents (Elt F) :=
  layer (dense (layer (dense (layer (dense0 x w1) (edgeSrc ei) (edgeDst ei) b1) w2) (edgeSrc ei) (edgeDst ei) b2) w3) (edgeSrc ei) (edgeDst ei) b3

/-- What the reference computes from its thirteen arguments. -/
def refOut (x : (⟨S100000x163, .f32⟩ : BufTy).Contents (Elt F)) (ei : (⟨S2x1600000, .i32⟩ : BufTy).Contents (Elt F)) (gid : (⟨S100000, .i32⟩ : BufTy).Contents (Elt F))
    (w1 : (⟨S163x64, .f32⟩ : BufTy).Contents (Elt F)) (b1 : (⟨S64, .f32⟩ : BufTy).Contents (Elt F)) (w2 : (⟨S64x64, .f32⟩ : BufTy).Contents (Elt F)) (b2 : (⟨S64, .f32⟩ : BufTy).Contents (Elt F))
    (w3 : (⟨S64x64, .f32⟩ : BufTy).Contents (Elt F)) (b3 : (⟨S64, .f32⟩ : BufTy).Contents (Elt F)) (fw1 : (⟨S64x64, .f32⟩ : BufTy).Contents (Elt F)) (fb1 : (⟨S64, .f32⟩ : BufTy).Contents (Elt F))
    (fw2 : (⟨S64x1, .f32⟩ : BufTy).Contents (Elt F)) (fb2 : (⟨S1, .f32⟩ : BufTy).Contents (Elt F)) : (⟨S1024, .f32⟩ : BufTy).Contents (Elt F) :=
  head (pool (sums (h3 x ei w1 b1 w2 b2 w3 b3) gid) (counts gid)) fw1 fb1 fw2 fb2

/-- One graph-convolution layer from its dense product, the two normalisations given. -/
def layerWith (hp : (⟨S100000x64, .f32⟩ : BufTy).Contents (Elt F)) (src dst : (⟨S1600000, .i32⟩ : BufTy).Contents (Elt F)) (en : (⟨S1600000, .f32⟩ : BufTy).Contents (Elt F)) (sn : (⟨S100000, .f32⟩ : BufTy).Contents (Elt F))
    (b : (⟨S64, .f32⟩ : BufTy).Contents (Elt F)) : (⟨S100000x64, .f32⟩ : BufTy).Contents (Elt F) :=
  combine (agg (messages hp src en) dst) hp sn b

theorem layer_eq (hp : (⟨S100000x64, .f32⟩ : BufTy).Contents (Elt F)) (src dst : (⟨S1600000, .i32⟩ : BufTy).Contents (Elt F)) (b : (⟨S64, .f32⟩ : BufTy).Contents (Elt F)) :
    layer hp src dst b = layerWith hp src dst (edgeNorm src dst) (selfNorm dst) b := rfl

end Cert.ReferenceIdeal.RefRun

end
-- ==== Proof.RegionFC.lean ====
/-
  The last pallas_call of the kernel program: the two-layer head on the pooled graph embeddings.

  Its grid has ONE point and every window's block is its whole array (the [1024, 64] pooled matrix, the two weight
  matrices, the two bias rows), so the block a point loads IS the array and the block it writes back is the whole
  [1024, 1] output column.  Hence the output array after the region is the body's one stored value — the payload
  `k6_pay1`: (p·W1 + b1) passed through the leaky ReLU, times W2, plus b2 — of the five arrays as the region finds
  them, for every float instance.
-/
import proofs.«148020_j2370821947640_1_alg».proof.Proof.Gen.KernelIdeal.Frame
import Idealize.ShloMosaic.Lib.Pipeline.Value

set_option maxRecDepth 16384

noncomputable section

namespace Cert.KernelIdeal.RegionFC

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- Every window's block index is (0, 0) at the grid's one point. -/
theorem idx6 : ∀ t : Fin cfg6.N, win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0 :=
  (by decide +kernel : ∀ t : Fin grid6.N, _)

/-! ## A whole-array block read through its window is the array -/

theorem blk0 (c : Dev nD) (t : Fin cfg6.N) : (iblk6 V c 0 t : S1024x64.Idx → Elt F .f32) = V c (Pipeline.arrRef spec6 0) := by
  have e := idx6 t
  funext y
  show V c (Pipeline.arrRef spec6 0) (((cfg6.win 0).blk t).view.emb y) = V c (Pipeline.arrRef spec6 0) y
  refine congrArg _ ?_
  funext a; apply Fin.ext
  match a with
  | ⟨0, _⟩ => show win6_0.index t (0 : Fin 2) * 1024 + 1 * (y 0).val = (y 0).val; omega
  | ⟨1, _⟩ => show win6_0.index t (1 : Fin 2) * 64 + 1 * (y 1).val = (y 1).val; omega

theorem blk1 (c : Dev nD) (t : Fin cfg6.N) : (iblk6 V c 1 t : S64x64.Idx → Elt F .f32) = V c (Pipeline.arrRef spec6 1) := by
  have e := idx6 t
  funext y
  show V c (Pipeline.arrRef spec6 1) (((cfg6.win 1).blk t).view.emb y) = V c (Pipeline.arrRef spec6 1) y
  refine congrArg _ ?_
  funext a; apply Fin.ext
  match a with
  | ⟨0, _⟩ => show win6_1.index t (0 : Fin 2) * 64 + 1 * (y 0).val = (y 0).val; omega
  | ⟨1, _⟩ => show win6_1.index t (1 : Fin 2) * 64 + 1 * (y 1).val = (y 1).val; omega

theorem blk2 (c : Dev nD) (t : Fin cfg6.N) : (iblk6 V c 2 t : S1x64.Idx → Elt F .f32) = V c (Pipeline.arrRef spec6 2) := by
  have e := idx6 t
  funext y
  show V c (Pipeline.arrRef spec6 2) (((cfg6.win 2).blk t).view.emb y) = V c (Pipeline.arrRef spec6 2) y
  refine congrArg _ ?_
  funext a; apply Fin.ext
  match a with
  | ⟨0, _⟩ => show win6_2.index t (0 : Fin 2) * 1 + 1 * (y 0).val = (y 0).val; omega
  | ⟨1, _⟩ => show win6_2.index t (1 : Fin 2) * 64 + 1 * (y 1).val = (y 1).val; omega

theorem blk3 (c : Dev nD) (t : Fin cfg6.N) : (iblk6 V c 3 t : S64x1.Idx → Elt F .f32) = V c (Pipeline.arrRef spec6 3) := by
  have e := idx6 t
  funext y
  show V c (Pipeline.arrRef spec6 3) (((cfg6.win 3).blk t).view.emb y) = V c (Pipeline.arrRef spec6 3) y
  refine congrArg _ ?_
  funext a; apply Fin.ext
  match a with
  | ⟨0, _⟩ => show win6_3.index t (0 : Fin 2) * 64 + 1 * (y 0).val = (y 0).val; omega
  | ⟨1, _⟩ => show win6_3.index t (1 : Fin 2) * 1 + 1 * (y 1).val = (y 1).val; omega

theorem blk4 (c : Dev nD) (t : Fin cfg6.N) : (iblk6 V c 4 t : S1x1.Idx → Elt F .f32) = V c (Pipeline.arrRef spec6 4) := by
  have e := idx6 t
  funext y
  show V c (Pipeline.arrRef spec6 4) (((cfg6.win 4).blk t).view.emb y) = V c (Pipeline.arrRef spec6 4) y
  refine congrArg _ ?_
  funext a; apply Fin.ext
  match a with
  | ⟨0, _⟩ => show win6_4.index t (0 : Fin 2) * 1 + 1 * (y 0).val = (y 0).val; omega
  | ⟨1, _⟩ => show win6_4.index t (1 : Fin 2) * 1 + 1 * (y 1).val = (y 1).val; omega

/-! ## What the one point writes back, and the array after the region -/

set_option maxHeartbeats 1000000 in
/-- The point writes back the payload of the five arrays, read through the output's (whole-array) block. -/
theorem flushed6 (c : Dev nD) (t : Fin cfg6.N) :
    (dat6 V c).flushed 5 t = ((cfg6.win 5).blk t).view.read (Elt F)
      (k6_pay1 (V c (Pipeline.arrRef spec6 0)) (V c (Pipeline.arrRef spec6 1)) (V c (Pipeline.arrRef spec6 2)) (V c (Pipeline.arrRef spec6 3)) (V c (Pipeline.arrRef spec6 4))) := by
  show (cfg6.win 5).cut (grid6.coords t) ((dat6 V c).after 5 t) = _
  rw [after6_5]
  unfold out6_5
  rw [View.canon_unit_zero hz]
  simp only [View.ld_unit_zero (S := S1024x64) hz, View.ld_unit_zero (S := S64x64) hz, View.ld_unit_zero (S := S1x64) hz, View.ld_unit_zero (S := S64x1) hz, View.ld_unit_zero (S := S1x1) hz]
  have h : k6_pay1 (iblk6 V c 0 t) (iblk6 V c 1 t) (iblk6 V c 2 t) (iblk6 V c 3 t) (iblk6 V c 4 t)
      = k6_pay1 (V c (Pipeline.arrRef spec6 0)) (V c (Pipeline.arrRef spec6 1)) (V c (Pipeline.arrRef spec6 2)) (V c (Pipeline.arrRef spec6 3)) (V c (Pipeline.arrRef spec6 4)) :=
    congr (congr (congr (congr (congrArg k6_pay1 (blk0 V c t)) (blk1 V c t)) (blk2 V c t)) (blk3 V c t)) (blk4 V c t)
  rw [h]
  have e := idx6 t
  funext y
  show k6_pay1 _ _ _ _ _ y = k6_pay1 _ _ _ _ _ (((cfg6.win 5).blk t).view.emb y)
  refine congrArg _ ?_
  funext a; apply Fin.ext
  match a with
  | ⟨0, _⟩ => show (y 0).val = win6_5.index t (0 : Fin 2) * 1024 + 1 * (y 0).val; omega
  | ⟨1, _⟩ => show (y 1).val = win6_5.index t (1 : Fin 2) * 1 + 1 * (y 1).val; omega

/-- An index of the output column is in the point's block iff each coordinate is in the block's range on its axis. -/
theorem mem_blk6 (t : Fin cfg6.N) (i : S1024x1.Idx) :
    i ∈ ((cfg6.win 5).blk t).view.set ↔ ∀ a : Fin 2, win6_5.index t a * S1024x1.size a ≤ (i a).val ∧ (i a).val < win6_5.index t a * S1024x1.size a + S1024x1.size a := by
  show i ∈ ((View.whole main_v90).slice (win6_5.rect t)).set ↔ _
  rw [View.set_slice_whole, Rect.mem_set_unit]
  exact Iff.rfl

/-- THE OUTPUT COLUMN after the region: the payload of the five arrays as the region finds them. -/
theorem final6 (c : Dev nD) : (dat6 V c).arrAt 5 cfg6.N
    = k6_pay1 (V c (Pipeline.arrRef spec6 0)) (V c (Pipeline.arrRef spec6 1)) (V c (Pipeline.arrRef spec6 2)) (V c (Pipeline.arrRef spec6 3)) (V c (Pipeline.arrRef spec6 4)) :=
  (dat6 V c).arrAt_eq_of_cover 5 _ (fun t _ => flushed6 V c t) (fun i => by
    refine ⟨t6_0, flush6_5 t6_0, ?_⟩
    rw [mem_blk6]
    have e := idx6 t6_0
    have h0 : (i 0).val < 1024 := (i 0).isLt
    have h1 : (i 1).val < 1 := (i 1).isLt
    intro a
    match a with
    | ⟨0, _⟩ => show win6_5.index t6_0 (0 : Fin 2) * 1024 ≤ (i 0).val ∧ (i 0).val < win6_5.index t6_0 (0 : Fin 2) * 1024 + 1024; omega
    | ⟨1, _⟩ => show win6_5.index t6_0 (1 : Fin 2) * 1 ≤ (i 1).val ∧ (i 1).val < win6_5.index t6_0 (1 : Fin 2) * 1 + 1; omega)

end Cert.KernelIdeal.RegionFC

end
-- ==== Proof.RegionMMLib.lean ====
/- Plain matrix products at the ideal values, read entry by entry.

   A product of an m × k matrix by a k × n matrix contracts the left operand's axis 1 with the right operand's axis 0.
   Both the kernel's matmul into a zero accumulator and the host's dot_general are, at the ideal values, the sum over the
   contraction index of the products of the operands' entries; for these dimension numbers the contraction index is the
   single inner coordinate c, the left operand is read at (a, c) and the right operand at (c, b). So entry (a, b) of either
   product is  Σ_c A(a, c) · B(c, b). -/
import Idealize.ShloMosaic.Lib.ValueIdx
import Idealize.ShloMosaic.PureOps.Ideal.Laws

noncomputable section

open scoped BigOperators

namespace Cert.KernelIdeal.RegionMM

open Idealize.ShloMosaic Idealize.ShloMosaic.ValueIdx

variable {m k n : Nat}

/-- The dimension numbers of the plain product (contract axis 1 of the left operand with axis 0 of the right one, no batch
    axis), with whatever proof of their well-formedness a program carries. -/
abbrev mmDims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- At output entry (a, b) and contraction coordinate c the left operand is read at (a, c). -/
theorem mmDims_lhsIdx (w : DotDims.WF ⟨2, ![m, k]⟩ ⟨2, ![k, n]⟩ ⟨2, ![m, n]⟩ [1] [0] [0] [1] [] []) (a : Fin m) (b : Fin n) (c : Fin k) :
    (mmDims w).lhsIdx (ix2 a b) ((contrEquiv1 (mmDims w) k rfl rfl).symm c) = ix2 a c := by
  have c2 := contrEquiv1_symm_val (mmDims w) k rfl rfl c
  funext ax; apply Fin.ext
  match ax with
  | ⟨0, _⟩ => simp [DotDims.lhsIdx, mmDims]; rfl
  | ⟨1, _⟩ => simp [DotDims.lhsIdx, mmDims]; exact c2

/-- At output entry (a, b) and contraction coordinate c the right operand is read at (c, b). -/
theorem mmDims_rhsIdx (w : DotDims.WF ⟨2, ![m, k]⟩ ⟨2, ![k, n]⟩ ⟨2, ![m, n]⟩ [1] [0] [0] [1] [] []) (a : Fin m) (b : Fin n) (c : Fin k) :
    (mmDims w).rhsIdx (ix2 a b) ((contrEquiv1 (mmDims w) k rfl rfl).symm c) = ix2 c b := by
  have c2 := contrEquiv1_symm_val (mmDims w) k rfl rfl c
  funext ax; apply Fin.ext
  match ax with
  | ⟨0, _⟩ => simp [DotDims.rhsIdx, mmDims]; exact c2
  | ⟨1, _⟩ => simp [DotDims.rhsIdx, mmDims]; rfl

/-- The sum over the contraction index of the products of the operands' entries is the sum over the inner coordinate:
    Σ_q A(lhs index at q) · B(rhs index at q) = Σ_c A(a, c) · B(c, b). -/
theorem sum_contr_eq (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (a : Fin m) (b : Fin n) :
    ∑ q : (mmDims w).contr.Idx, A ((mmDims w).lhsIdx (ix2 a b) q) * B ((mmDims w).rhsIdx (ix2 a b) q)
      = ∑ c : Fin k, A (ix2 a c) * B (ix2 c b) := by
  rw [← Equiv.sum_comp (contrEquiv1 (mmDims w) k rfl rfl).symm]
  refine Finset.sum_congr rfl fun c _ => ?_
  rw [mmDims_lhsIdx, mmDims_rhsIdx]

/-- The kernel's product into a zero accumulator, at entry (a, b): Σ_c A(a, c) · B(c, b). -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ .f32) (B : FVec Ideal ⟨2, ![k, n]⟩ .f32) (a : Fin m) (b : Fin n) :
    FloatOps.matmul (mmDims w) prec A B (constant (F := Ideal) ⟨2, ![m, n]⟩ .f32 0x00000000#32) (ix2 a b)
      = ∑ c : Fin k, A (ix2 a c) * B (ix2 c b) :=
  (Ideal.matmul_constant_zero_apply (mmDims w) prec A B (ix2 a b)).trans (sum_contr_eq w A B a b)

/-- The host's product, at entry (a, b): the same sum. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ .f32) (B : FVec Ideal ⟨2, ![k, n]⟩ .f32) (a : Fin m) (b : Fin n) :
    Host.dotGeneral (F := Ideal) (mmDims w) prec A B (ix2 a b) = ∑ c : Fin k, A (ix2 a c) * B (ix2 c b) :=
  (Ideal.dotGeneral_apply (mmDims w) prec .single A B (ix2 a b)).trans (sum_contr_eq w A B a b)

/-- The product of an m × k matrix A by a k × n matrix B, entry by entry: entry (a, b) is Σ_c A(a, c) · B(c, b). -/
abbrev matProd (A : (⟨2, ![m, k]⟩ : Shape).Idx → EReal) (B : (⟨2, ![k, n]⟩ : Shape).Idx → EReal) :
    (⟨2, ![m, n]⟩ : Shape).Idx → EReal :=
  fun i => ∑ c : Fin k, A (ix2 (n0 := m) (i 0) c) * B (ix2 (n1 := n) c (i 1))

/-- The host's product of two whole matrices is that function. -/
theorem dotGeneral_eq_matProd (w : DotDims.WF ⟨2, ![m, k]⟩ ⟨2, ![k, n]⟩ ⟨2, ![m, n]⟩ [1] [0] [0] [1] [] [])
    (prec : Option ContractPrecision) (A : FVec Ideal ⟨2, ![m, k]⟩ .f32) (B : FVec Ideal ⟨2, ![k, n]⟩ .f32) :
    Host.dotGeneral (F := Ideal) (mmDims w) prec A B = matProd A B := by
  funext i
  obtain ⟨a, b, rfl⟩ : ∃ (a : Fin m) (b : Fin n), i = ix2 a b := ⟨i 0, i 1, eq_ix2 i⟩
  exact dotGeneral_apply w prec A B a b

end Cert.KernelIdeal.RegionMM

end
-- ==== Proof.RegionMM.lean ====
/- The three matrix-product regions of the program, read as products of whole arrays.

   Each of these regions multiplies an array A of 100000 rows (163 columns in the first region, 64 in the other two) by a
   weight matrix W with 64 columns. The region runs over 20 points; point t loads rows 5000·t … 5000·t + 4999 of A and the
   whole of W, and writes the product of that row block with W into rows 5000·t … 5000·t + 4999 of the output array.
   Entry (a, b) of a row block's product is Σ_c A(5000·t + a, c) · W(c, b), which is entry (5000·t + a, b) of the product of
   the whole arrays: every point writes back its own block of ONE function of the region's inputs, matProd A W. The 20 row
   blocks cover all 100000 rows (row r lies in block r / 5000), so after the last point the output array is matProd A W —
   which is also what the host's dot_general of A and W is, entry by entry. -/
import proofs.«148020_j2370821947640_1_alg».proof.Proof.Gen.KernelIdeal.Frame
import proofs.«148020_j2370821947640_1_alg».proof.ReferenceIdeal
import proofs.«148020_j2370821947640_1_alg».proof.Proof.RegionMMLib
import Idealize.ShloMosaic.Lib.Pipeline.Value

noncomputable section

open scoped BigOperators
open Idealize.ShloMosaic Idealize.ShloMosaic.TcCoe Idealize.SL.Sem Idealize.ShloMosaic.ValueIdx
open Idealize.ShloMosaic.Pipeline (Dat)

namespace Cert.KernelIdeal.RegionMM

open Cert.KernelIdeal Cert.KernelIdeal.Gen

-- The contents of the core's buffers when a region is entered: every statement below holds at any such contents.
variable (V : (c : Dev nD) → (b : Ref sig .tc) → Buf (Elt Ideal) ((c : Thread nD τ).loc b))

/-- Every access of these bodies starts at offset (0, 0) of its buffer. -/
theorem zero_offsets : (![0, 0] : Fin 2 → Nat) = fun _ => 0 := funext fun a => by fin_cases a <;> rfl

/-! ## The product region over `main_v28`: A is 100000 × 163, W is 163 × 64 -/

/-- One point's stored value, entry (a, b): the row block times W into a zero accumulator, Σ_c X(a, c) · W(c, b). -/
theorem block_product0 (x0 : FVec Ideal S5000x163 .f32) (x1 : FVec Ideal S163x64 .f32) (a : Fin 5000) (b : Fin 64) :
    k0_pay1 (F := Ideal) x0 x1 (ix2 a b) = ∑ c : Fin 163, x0 (ix2 a c) * x1 (ix2 c b) := by
  unfold k0_pay1
  exact matmul_zero_apply dot_S5000x163_S163x64_S5000x64_1_0_0_1_n_n_wf none x0 x1 a b

/-- If the loaded row block X reads A through an embedding e0 of block indices into array indices, and the loaded weights
    read W through e1, and entry y of the block sits at entry i of the output array with e0 (y₀, c) = (i₀, c) and
    e1 (c, y₁) = (c, i₁) for every inner coordinate c, then what the point stores at y is entry i of the whole product:
    Σ_c X(y₀, c) · W'(c, y₁) = Σ_c A(i₀, c) · W(c, i₁), term by term. -/
theorem block_entry0 (A : S100000x163.Idx → EReal) (W : S163x64.Idx → EReal)
    (x0 : FVec Ideal S5000x163 .f32) (x1 : FVec Ideal S163x64 .f32)
    (e0 : S5000x163.Idx → S100000x163.Idx) (e1 : S163x64.Idx → S163x64.Idx)
    (hx0 : ∀ p, x0 p = A (e0 p)) (hx1 : ∀ p, x1 p = W (e1 p))
    (y : S5000x64.Idx) (i : S100000x64.Idx)
    (h0 : ∀ q : Fin 163, e0 (ix2 (n0 := 5000) (y 0) q) = ix2 (n0 := 100000) (i 0) q)
    (h1 : ∀ q : Fin 163, e1 (ix2 (n1 := 64) q (y 1)) = ix2 (n1 := 64) q (i 1)) :
    k0_pay1 (F := Ideal) x0 x1 y = matProd (m := 100000) (k := 163) (n := 64) A W i := by
  obtain ⟨a, b, rfl⟩ : ∃ (a : Fin 5000) (b : Fin 64), y = ix2 a b := ⟨y 0, y 1, eq_ix2 y⟩
  rw [block_product0]
  refine Finset.sum_congr rfl fun q _ => ?_
  have e0q : e0 (ix2 a q) = ix2 (n0 := 100000) (i 0) q := h0 q
  have e1q : e1 (ix2 q b) = ix2 (n1 := 64) q (i 1) := h1 q
  rw [hx0, hx1, e0q, e1q]

/-- The index maps at point t: the row-block window of A and the output window sit at the same block row, which is t;
    every other block coordinate is 0 (A's and the output's windows span all their columns, W's window is all of W). -/
theorem index_maps0 : ∀ t : Fin cfg0.N,
    win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

set_option maxHeartbeats 400000 in
/-- What point t writes back is its block (rows 5000·t … 5000·t + 4999) of the product of the region's whole input arrays:
    entry (a, b) of the block is Σ_c A(5000·t + a, c) · W(c, b). An element of a window's block sits in its array, on each
    axis, at block index × block size + 1 × its coordinate in the block. -/
theorem written_back0 (c : Dev nD) (t : Fin cfg0.N) :
    (dat0 V c).flushed 2 t = ((cfg0.win 2).blk t).view.read (Elt Ideal)
      (matProd (m := 100000) (k := 163) (n := 64) (V c (Pipeline.arrRef spec0 0)) (V c (Pipeline.arrRef spec0 1))) := by
  show (cfg0.win 2).cut (grid0.coords t) ((dat0 V c).after 2 t) = _
  rw [after0_2]
  unfold out0_2
  rw [View.canon_unit_zero zero_offsets]
  simp only [View.ld_unit_zero (S := S5000x163) zero_offsets, View.ld_unit_zero (S := S163x64) zero_offsets]
  funext j
  obtain ⟨f0, f1, f2, f3, f4, f5⟩ := index_maps0 t
  refine block_entry0 (V c (Pipeline.arrRef spec0 0)) (V c (Pipeline.arrRef spec0 1)) (iblk0 V c 0 t) (iblk0 V c 1 t)
    ((cfg0.win 0).blk t).view.emb ((cfg0.win 1).blk t).view.emb (fun p => rfl) (fun p => rfl)
    ((cfg0.win 2).xinj (grid0.coords t) j) (((cfg0.win 2).blk t).view.emb j) (fun q => ?_) (fun q => ?_)
  · funext a; apply Fin.ext
    match a with
    | ⟨0, _⟩ => show win0_0.index t (0 : Fin 2) * 5000 + 1 * (j 0).val = win0_2.index t (0 : Fin 2) * 5000 + 1 * (j 0).val; rw [f0]
    | ⟨1, _⟩ => show win0_0.index t (1 : Fin 2) * 163 + 1 * q.val = q.val; rw [f1]; omega
  · funext a; apply Fin.ext
    match a with
    | ⟨0, _⟩ => show win0_1.index t (0 : Fin 2) * 163 + 1 * q.val = q.val; rw [f2]; omega
    | ⟨1, _⟩ => show win0_1.index t (1 : Fin 2) * 64 + 1 * (j 1).val = win0_2.index t (1 : Fin 2) * 64 + 1 * (j 1).val; rw [f3, f4]

/-- An entry of the output array is in point t's block iff each coordinate is in the block's range on its axis. -/
theorem mem_block0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v28).slice (win0_2.rect t)).set ↔ _
  rw [View.set_slice_whole, Rect.mem_set_unit]
  exact Iff.rfl

/-- The 20 row blocks cover the output: row r lies in the block of point r / 5000 (100000 = 20 · 5000), every column in
    the block's 64 columns. -/
theorem rows_covered0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 20 := N_0
  have ht : (i 0).val / 5000 < grid0.N := by rw [hN]; omega
  obtain ⟨f0, f1, f2, f3, f4, f5⟩ := index_maps0 ⟨(i 0).val / 5000, ht⟩
  refine ⟨⟨(i 0).val / 5000, ht⟩, flush0_2 _, ?_⟩
  rw [mem_block0]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [f5]; show (i 0).val / 5000 * 5000 ≤ (i 0).val ∧ (i 0).val < (i 0).val / 5000 * 5000 + 5000; omega
  | ⟨1, _⟩ =>
    show win0_2.index ⟨(i 0).val / 5000, ht⟩ (1 : Fin 2) * 64 ≤ (i 1).val ∧ (i 1).val < win0_2.index ⟨(i 0).val / 5000, ht⟩ (1 : Fin 2) * 64 + 64
    rw [f4]; omega

/-- So after the last point the output array is the product of the region's input arrays, entry by entry:
    entry (r, b) is Σ_c A(r, c) · W(c, b). -/
theorem output0 (c : Dev nD) :
    (dat0 V c).arrAt 2 cfg0.N
      = matProd (m := 100000) (k := 163) (n := 64) (V c (Pipeline.arrRef spec0 0)) (V c (Pipeline.arrRef spec0 1)) :=
  (dat0 V c).arrAt_eq_of_cover 2 _ (fun t _ => written_back0 V c t) rows_covered0

/-- The same array, as the host's product of the two input arrays. -/
theorem final0 [Cert.ReferenceIdeal.Facts₀] (c : Dev nD) :
    (dat0 V c).arrAt 2 cfg0.N
      = Host.dotGeneral (F := Ideal) (φ₁ := .f32) (φ₂ := .f32) Cert.ReferenceIdeal.dot_S100000x163_S163x64_S100000x64_1_0_0_1_n_n none
          (V c (Pipeline.arrRef spec0 0)) (V c (Pipeline.arrRef spec0 1)) :=
  (output0 V c).trans
    (dotGeneral_eq_matProd Cert.ReferenceIdeal.Facts₀.dot_S100000x163_S163x64_S100000x64_1_0_0_1_n_n_wf none _ _).symm

/-! ## The product region over `main_v44`: A is 100000 × 64, W is 64 × 64 -/

/-- One point's stored value, entry (a, b): the row block times W into a zero accumulator, Σ_c X(a, c) · W(c, b) (the loaded row block first passes through a cast between equal shapes, which changes nothing). -/
theorem block_product2 (x0 : FVec Ideal S5000x64 .f32) (x1 : FVec Ideal S64x64 .f32) (a : Fin 5000) (b : Fin 64) :
    k2_pay1 (F := Ideal) x0 x1 (ix2 a b) = ∑ c : Fin 64, x0 (ix2 a c) * x1 (ix2 c b) := by
  unfold k2_pay1
  simp only [shapeCast_self]
  exact matmul_zero_apply dot_S5000x64_S64x64_S5000x64_1_0_0_1_n_n_wf none x0 x1 a b

/-- If the loaded row block X reads A through an embedding e0 of block indices into array indices, and the loaded weights
    read W through e1, and entry y of the block sits at entry i of the output array with e0 (y₀, c) = (i₀, c) and
    e1 (c, y₁) = (c, i₁) for every inner coordinate c, then what the point stores at y is entry i of the whole product:
    Σ_c X(y₀, c) · W'(c, y₁) = Σ_c A(i₀, c) · W(c, i₁), term by term. -/
theorem block_entry2 (A : S100000x64.Idx → EReal) (W : S64x64.Idx → EReal)
    (x0 : FVec Ideal S5000x64 .f32) (x1 : FVec Ideal S64x64 .f32)
    (e0 : S5000x64.Idx → S100000x64.Idx) (e1 : S64x64.Idx → S64x64.Idx)
    (hx0 : ∀ p, x0 p = A (e0 p)) (hx1 : ∀ p, x1 p = W (e1 p))
    (y : S5000x64.Idx) (i : S100000x64.Idx)
    (h0 : ∀ q : Fin 64, e0 (ix2 (n0 := 5000) (y 0) q) = ix2 (n0 := 100000) (i 0) q)
    (h1 : ∀ q : Fin 64, e1 (ix2 (n1 := 64) q (y 1)) = ix2 (n1 := 64) q (i 1)) :
    k2_pay1 (F := Ideal) x0 x1 y = matProd (m := 100000) (k := 64) (n := 64) A W i := by
  obtain ⟨a, b, rfl⟩ : ∃ (a : Fin 5000) (b : Fin 64), y = ix2 a b := ⟨y 0, y 1, eq_ix2 y⟩
  rw [block_product2]
  refine Finset.sum_congr rfl fun q _ => ?_
  have e0q : e0 (ix2 a q) = ix2 (n0 := 100000) (i 0) q := h0 q
  have e1q : e1 (ix2 q b) = ix2 (n1 := 64) q (i 1) := h1 q
  rw [hx0, hx1, e0q, e1q]

/-- The index maps at point t: the row-block window of A and the output window sit at the same block row, which is t;
    every other block coordinate is 0 (A's and the output's windows span all their columns, W's window is all of W). -/
theorem index_maps2 : ∀ t : Fin cfg2.N,
    win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) = t.val :=
  (by decide +kernel : ∀ t : Fin grid2.N, _)

set_option maxHeartbeats 400000 in
/-- What point t writes back is its block (rows 5000·t … 5000·t + 4999) of the product of the region's whole input arrays:
    entry (a, b) of the block is Σ_c A(5000·t + a, c) · W(c, b). An element of a window's block sits in its array, on each
    axis, at block index × block size + 1 × its coordinate in the block. -/
theorem written_back2 (c : Dev nD) (t : Fin cfg2.N) :
    (dat2 V c).flushed 2 t = ((cfg2.win 2).blk t).view.read (Elt Ideal)
      (matProd (m := 100000) (k := 64) (n := 64) (V c (Pipeline.arrRef spec2 0)) (V c (Pipeline.arrRef spec2 1))) := by
  show (cfg2.win 2).cut (grid2.coords t) ((dat2 V c).after 2 t) = _
  rw [after2_2]
  unfold out2_2
  rw [View.canon_unit_zero zero_offsets]
  simp only [View.ld_unit_zero (S := S5000x64) zero_offsets, View.ld_unit_zero (S := S64x64) zero_offsets]
  funext j
  obtain ⟨f0, f1, f2, f3, f4, f5⟩ := index_maps2 t
  refine block_entry2 (V c (Pipeline.arrRef spec2 0)) (V c (Pipeline.arrRef spec2 1)) (iblk2 V c 0 t) (iblk2 V c 1 t)
    ((cfg2.win 0).blk t).view.emb ((cfg2.win 1).blk t).view.emb (fun p => rfl) (fun p => rfl)
    ((cfg2.win 2).xinj (grid2.coords t) j) (((cfg2.win 2).blk t).view.emb j) (fun q => ?_) (fun q => ?_)
  · funext a; apply Fin.ext
    match a with
    | ⟨0, _⟩ => show win2_0.index t (0 : Fin 2) * 5000 + 1 * (j 0).val = win2_2.index t (0 : Fin 2) * 5000 + 1 * (j 0).val; rw [f0]
    | ⟨1, _⟩ => show win2_0.index t (1 : Fin 2) * 64 + 1 * q.val = q.val; rw [f1]; omega
  · funext a; apply Fin.ext
    match a with
    | ⟨0, _⟩ => show win2_1.index t (0 : Fin 2) * 64 + 1 * q.val = q.val; rw [f2]; omega
    | ⟨1, _⟩ => show win2_1.index t (1 : Fin 2) * 64 + 1 * (j 1).val = win2_2.index t (1 : Fin 2) * 64 + 1 * (j 1).val; rw [f3, f4]

/-- An entry of the output array is in point t's block iff each coordinate is in the block's range on its axis. -/
theorem mem_block2 (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v44).slice (win2_2.rect t)).set ↔ _
  rw [View.set_slice_whole, Rect.mem_set_unit]
  exact Iff.rfl

/-- The 20 row blocks cover the output: row r lies in the block of point r / 5000 (100000 = 20 · 5000), every column in
    the block's 64 columns. -/
theorem rows_covered2 (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : grid2.N = 20 := N_2
  have ht : (i 0).val / 5000 < grid2.N := by rw [hN]; omega
  obtain ⟨f0, f1, f2, f3, f4, f5⟩ := index_maps2 ⟨(i 0).val / 5000, ht⟩
  refine ⟨⟨(i 0).val / 5000, ht⟩, flush2_2 _, ?_⟩
  rw [mem_block2]
  intro a
  match a with
  | ⟨0, _⟩ =>
    show win2_2.index ⟨(i 0).val / 5000, ht⟩ (0 : Fin 2) * 5000 ≤ (i 0).val ∧ (i 0).val < win2_2.index ⟨(i 0).val / 5000, ht⟩ (0 : Fin 2) * 5000 + 5000
    rw [f5]; show (i 0).val / 5000 * 5000 ≤ (i 0).val ∧ (i 0).val < (i 0).val / 5000 * 5000 + 5000; omega
  | ⟨1, _⟩ =>
    show win2_2.index ⟨(i 0).val / 5000, ht⟩ (1 : Fin 2) * 64 ≤ (i 1).val ∧ (i 1).val < win2_2.index ⟨(i 0).val / 5000, ht⟩ (1 : Fin 2) * 64 + 64
    rw [f4]; omega

/-- So after the last point the output array is the product of the region's input arrays, entry by entry:
    entry (r, b) is Σ_c A(r, c) · W(c, b). -/
theorem output2 (c : Dev nD) :
    (dat2 V c).arrAt 2 cfg2.N
      = matProd (m := 100000) (k := 64) (n := 64) (V c (Pipeline.arrRef spec2 0)) (V c (Pipeline.arrRef spec2 1)) :=
  (dat2 V c).arrAt_eq_of_cover 2 _ (fun t _ => written_back2 V c t) rows_covered2

/-- The same array, as the host's product of the two input arrays. -/
theorem final2 [Cert.ReferenceIdeal.Facts₀] (c : Dev nD) :
    (dat2 V c).arrAt 2 cfg2.N
      = Host.dotGeneral (F := Ideal) (φ₁ := .f32) (φ₂ := .f32) Cert.ReferenceIdeal.dot_S100000x64_S64x64_S100000x64_1_0_0_1_n_n none
          (V c (Pipeline.arrRef spec2 0)) (V c (Pipeline.arrRef spec2 1)) :=
  (output2 V c).trans
    (dotGeneral_eq_matProd Cert.ReferenceIdeal.Facts₀.dot_S100000x64_S64x64_S100000x64_1_0_0_1_n_n_wf none _ _).symm

/-! ## The product region over `main_v60`: A is 100000 × 64, W is 64 × 64 -/

/-- One point's stored value, entry (a, b): the row block times W into a zero accumulator, Σ_c X(a, c) · W(c, b) (the loaded row block first passes through a cast between equal shapes, which changes nothing). -/
theorem block_product4 (x0 : FVec Ideal S5000x64 .f32) (x1 : FVec Ideal S64x64 .f32) (a : Fin 5000) (b : Fin 64) :
    k4_pay1 (F := Ideal) x0 x1 (ix2 a b) = ∑ c : Fin 64, x0 (ix2 a c) * x1 (ix2 c b) := by
  unfold k4_pay1
  simp only [shapeCast_self]
  exact matmul_zero_apply dot_S5000x64_S64x64_S5000x64_1_0_0_1_n_n_wf none x0 x1 a b

/-- If the loaded row block X reads A through an embedding e0 of block indices into array indices, and the loaded weights
    read W through e1, and entry y of the block sits at entry i of the output array with e0 (y₀, c) = (i₀, c) and
    e1 (c, y₁) = (c, i₁) for every inner coordinate c, then what the point stores at y is entry i of the whole product:
    Σ_c X(y₀, c) · W'(c, y₁) = Σ_c A(i₀, c) · W(c, i₁), term by term. -/
theorem block_entry4 (A : S100000x64.Idx → EReal) (W : S64x64.Idx → EReal)
    (x0 : FVec Ideal S5000x64 .f32) (x1 : FVec Ideal S64x64 .f32)
    (e0 : S5000x64.Idx → S100000x64.Idx) (e1 : S64x64.Idx → S64x64.Idx)
    (hx0 : ∀ p, x0 p = A (e0 p)) (hx1 : ∀ p, x1 p = W (e1 p))
    (y : S5000x64.Idx) (i : S100000x64.Idx)
    (h0 : ∀ q : Fin 64, e0 (ix2 (n0 := 5000) (y 0) q) = ix2 (n0 := 100000) (i 0) q)
    (h1 : ∀ q : Fin 64, e1 (ix2 (n1 := 64) q (y 1)) = ix2 (n1 := 64) q (i 1)) :
    k4_pay1 (F := Ideal) x0 x1 y = matProd (m := 100000) (k := 64) (n := 64) A W i := by
  obtain ⟨a, b, rfl⟩ : ∃ (a : Fin 5000) (b : Fin 64), y = ix2 a b := ⟨y 0, y 1, eq_ix2 y⟩
  rw [block_product4]
  refine Finset.sum_congr rfl fun q _ => ?_
  have e0q : e0 (ix2 a q) = ix2 (n0 := 100000) (i 0) q := h0 q
  have e1q : e1 (ix2 q b) = ix2 (n1 := 64) q (i 1) := h1 q
  rw [hx0, hx1, e0q, e1q]

/-- The index maps at point t: the row-block window of A and the output window sit at the same block row, which is t;
    every other block coordinate is 0 (A's and the output's windows span all their columns, W's window is all of W). -/
theorem index_maps4 : ∀ t : Fin cfg4.N,
    win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (1 : Fin 2) = 0
    ∧ win4_2.index t (0 : Fin 2) = t.val :=
  (by decide +kernel : ∀ t : Fin grid4.N, _)

set_option maxHeartbeats 400000 in
/-- What point t writes back is its block (rows 5000·t … 5000·t + 4999) of the product of the region's whole input arrays:
    entry (a, b) of the block is Σ_c A(5000·t + a, c) · W(c, b). An element of a window's block sits in its array, on each
    axis, at block index × block size + 1 × its coordinate in the block. -/
theorem written_back4 (c : Dev nD) (t : Fin cfg4.N) :
    (dat4 V c).flushed 2 t = ((cfg4.win 2).blk t).view.read (Elt Ideal)
      (matProd (m := 100000) (k := 64) (n := 64) (V c (Pipeline.arrRef spec4 0)) (V c (Pipeline.arrRef spec4 1))) := by
  show (cfg4.win 2).cut (grid4.coords t) ((dat4 V c).after 2 t) = _
  rw [after4_2]
  unfold out4_2
  rw [View.canon_unit_zero zero_offsets]
  simp only [View.ld_unit_zero (S := S5000x64) zero_offsets, View.ld_unit_zero (S := S64x64) zero_offsets]
  funext j
  obtain ⟨f0, f1, f2, f3, f4, f5⟩ := index_maps4 t
  refine block_entry4 (V c (Pipeline.arrRef spec4 0)) (V c (Pipeline.arrRef spec4 1)) (iblk4 V c 0 t) (iblk4 V c 1 t)
    ((cfg4.win 0).blk t).view.emb ((cfg4.win 1).blk t).view.emb (fun p => rfl) (fun p => rfl)
    ((cfg4.win 2).xinj (grid4.coords t) j) (((cfg4.win 2).blk t).view.emb j) (fun q => ?_) (fun q => ?_)
  · funext a; apply Fin.ext
    match a with
    | ⟨0, _⟩ => show win4_0.index t (0 : Fin 2) * 5000 + 1 * (j 0).val = win4_2.index t (0 : Fin 2) * 5000 + 1 * (j 0).val; rw [f0]
    | ⟨1, _⟩ => show win4_0.index t (1 : Fin 2) * 64 + 1 * q.val = q.val; rw [f1]; omega
  · funext a; apply Fin.ext
    match a with
    | ⟨0, _⟩ => show win4_1.index t (0 : Fin 2) * 64 + 1 * q.val = q.val; rw [f2]; omega
    | ⟨1, _⟩ => show win4_1.index t (1 : Fin 2) * 64 + 1 * (j 1).val = win4_2.index t (1 : Fin 2) * 64 + 1 * (j 1).val; rw [f3, f4]

/-- An entry of the output array is in point t's block iff each coordinate is in the block's range on its axis. -/
theorem mem_block4 (t : Fin cfg4.N) (i : S100000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v60).slice (win4_2.rect t)).set ↔ _
  rw [View.set_slice_whole, Rect.mem_set_unit]
  exact Iff.rfl

/-- The 20 row blocks cover the output: row r lies in the block of point r / 5000 (100000 = 20 · 5000), every column in
    the block's 64 columns. -/
theorem rows_covered4 (i : S100000x64.Idx) : ∃ t : Fin cfg4.N, (cfg4.win 2).flush t = true ∧ i ∈ ((cfg4.win 2).blk t).view.set := by
  have hi0 : (i 0).val < 100000 := (i 0).isLt
  have hi1 : (i 1).val < 64 := (i 1).isLt
  have hN : grid4.N = 20 := N_4
  have ht : (i 0).val / 5000 < grid4.N := by rw [hN]; omega
  obtain ⟨f0, f1, f2, f3, f4, f5⟩ := index_maps4 ⟨(i 0).val / 5000, ht⟩
  refine ⟨⟨(i 0).val / 5000, ht⟩, flush4_2 _, ?_⟩
  rw [mem_block4]
  intro a
  match a with
  | ⟨0, _⟩ =>
    show win4_2.index ⟨(i 0).val / 5000, ht⟩ (0 : Fin 2) * 5000 ≤ (i 0).val ∧ (i 0).val < win4_2.index ⟨(i 0).val / 5000, ht⟩ (0 : Fin 2) * 5000 + 5000
    rw [f5]; show (i 0).val / 5000 * 5000 ≤ (i 0).val ∧ (i 0).val < (i 0).val / 5000 * 5000 + 5000; omega
  | ⟨1, _⟩ =>
    show win4_2.index ⟨(i 0).val / 5000, ht⟩ (1 : Fin 2) * 64 ≤ (i 1).val ∧ (i 1).val < win4_2.index ⟨(i 0).val / 5000, ht⟩ (1 : Fin 2) * 64 + 64
    rw [f4]; omega

/-- So after the last point the output array is the product of the region's input arrays, entry by entry:
    entry (r, b) is Σ_c A(r, c) · W(c, b). -/
theorem output4 (c : Dev nD) :
    (dat4 V c).arrAt 2 cfg4.N
      = matProd (m := 100000) (k := 64) (n := 64) (V c (Pipeline.arrRef spec4 0)) (V c (Pipeline.arrRef spec4 1)) :=
  (dat4 V c).arrAt_eq_of_cover 2 _ (fun t _ => written_back4 V c t) rows_covered4

/-- The same array, as the host's product of the two input arrays. -/
theorem final4 [Cert.ReferenceIdeal.Facts₀] (c : Dev nD) :
    (dat4 V c).arrAt 2 cfg4.N
      = Host.dotGeneral (F := Ideal) (φ₁ := .f32) (φ₂ := .f32) Cert.ReferenceIdeal.dot_S100000x64_S64x64_S100000x64_1_0_0_1_n_n none
          (V c (Pipeline.arrRef spec4 0)) (V c (Pipeline.arrRef spec4 1)) :=
  (output4 V c).trans
    (dotGeneral_eq_matProd Cert.ReferenceIdeal.Facts₀.dot_S100000x64_S64x64_S100000x64_1_0_0_1_n_n_wf none _ _).symm

end Cert.KernelIdeal.RegionMM

end
-- ==== Proof.LibKeepdims.lean ====
import Idealize.ShloMosaic.Lib.Pipeline.Value
import Idealize.ShloMosaic.Lib.ValueIdx
import Idealize.ShloMosaic.Lib.ValueLayout
import Idealize.ShloMosaic.PureOps.Ideal.Laws

/-!
# Keepdims columns, a row sum and a plain matrix product, read at an index

General facts about layout operations on small ranks, in the style of the library's
`shapeCast_a_1a_apply` and `broadcastTo_1b_ab_apply`:

* an `[a]` vector cast to the column `[a, 1]` reads, at `(i, u)`, the vector at `i`;
* a column `[a, 1]` broadcast to `[a, b]` reads, at `(p, c)`, the column at `(p, 0)`;
* over the extended reals, a sum over the last axis of an `[a, b]` array into `[a]`, read at `i`, is the
  sum over `k < b` of the array at `(i, k)`.
-/

noncomputable section

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims

end
-- ==== Proof.RegionCombine.lean ====
import proofs.«148020_j2370821947640_1_alg».proof.Proof.Gen.KernelIdeal.Frame
import proofs.«148020_j2370821947640_1_alg».proof.ReferenceIdeal
import proofs.«148020_j2370821947640_1_alg».proof.Proof.LibKeepdims
import Idealize.ShloMosaic.Lib.Pipeline.Value
import Idealize.ShloMosaic.Lib.ValueIdx
import Idealize.ShloMosaic.Lib.ValueLayout

/-!
# The combine regions, as one function of their arrays

Each of the three combine regions reads two matrices `agg`, `hp` of shape `[100000, 64]`, a column `snc`
of shape `[100000, 1]` and a row `br` of shape `[1, 64]`, ten blocks of `10000` rows at a time, and writes

  `leaky1 (agg (i, j) + hp (i, j) * snc (i, 0) + br (0, j))`

at every index `(i, j)` of its output, where `leaky1 z` is `z` when `z ≥ 0` and `0.01 * z` otherwise. Every
operation is applied elementwise, so the statement holds for any interpretation of the float operations.

The steps: the value one grid point stores, read at an index of its block; the place of the block's indices
inside the arrays (point `t` works on rows `10000 t …`, the column block follows it, the row block is the
whole row); hence what a point writes back is its block of `combineAt`; the ten blocks cover every row; so
the array ends as `combineAt` of the arrays the region found. The host's form of the same function, with the
scale `sn : [100000]` and the bias `b : [64]` broadcast in two steps each, is `combineAt` of their casts to
a column and to a row.
-/

set_option maxRecDepth 16384

noncomputable section

namespace Cert.KernelIdeal.RegionCombine

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]

/-- The leaky rectifier with slope `0.01` on one element: `z` where `z ≥ 0`, `0.01 * z` elsewhere. -/
def leaky1 (z : F .f32) : F .f32 :=
  Scalar.select (FloatOps.cmpf .oge z (FloatOps.ofBits .f32 0x00000000#32)) z
    (FloatOps.mulf (FloatOps.ofBits .f32 0x3C23D70A#32) z)

/-- The combine function at an index `(i, j)`: `leaky1 (agg (i, j) + hp (i, j) * snc (i, 0) + br (0, j))`. -/
def combineAt (agg hp : FVec F ⟨2, ![100000, 64]⟩ .f32) (snc : FVec F ⟨2, ![100000, 1]⟩ .f32)
    (br : FVec F ⟨2, ![1, 64]⟩ .f32) : FVec F ⟨2, ![100000, 64]⟩ .f32 := fun i =>
  leaky1 (FloatOps.addf (FloatOps.addf (agg i) (FloatOps.mulf (hp i) (snc (ix2 (i 0) (0 : Fin 1))))) (br (ix2 (0 : Fin 1) (i 1))))

/-! ## One block: the stored value at an index -/

/-- The sum `x0 + x1 * (x2 along columns) + (x3 along rows)` of one block, read at `(p, q)`. -/
theorem pre_at (x0 x1 : FVec F S10000x64 .f32) (x2 : FVec F S10000x1 .f32) (x3 : FVec F S1x64 .f32) (p : Fin 10000) (q : Fin 64) :
    addf (addf x0 (mulf x1 (broadcastTo S10000x64 x2 broadcasts_S10000x1_S10000x64))) (broadcastTo S10000x64 x3 broadcasts_S1x64_S10000x64) (ix2 p q)
      = FloatOps.addf (FloatOps.addf (x0 (ix2 p q)) (FloatOps.mulf (x1 (ix2 p q)) (x2 (ix2 p (0 : Fin 1))))) (x3 (ix2 (0 : Fin 1) q)) := by
  show FloatOps.addf (FloatOps.addf (x0 (ix2 p q)) (FloatOps.mulf (x1 (ix2 p q)) (broadcastTo S10000x64 x2 broadcasts_S10000x1_S10000x64 (ix2 p q))))
      (broadcastTo S10000x64 x3 broadcasts_S1x64_S10000x64 (ix2 p q)) = _
  rw [Cert.Keepdims.broadcastTo_a1_ab_apply x2 broadcasts_S10000x1_S10000x64 p q, broadcastTo_1b_ab_apply x3 broadcasts_S1x64_S10000x64 p q]

theorem hz : (![0, 0] : Fin 2 → Nat) = fun _ => 0 := funext fun a => by fin_cases a <;> rfl

/-- `combineAt` at `i` from the four arrays read at indices that are `i`, `i`, `(i 0, 0)` and `(0, i 1)`. -/
theorem combineAt_of (A0 A1 : FVec F ⟨2, ![100000, 64]⟩ .f32) (A2 : FVec F ⟨2, ![100000, 1]⟩ .f32) (A3 : FVec F ⟨2, ![1, 64]⟩ .f32)
    (i i0 i1 : (⟨2, ![100000, 64]⟩ : Shape).Idx) (i2 : (⟨2, ![100000, 1]⟩ : Shape).Idx) (i3 : (⟨2, ![1, 64]⟩ : Shape).Idx)
    (h0 : i0 = i) (h1 : i1 = i) (h2 : i2 = ix2 (i 0) (0 : Fin 1)) (h3 : i3 = ix2 (0 : Fin 1) (i 1)) :
    leaky1 (FloatOps.addf (FloatOps.addf (A0 i0) (FloatOps.mulf (A1 i1) (A2 i2))) (A3 i3)) = combineAt A0 A1 A2 A3 i := by
  subst h0 h1 h2 h3
  rfl

/-! ## Region 1 -/

section Region1
variable (V : (c : Dev nD) → (b : Ref sig .tc) → Buf (Elt F) ((c : Thread nD τ).loc b))

/-- The value a grid point stores, read at `(p, q)` of its block: the identity casts dropped, the column and the
    row broadcasts read at their one column and one row. -/
theorem pay1_at (x0 x1 : Vec F S10000x64 .f32) (x2 : Vec F S10000x1 .f32) (x3 : Vec F S1x64 .f32) (p : Fin 10000) (q : Fin 64) :
    k1_pay1 x0 x1 x2 x3 (ix2 p q)
      = leaky1 (FloatOps.addf (FloatOps.addf (x0 (ix2 p q)) (FloatOps.mulf (x1 (ix2 p q)) (x2 (ix2 p (0 : Fin 1))))) (x3 (ix2 (0 : Fin 1) q))) := by
  unfold k1_pay1
  simp only [shapeCast_self]
  exact congrArg leaky1 (pre_at x0 x1 x2 x3 p q)

/-- The index maps over the ten points: the two matrices and the column move with the output along the rows, the
    column's and the row's other block index is `0`, and the output's block row is the point. -/
theorem idx_facts1 : ∀ t : Fin cfg1.N,
    win1_0.index t (0 : Fin 2) = win1_4.index t (0 : Fin 2) ∧ win1_0.index t (1 : Fin 2) = win1_4.index t (1 : Fin 2)
    ∧ win1_1.index t (0 : Fin 2) = win1_4.index t (0 : Fin 2) ∧ win1_1.index t (1 : Fin 2) = win1_4.index t (1 : Fin 2)
    ∧ win1_2.index t (0 : Fin 2) = win1_4.index t (0 : Fin 2) ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Every block row is some point's. -/
theorem idx_onto1 : ∀ q0 : Fin 10, ∃ t : Fin cfg1.N, win1_4.index t = ![q0.val, 0] :=
  (by decide +kernel : ∀ q0 : Fin 10, ∃ t : Fin grid1.N, win1_4.index t = ![q0.val, 0])

set_option maxHeartbeats 1000000 in
/-- What point `t` writes back is block `t` of `combineAt` of the arrays as the region finds them. -/
theorem flushed1_eq (c : Dev nD) (t : Fin cfg1.N) :
    (dat1 V c).flushed 4 t = ((cfg1.win 4).blk t).view.read (Elt F)
      (combineAt (V c (Pipeline.arrRef spec1 0)) (V c (Pipeline.arrRef spec1 1)) (V c (Pipeline.arrRef spec1 2)) (V c (Pipeline.arrRef spec1 3))) := by
  show (cfg1.win 4).cut (grid1.coords t) ((dat1 V c).after 4 t) = _
  rw [after1_4]
  unfold out1_4
  rw [View.canon_unit_zero hz]
  simp only [View.ld_unit_zero (S := S10000x64) hz, View.ld_unit_zero (S := S10000x1) hz, View.ld_unit_zero (S := S1x64) hz]
  obtain ⟨e00, e01, e10, e11, e20, e21, e30, e31, e40, e41⟩ := idx_facts1 t
  funext j
  refine (congrArg (k1_pay1 (iblk1 V c 0 t) (iblk1 V c 1 t) (iblk1 V c 2 t) (iblk1 V c 3 t)) (eq_ix2 j)).trans ?_
  refine (pay1_at _ _ _ _ (j 0) (j 1)).trans ?_
  have hj0 : (j 0).val < 10000 := (j 0).isLt
  have hj1 : (j 1).val < 64 := (j 1).isLt
  refine combineAt_of (V c (Pipeline.arrRef spec1 0)) (V c (Pipeline.arrRef spec1 1)) (V c (Pipeline.arrRef spec1 2)) (V c (Pipeline.arrRef spec1 3))
    (((cfg1.win 4).blk t).view.emb j)
    (((cfg1.win 0).blk t).view.emb (ix2 (j 0) (j 1))) (((cfg1.win 1).blk t).view.emb (ix2 (j 0) (j 1)))
    (((cfg1.win 2).blk t).view.emb (ix2 (j 0) (0 : Fin 1))) (((cfg1.win 3).blk t).view.emb (ix2 (0 : Fin 1) (j 1))) ?_ ?_ ?_ ?_
  · funext a; apply Fin.ext
    match a with
    | ⟨0, _⟩ => show win1_0.index t (0 : Fin 2) * 10000 + 1 * (j 0).val = win1_4.index t (0 : Fin 2) * 10000 + 1 * (j 0).val; omega
    | ⟨1, _⟩ => show win1_0.index t (1 : Fin 2) * 64 + 1 * (j 1).val = win1_4.index t (1 : Fin 2) * 64 + 1 * (j 1).val; omega
  · funext a; apply Fin.ext
    match a with
    | ⟨0, _⟩ => show win1_1.index t (0 : Fin 2) * 10000 + 1 * (j 0).val = win1_4.index t (0 : Fin 2) * 10000 + 1 * (j 0).val; omega
    | ⟨1, _⟩ => show win1_1.index t (1 : Fin 2) * 64 + 1 * (j 1).val = win1_4.index t (1 : Fin 2) * 64 + 1 * (j 1).val; omega
  · funext a; apply Fin.ext
    match a with
    | ⟨0, _⟩ => show win1_2.index t (0 : Fin 2) * 10000 + 1 * (j 0).val = win1_4.index t (0 : Fin 2) * 10000 + 1 * (j 0).val; omega
    | ⟨1, _⟩ => show win1_2.index t (1 : Fin 2) * 1 + 1 * 0 = 0; omega
  · funext a; apply Fin.ext
    match a with
    | ⟨0, _⟩ => show win1_3.index t (0 : Fin 2) * 1 + 1 * 0 = 0; omega
    | ⟨1, _⟩ => show win1_3.index t (1 : Fin 2) * 64 + 1 * (j 1).val = win1_4.index t (1 : Fin 2) * 64 + 1 * (j 1).val; omega

end Region1

section Region1Array
variable (V : (c : Dev nD) → (b : Ref sig .tc) → Buf (Elt F) ((c : Thread nD τ).loc b))

/-- An index of the output array is in point `t`'s block iff each coordinate is in the block's range on its axis. -/
theorem mem_blk1 (t : Fin cfg1.N) (i : S100000x64.Idx) :
    i ∈ ((cfg1.win 4).blk t).view.set ↔ ∀ a : Fin 2, win1_4.index t a * S10000x64.size a ≤ (i a).val ∧ (i a).val < win1_4.index t a * S10000x64.size a + S10000x64.size a := by
  show i ∈ ((View.whole main_v43).slice (win1_4.rect t)).set ↔ _
  rw [View.set_slice_whole, Rect.mem_set_unit]
  exact Iff.rfl

/-- The ten blocks of `10000` rows cover the array: row `r` is in the block of point `r / 10000`. -/
theorem cover1 (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  obtain ⟨t, ht⟩ := idx_onto1 ⟨(i 0).val / 10000, by omega⟩
  have q0 : win1_4.index t (0 : Fin 2) = (i 0).val / 10000 := congrFun ht 0
  have q1 : win1_4.index t (1 : Fin 2) = 0 := congrFun ht 1
  refine ⟨t, flush1_4 t, ?_⟩
  rw [mem_blk1]
  intro a
  match a with
  | ⟨0, _⟩ => show win1_4.index t (0 : Fin 2) * 10000 ≤ (i 0).val ∧ (i 0).val < win1_4.index t (0 : Fin 2) * 10000 + 10000; omega
  | ⟨1, _⟩ => show win1_4.index t (1 : Fin 2) * 64 ≤ (i 1).val ∧ (i 1).val < win1_4.index t (1 : Fin 2) * 64 + 64; omega

/-- The output array after the region: `combineAt` of the four arrays as the region finds them. -/
theorem final1 (c : Dev nD) : (dat1 (F := F) V c).arrAt 4 cfg1.N
    = combineAt (V c (Pipeline.arrRef spec1 0)) (V c (Pipeline.arrRef spec1 1)) (V c (Pipeline.arrRef spec1 2)) (V c (Pipeline.arrRef spec1 3)) :=
  (dat1 V c).arrAt_eq_of_cover 4 _ (fun t _ => flushed1_eq V c t) cover1

end Region1Array

/-! ## Region 3 -/

section Region3
variable (V : (c : Dev nD) → (b : Ref sig .tc) → Buf (Elt F) ((c : Thread nD τ).loc b))

/-- The value a grid point stores, read at `(p, q)` of its block: the identity casts dropped, the column and the
    row broadcasts read at their one column and one row. -/
theorem pay3_at (x0 x1 : Vec F S10000x64 .f32) (x2 : Vec F S10000x1 .f32) (x3 : Vec F S1x64 .f32) (p : Fin 10000) (q : Fin 64) :
    k3_pay1 x0 x1 x2 x3 (ix2 p q)
      = leaky1 (FloatOps.addf (FloatOps.addf (x0 (ix2 p q)) (FloatOps.mulf (x1 (ix2 p q)) (x2 (ix2 p (0 : Fin 1))))) (x3 (ix2 (0 : Fin 1) q))) := by
  unfold k3_pay1
  simp only [shapeCast_self]
  exact congrArg leaky1 (pre_at x0 x1 x2 x3 p q)

/-- The index maps over the ten points: the two matrices and the column move with the output along the rows, the
    column's and the row's other block index is `0`, and the output's block row is the point. -/
theorem idx_facts3 : ∀ t : Fin cfg3.N,
    win3_0.index t (0 : Fin 2) = win3_4.index t (0 : Fin 2) ∧ win3_0.index t (1 : Fin 2) = win3_4.index t (1 : Fin 2)
    ∧ win3_1.index t (0 : Fin 2) = win3_4.index t (0 : Fin 2) ∧ win3_1.index t (1 : Fin 2) = win3_4.index t (1 : Fin 2)
    ∧ win3_2.index t (0 : Fin 2) = win3_4.index t (0 : Fin 2) ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Every block row is some point's. -/
theorem idx_onto3 : ∀ q0 : Fin 10, ∃ t : Fin cfg3.N, win3_4.index t = ![q0.val, 0] :=
  (by decide +kernel : ∀ q0 : Fin 10, ∃ t : Fin grid3.N, win3_4.index t = ![q0.val, 0])

set_option maxHeartbeats 1000000 in
/-- What point `t` writes back is block `t` of `combineAt` of the arrays as the region finds them. -/
theorem flushed3_eq (c : Dev nD) (t : Fin cfg3.N) :
    (dat3 V c).flushed 4 t = ((cfg3.win 4).blk t).view.read (Elt F)
      (combineAt (V c (Pipeline.arrRef spec3 0)) (V c (Pipeline.arrRef spec3 1)) (V c (Pipeline.arrRef spec3 2)) (V c (Pipeline.arrRef spec3 3))) := by
  show (cfg3.win 4).cut (grid3.coords t) ((dat3 V c).after 4 t) = _
  rw [after3_4]
  unfold out3_4
  rw [View.canon_unit_zero hz]
  simp only [View.ld_unit_zero (S := S10000x64) hz, View.ld_unit_zero (S := S10000x1) hz, View.ld_unit_zero (S := S1x64) hz]
  obtain ⟨e00, e01, e10, e11, e20, e21, e30, e31, e40, e41⟩ := idx_facts3 t
  funext j
  refine (congrArg (k3_pay1 (iblk3 V c 0 t) (iblk3 V c 1 t) (iblk3 V c 2 t) (iblk3 V c 3 t)) (eq_ix2 j)).trans ?_
  refine (pay3_at _ _ _ _ (j 0) (j 1)).trans ?_
  have hj0 : (j 0).val < 10000 := (j 0).isLt
  have hj1 : (j 1).val < 64 := (j 1).isLt
  refine combineAt_of (V c (Pipeline.arrRef spec3 0)) (V c (Pipeline.arrRef spec3 1)) (V c (Pipeline.arrRef spec3 2)) (V c (Pipeline.arrRef spec3 3))
    (((cfg3.win 4).blk t).view.emb j)
    (((cfg3.win 0).blk t).view.emb (ix2 (j 0) (j 1))) (((cfg3.win 1).blk t).view.emb (ix2 (j 0) (j 1)))
    (((cfg3.win 2).blk t).view.emb (ix2 (j 0) (0 : Fin 1))) (((cfg3.win 3).blk t).view.emb (ix2 (0 : Fin 1) (j 1))) ?_ ?_ ?_ ?_
  · funext a; apply Fin.ext
    match a with
    | ⟨0, _⟩ => show win3_0.index t (0 : Fin 2) * 10000 + 1 * (j 0).val = win3_4.index t (0 : Fin 2) * 10000 + 1 * (j 0).val; omega
    | ⟨1, _⟩ => show win3_0.index t (1 : Fin 2) * 64 + 1 * (j 1).val = win3_4.index t (1 : Fin 2) * 64 + 1 * (j 1).val; omega
  · funext a; apply Fin.ext
    match a with
    | ⟨0, _⟩ => show win3_1.index t (0 : Fin 2) * 10000 + 1 * (j 0).val = win3_4.index t (0 : Fin 2) * 10000 + 1 * (j 0).val; omega
    | ⟨1, _⟩ => show win3_1.index t (1 : Fin 2) * 64 + 1 * (j 1).val = win3_4.index t (1 : Fin 2) * 64 + 1 * (j 1).val; omega
  · funext a; apply Fin.ext
    match a with
    | ⟨0, _⟩ => show win3_2.index t (0 : Fin 2) * 10000 + 1 * (j 0).val = win3_4.index t (0 : Fin 2) * 10000 + 1 * (j 0).val; omega
    | ⟨1, _⟩ => show win3_2.index t (1 : Fin 2) * 1 + 1 * 0 = 0; omega
  · funext a; apply Fin.ext
    match a with
    | ⟨0, _⟩ => show win3_3.index t (0 : Fin 2) * 1 + 1 * 0 = 0; omega
    | ⟨1, _⟩ => show win3_3.index t (1 : Fin 2) * 64 + 1 * (j 1).val = win3_4.index t (1 : Fin 2) * 64 + 1 * (j 1).val; omega

end Region3

section Region3Array
variable (V : (c : Dev nD) → (b : Ref sig .tc) → Buf (Elt F) ((c : Thread nD τ).loc b))

/-- An index of the output array is in point `t`'s block iff each coordinate is in the block's range on its axis. -/
theorem mem_blk3 (t : Fin cfg3.N) (i : S100000x64.Idx) :
    i ∈ ((cfg3.win 4).blk t).view.set ↔ ∀ a : Fin 2, win3_4.index t a * S10000x64.size a ≤ (i a).val ∧ (i a).val < win3_4.index t a * S10000x64.size a + S10000x64.size a := by
  show i ∈ ((View.whole main_v59).slice (win3_4.rect t)).set ↔ _
  rw [View.set_slice_whole, Rect.mem_set_unit]
  exact Iff.rfl

/-- The ten blocks of `10000` rows cover the array: row `r` is in the block of point `r / 10000`. -/
theorem cover3 (i : S100000x64.Idx) : ∃ t : Fin cfg3.N, (cfg3.win 4).flush t = true ∧ i ∈ ((cfg3.win 4).blk t).view.set := by
  have hi0 : (i 0).val < 100000 := (i 0).isLt
  have hi1 : (i 1).val < 64 := (i 1).isLt
  obtain ⟨t, ht⟩ := idx_onto3 ⟨(i 0).val / 10000, by omega⟩
  have q0 : win3_4.index t (0 : Fin 2) = (i 0).val / 10000 := congrFun ht 0
  have q1 : win3_4.index t (1 : Fin 2) = 0 := congrFun ht 1
  refine ⟨t, flush3_4 t, ?_⟩
  rw [mem_blk3]
  intro a
  match a with
  | ⟨0, _⟩ => show win3_4.index t (0 : Fin 2) * 10000 ≤ (i 0).val ∧ (i 0).val < win3_4.index t (0 : Fin 2) * 10000 + 10000; omega
  | ⟨1, _⟩ => show win3_4.index t (1 : Fin 2) * 64 ≤ (i 1).val ∧ (i 1).val < win3_4.index t (1 : Fin 2) * 64 + 64; omega

/-- The output array after the region: `combineAt` of the four arrays as the region finds them. -/
theorem final3 (c : Dev nD) : (dat3 (F := F) V c).arrAt 4 cfg3.N
    = combineAt (V c (Pipeline.arrRef spec3 0)) (V c (Pipeline.arrRef spec3 1)) (V c (Pipeline.arrRef spec3 2)) (V c (Pipeline.arrRef spec3 3)) :=
  (dat3 V c).arrAt_eq_of_cover 4 _ (fun t _ => flushed3_eq V c t) cover3

end Region3Array

/-! ## Region 5 -/

section Region5
variable (V : (c : Dev nD) → (b : Ref sig .tc) → Buf (Elt F) ((c : Thread nD τ).loc b))

/-- The value a grid point stores, read at `(p, q)` of its block: the identity casts dropped, the column and the
    row broadcasts read at their one column and one row. -/
theorem pay5_at (x0 x1 : Vec F S10000x64 .f32) (x2 : Vec F S10000x1 .f32) (x3 : Vec F S1x64 .f32) (p : Fin 10000) (q : Fin 64) :
    k5_pay1 x0 x1 x2 x3 (ix2 p q)
      = leaky1 (FloatOps.addf (FloatOps.addf (x0 (ix2 p q)) (FloatOps.mulf (x1 (ix2 p q)) (x2 (ix2 p (0 : Fin 1))))) (x3 (ix2 (0 : Fin 1) q))) := by
  unfold k5_pay1
  simp only [shapeCast_self]
  exact congrArg leaky1 (pre_at x0 x1 x2 x3 p q)

/-- The index maps over the ten points: the two matrices and the column move with the output along the rows, the
    column's and the row's other block index is `0`, and the output's block row is the point. -/
theorem idx_facts5 : ∀ t : Fin cfg5.N,
    win5_0.index t (0 : Fin 2) = win5_4.index t (0 : Fin 2) ∧ win5_0.index t (1 : Fin 2) = win5_4.index t (1 : Fin 2)
    ∧ win5_1.index t (0 : Fin 2) = win5_4.index t (0 : Fin 2) ∧ win5_1.index t (1 : Fin 2) = win5_4.index t (1 : Fin 2)
    ∧ win5_2.index t (0 : Fin 2) = win5_4.index t (0 : Fin 2) ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- Every block row is some point's. -/
theorem idx_onto5 : ∀ q0 : Fin 10, ∃ t : Fin cfg5.N, win5_4.index t = ![q0.val, 0] :=
  (by decide +kernel : ∀ q0 : Fin 10, ∃ t : Fin grid5.N, win5_4.index t = ![q0.val, 0])

set_option maxHeartbeats 1000000 in
/-- What point `t` writes back is block `t` of `combineAt` of the arrays as the region finds them. -/
theorem flushed5_eq (c : Dev nD) (t : Fin cfg5.N) :
    (dat5 V c).flushed 4 t = ((cfg5.win 4).blk t).view.read (Elt F)
      (combineAt (V c (Pipeline.arrRef spec5 0)) (V c (Pipeline.arrRef spec5 1)) (V c (Pipeline.arrRef spec5 2)) (V c (Pipeline.arrRef spec5 3))) := by
  show (cfg5.win 4).cut (grid5.coords t) ((dat5 V c).after 4 t) = _
  rw [after5_4]
  unfold out5_4
  rw [View.canon_unit_zero hz]
  simp only [View.ld_unit_zero (S := S10000x64) hz, View.ld_unit_zero (S := S10000x1) hz, View.ld_unit_zero (S := S1x64) hz]
  obtain ⟨e00, e01, e10, e11, e20, e21, e30, e31, e40, e41⟩ := idx_facts5 t
  funext j
  refine (congrArg (k5_pay1 (iblk5 V c 0 t) (iblk5 V c 1 t) (iblk5 V c 2 t) (iblk5 V c 3 t)) (eq_ix2 j)).trans ?_
  refine (pay5_at _ _ _ _ (j 0) (j 1)).trans ?_
  have hj0 : (j 0).val < 10000 := (j 0).isLt
  have hj1 : (j 1).val < 64 := (j 1).isLt
  refine combineAt_of (V c (Pipeline.arrRef spec5 0)) (V c (Pipeline.arrRef spec5 1)) (V c (Pipeline.arrRef spec5 2)) (V c (Pipeline.arrRef spec5 3))
    (((cfg5.win 4).blk t).view.emb j)
    (((cfg5.win 0).blk t).view.emb (ix2 (j 0) (j 1))) (((cfg5.win 1).blk t).view.emb (ix2 (j 0) (j 1)))
    (((cfg5.win 2).blk t).view.emb (ix2 (j 0) (0 : Fin 1))) (((cfg5.win 3).blk t).view.emb (ix2 (0 : Fin 1) (j 1))) ?_ ?_ ?_ ?_
  · funext a; apply Fin.ext
    match a with
    | ⟨0, _⟩ => show win5_0.index t (0 : Fin 2) * 10000 + 1 * (j 0).val = win5_4.index t (0 : Fin 2) * 10000 + 1 * (j 0).val; omega
    | ⟨1, _⟩ => show win5_0.index t (1 : Fin 2) * 64 + 1 * (j 1).val = win5_4.index t (1 : Fin 2) * 64 + 1 * (j 1).val; omega
  · funext a; apply Fin.ext
    match a with
    | ⟨0, _⟩ => show win5_1.index t (0 : Fin 2) * 10000 + 1 * (j 0).val = win5_4.index t (0 : Fin 2) * 10000 + 1 * (j 0).val; omega
    | ⟨1, _⟩ => show win5_1.index t (1 : Fin 2) * 64 + 1 * (j 1).val = win5_4.index t (1 : Fin 2) * 64 + 1 * (j 1).val; omega
  · funext a; apply Fin.ext
    match a with
    | ⟨0, _⟩ => show win5_2.index t (0 : Fin 2) * 10000 + 1 * (j 0).val = win5_4.index t (0 : Fin 2) * 10000 + 1 * (j 0).val; omega
    | ⟨1, _⟩ => show win5_2.index t (1 : Fin 2) * 1 + 1 * 0 = 0; omega
  · funext a; apply Fin.ext
    match a with
    | ⟨0, _⟩ => show win5_3.index t (0 : Fin 2) * 1 + 1 * 0 = 0; omega
    | ⟨1, _⟩ => show win5_3.index t (1 : Fin 2) * 64 + 1 * (j 1).val = win5_4.index t (1 : Fin 2) * 64 + 1 * (j 1).val; omega

end Region5

section Region5Array
variable (V : (c : Dev nD) → (b : Ref sig .tc) → Buf (Elt F) ((c : Thread nD τ).loc b))

/-- An index of the output array is in point `t`'s block iff each coordinate is in the block's range on its axis. -/
theorem mem_blk5 (t : Fin cfg5.N) (i : S100000x64.Idx) :
    i ∈ ((cfg5.win 4).blk t).view.set ↔ ∀ a : Fin 2, win5_4.index t a * S10000x64.size a ≤ (i a).val ∧ (i a).val < win5_4.index t a * S10000x64.size a + S10000x64.size a := by
  show i ∈ ((View.whole main_v75).slice (win5_4.rect t)).set ↔ _
  rw [View.set_slice_whole, Rect.mem_set_unit]
  exact Iff.rfl

/-- The ten blocks of `10000` rows cover the array: row `r` is in the block of point `r / 10000`. -/
theorem cover5 (i : S100000x64.Idx) : ∃ t : Fin cfg5.N, (cfg5.win 4).flush t = true ∧ i ∈ ((cfg5.win 4).blk t).view.set := by
  have hi0 : (i 0).val < 100000 := (i 0).isLt
  have hi1 : (i 1).val < 64 := (i 1).isLt
  obtain ⟨t, ht⟩ := idx_onto5 ⟨(i 0).val / 10000, by omega⟩
  have q0 : win5_4.index t (0 : Fin 2) = (i 0).val / 10000 := congrFun ht 0
  have q1 : win5_4.index t (1 : Fin 2) = 0 := congrFun ht 1
  refine ⟨t, flush5_4 t, ?_⟩
  rw [mem_blk5]
  intro a
  match a with
  | ⟨0, _⟩ => show win5_4.index t (0 : Fin 2) * 10000 ≤ (i 0).val ∧ (i 0).val < win5_4.index t (0 : Fin 2) * 10000 + 10000; omega
  | ⟨1, _⟩ => show win5_4.index t (1 : Fin 2) * 64 ≤ (i 1).val ∧ (i 1).val < win5_4.index t (1 : Fin 2) * 64 + 64; omega

/-- The output array after the region: `combineAt` of the four arrays as the region finds them. -/
theorem final5 (c : Dev nD) : (dat5 (F := F) V c).arrAt 4 cfg5.N
    = combineAt (V c (Pipeline.arrRef spec5 0)) (V c (Pipeline.arrRef spec5 1)) (V c (Pipeline.arrRef spec5 2)) (V c (Pipeline.arrRef spec5 3)) :=
  (dat5 V c).arrAt_eq_of_cover 4 _ (fun t _ => flushed5_eq V c t) cover5

end Region5Array

/-! ## The host's form of the same function -/

section Host
variable {α : Type}

/-- A vector `[a]` broadcast to the column `[a, 1]` and then along the columns to `[a, b]` reads, at `(p, q)`,
    the vector at `p`. -/
theorem bcastCol_at {a b : ℕ} (v : (⟨1, ![a]⟩ : Shape).Idx → α)
    (h1 : (⟨1, ![a]⟩ : Shape).BroadcastsInDim ⟨2, ![a, 1]⟩ ![0]) (h2 : (⟨2, ![a, 1]⟩ : Shape).BroadcastsInDim ⟨2, ![a, b]⟩ ![0, 1])
    (p : Fin a) (q : Fin b) :
    broadcastInDim ⟨2, ![a, b]⟩ ![0, 1] h2 (broadcastInDim ⟨2, ![a, 1]⟩ ![0] h1 v) (ix2 p q) = v (ix1 p) := by
  refine (broadcastInDim_apply _ h2 _ (ix2 p q) (ix2 p (0 : Fin 1)) fun ax => ?_).trans
    (broadcastInDim_apply _ h1 v (ix2 p (0 : Fin 1)) (ix1 p) fun ax => ?_)
  · match ax with
    | ⟨0, _⟩ =>
      show p.val = if a = 1 then 0 else p.val
      split
      · have := p.isLt; omega
      · rfl
    | ⟨1, _⟩ => rfl
  · match ax with
    | ⟨0, _⟩ =>
      show p.val = if a = 1 then 0 else p.val
      split
      · have := p.isLt; omega
      · rfl

/-- A vector `[b]` broadcast to the row `[1, b]` and then along the rows to `[a, b]` reads, at `(p, q)`, the
    vector at `q`. -/
theorem bcastRow_at {a b : ℕ} (v : (⟨1, ![b]⟩ : Shape).Idx → α)
    (h1 : (⟨1, ![b]⟩ : Shape).BroadcastsInDim ⟨2, ![1, b]⟩ ![1]) (h2 : (⟨2, ![1, b]⟩ : Shape).BroadcastsInDim ⟨2, ![a, b]⟩ ![0, 1])
    (p : Fin a) (q : Fin b) :
    broadcastInDim ⟨2, ![a, b]⟩ ![0, 1] h2 (broadcastInDim ⟨2, ![1, b]⟩ ![1] h1 v) (ix2 p q) = v (ix1 q) := by
  refine (broadcastInDim_apply _ h2 _ (ix2 p q) (ix2 (0 : Fin 1) q) fun ax => ?_).trans
    (broadcastInDim_apply _ h1 v (ix2 (0 : Fin 1) q) (ix1 q) fun ax => ?_)
  · match ax with
    | ⟨0, _⟩ => rfl
    | ⟨1, _⟩ =>
      show q.val = if b = 1 then 0 else q.val
      split
      · have := q.isLt; omega
      · rfl
  · match ax with
    | ⟨0, _⟩ =>
      show q.val = if b = 1 then 0 else q.val
      split
      · have := q.isLt; omega
      · rfl

end Host

/-- The host computes the same function: with the scale `sn : [100000]` broadcast to a column and then along the
    columns, the bias `b : [64]` broadcast to a row and then along the rows, and the rectifier written as a selection
    against the broadcast constants, it is `combineAt` of the scale cast to a column and the bias cast to a row. -/
theorem refCombine_eq [Cert.ReferenceIdeal.Facts₀] (agg hp : FVec F ⟨2, ![100000, 64]⟩ .f32)
    (sn : FVec F ⟨1, ![100000]⟩ .f32) (b : FVec F ⟨1, ![64]⟩ .f32) :
    (select
      (cmpf .oge
        (addf (addf agg (mulf hp (broadcastInDim Cert.ReferenceIdeal.S100000x64 ![0, 1] Cert.ReferenceIdeal.Facts₀.bcast_S100000x1_S100000x64_0_1
            (broadcastInDim Cert.ReferenceIdeal.S100000x1 ![0] Cert.ReferenceIdeal.Facts₀.bcast_S100000_S100000x1_0 sn))))
          (broadcastInDim Cert.ReferenceIdeal.S100000x64 ![0, 1] Cert.ReferenceIdeal.Facts₀.bcast_S1x64_S100000x64_0_1
            (broadcastInDim Cert.ReferenceIdeal.S1x64 ![1] Cert.ReferenceIdeal.Facts₀.bcast_S64_S1x64_1 b)))
        (broadcastInDim Cert.ReferenceIdeal.S100000x64 ![] Cert.ReferenceIdeal.Facts₀.bcast_S_S100000x64 (constant Cert.ReferenceIdeal.S_ .f32 0x00000000#32)))
      (addf (addf agg (mulf hp (broadcastInDim Cert.ReferenceIdeal.S100000x64 ![0, 1] Cert.ReferenceIdeal.Facts₀.bcast_S100000x1_S100000x64_0_1
          (broadcastInDim Cert.ReferenceIdeal.S100000x1 ![0] Cert.ReferenceIdeal.Facts₀.bcast_S100000_S100000x1_0 sn))))
        (broadcastInDim Cert.ReferenceIdeal.S100000x64 ![0, 1] Cert.ReferenceIdeal.Facts₀.bcast_S1x64_S100000x64_0_1
          (broadcastInDim Cert.ReferenceIdeal.S1x64 ![1] Cert.ReferenceIdeal.Facts₀.bcast_S64_S1x64_1 b)))
      (mulf (broadcastInDim Cert.ReferenceIdeal.S100000x64 ![] Cert.ReferenceIdeal.Facts₀.bcast_S_S100000x64 (id (constant Cert.ReferenceIdeal.S_ .f32 0x3C23D70A#32)))
        (addf (addf agg (mulf hp (broadcastInDim Cert.ReferenceIdeal.S100000x64 ![0, 1] Cert.ReferenceIdeal.Facts₀.bcast_S100000x1_S100000x64_0_1
            (broadcastInDim Cert.ReferenceIdeal.S100000x1 ![0] Cert.ReferenceIdeal.Facts₀.bcast_S100000_S100000x1_0 sn))))
          (broadcastInDim Cert.ReferenceIdeal.S100000x64 ![0, 1] Cert.ReferenceIdeal.Facts₀.bcast_S1x64_S100000x64_0_1
            (broadcastInDim Cert.ReferenceIdeal.S1x64 ![1] Cert.ReferenceIdeal.Facts₀.bcast_S64_S1x64_1 b)))) : FVec F ⟨2, ![100000, 64]⟩ .f32)
      = combineAt agg hp (shapeCast S100000x1 sn Cert.KernelIdeal.Facts₀.shapeCasts_S100000_S100000x1)
          (shapeCast S1x64 b Cert.KernelIdeal.Facts₀.shapeCasts_S64_S1x64) := by
  funext i
  have hc : broadcastInDim Cert.ReferenceIdeal.S100000x64 ![0, 1] Cert.ReferenceIdeal.Facts₀.bcast_S100000x1_S100000x64_0_1
      (broadcastInDim Cert.ReferenceIdeal.S100000x1 ![0] Cert.ReferenceIdeal.Facts₀.bcast_S100000_S100000x1_0 sn) i
        = shapeCast S100000x1 sn Cert.KernelIdeal.Facts₀.shapeCasts_S100000_S100000x1 (ix2 (i 0) (0 : Fin 1)) := by
    rw [Cert.Keepdims.shapeCast_a_a1_apply sn _ (i 0) (0 : Fin 1)]
    exact (congrArg _ (eq_ix2 i)).trans (bcastCol_at sn _ _ (i 0) (i 1))
  have hr : broadcastInDim Cert.ReferenceIdeal.S100000x64 ![0, 1] Cert.ReferenceIdeal.Facts₀.bcast_S1x64_S100000x64_0_1
      (broadcastInDim Cert.ReferenceIdeal.S1x64 ![1] Cert.ReferenceIdeal.Facts₀.bcast_S64_S1x64_1 b) i
        = shapeCast S1x64 b Cert.KernelIdeal.Facts₀.shapeCasts_S64_S1x64 (ix2 (0 : Fin 1) (i 1)) := by
    rw [shapeCast_a_1a_apply b _ (0 : Fin 1) (i 1)]
    exact (congrArg _ (eq_ix2 i)).trans (bcastRow_at b _ _ (i 0) (i 1))
  show leaky1 (FloatOps.addf (FloatOps.addf (agg i) (FloatOps.mulf (hp i)
      (broadcastInDim Cert.ReferenceIdeal.S100000x64 ![0, 1] Cert.ReferenceIdeal.Facts₀.bcast_S100000x1_S100000x64_0_1
        (broadcastInDim Cert.ReferenceIdeal.S100000x1 ![0] Cert.ReferenceIdeal.Facts₀.bcast_S100000_S100000x1_0 sn) i)))
      (broadcastInDim Cert.ReferenceIdeal.S100000x64 ![0, 1] Cert.ReferenceIdeal.Facts₀.bcast_S1x64_S100000x64_0_1
        (broadcastInDim Cert.ReferenceIdeal.S1x64 ![1] Cert.ReferenceIdeal.Facts₀.bcast_S64_S1x64_1 b) i)) = _
  rw [hc, hr]
  rfl

end Cert.KernelIdeal.RegionCombine

end
-- ==== Proof.HeadBridge.lean ====
import proofs.«148020_j2370821947640_1_alg».proof.Proof.Gen.KernelIdeal.Skeleton
import proofs.«148020_j2370821947640_1_alg».proof.Proof.Gen.KernelIdeal
import proofs.«148020_j2370821947640_1_alg».proof.Proof.RefStages
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.HeadBridge

open Idealize.ShloMosaic Idealize.ShloMosaic.ValueIdx

/-! The head at the exact values: the kernel's two matrix products into zero accumulators, its row broadcasts and its
    leaky rectifier with scalar splats are, array by array, the host's two contractions, its two-step broadcasts and
    its leaky rectifier with broadcast scalar constants. -/

/-- A matrix product accumulated into the zero array is the host's contraction over the same dimension record: both
    are, at every output index, the sum over the contraction index of the operands' products. -/
theorem matmul_zero_eq_dotGeneral {sl sr so : Shape} (d : DotDims sl sr so) (l : FVec Ideal sl .f32) (r : FVec Ideal sr .f32) :
    matmul d none l r (constant so .f32 0x00000000#32) = Host.dotGeneral d none l r := by
  funext j
  simp only [matmul, Host.dotGeneral]
  rw [Ideal.matmul_constant_zero_apply, Ideal.dotGeneral_apply]

/-- A vector of length b broadcast first to one row and then to a rows reads, at (r, c), the vector at c. -/
theorem bcastInDim_row_apply {α : Type} {a b : ℕ} (x : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (r : Fin a) (c : Fin b) :
    broadcastInDim ⟨2, ![a, b]⟩ ![0, 1] h2 (broadcastInDim ⟨2, ![1, b]⟩ ![1] h1 x) (ix2 r c) = x (ix1 c) := by
  rw [broadcastInDim_apply ![0, 1] h2 _ (ix2 r c) (ix2 (0 : Fin 1) c) (fun ax => by
        match ax with
        | ⟨0, _⟩ => rfl
        | ⟨1, _⟩ =>
          show c.val = if b = 1 then 0 else c.val
          split
          · have := c.isLt; omega
          · rfl),
    broadcastInDim_apply ![1] h1 x (ix2 (0 : Fin 1) c) (ix1 c) (fun ax => by
        match ax with
        | ⟨0, _⟩ =>
          show c.val = if b = 1 then 0 else c.val
          split
          · have := c.isLt; omega
          · rfl)]

/-- The same row obtained by a reshape to one row and a broadcast along the rows: the two broadcasts agree as arrays. -/
theorem broadcastTo_row_eq {α : Type} {a b : ℕ} (x : (⟨1, ![b]⟩ : Shape).Idx → α)
    (hc : (⟨1, ![b]⟩ : Shape).ShapeCasts ⟨2, ![1, b]⟩) (hb : (⟨2, ![1, b]⟩ : Shape).Broadcasts ⟨2, ![a, b]⟩)
    (h1 : (⟨1, ![b]⟩ : Shape).BroadcastsInDim ⟨2, ![1, b]⟩ ![1])
    (h2 : (⟨2, ![1, b]⟩ : Shape).BroadcastsInDim ⟨2, ![a, b]⟩ ![0, 1]) :
    broadcastTo ⟨2, ![a, b]⟩ (shapeCast ⟨2, ![1, b]⟩ x hc) hb
      = broadcastInDim ⟨2, ![a, b]⟩ ![0, 1] h2 (broadcastInDim ⟨2, ![1, b]⟩ ![1] h1 x) := by
  funext j
  obtain ⟨r, c, rfl⟩ : ∃ (r : Fin a) (c : Fin b), j = ix2 r c := ⟨j 0, j 1, eq_ix2 j⟩
  rw [broadcastTo_1b_ab_apply, shapeCast_a_1a_apply, bcastInDim_row_apply]

/-- A scalar splat is the broadcast of the rank-zero constant of the same word. -/
theorem splat_eq {s : Shape} (φ : FTy) (w : BitVec φ.bits) (h : (⟨0, ![]⟩ : Shape).BroadcastsInDim s ![]) :
    broadcast s (Scalar.ofBits (F := Ideal) φ w) = broadcastInDim s ![] h (constant (⟨0, ![]⟩ : Shape) φ w) := rfl

/-- The kernel's head payload on whole arrays, the biases reshaped to one row, is the [1024, 1] array the
    reference's head holds before its final reshape. -/
theorem pay6_eq (p : FVec Ideal ⟨2, ![1024, 64]⟩ .f32) (w1 : FVec Ideal ⟨2, ![64, 64]⟩ .f32) (b1 : FVec Ideal ⟨1, ![64]⟩ .f32)
    (w2 : FVec Ideal ⟨2, ![64, 1]⟩ .f32) (b2 : FVec Ideal ⟨1, ![1]⟩ .f32) :
    Cert.KernelIdeal.Gen.k6_pay1 (F := Ideal) p w1 (shapeCast Cert.KernelIdeal.S1x64 b1 Cert.KernelIdeal.Gen.shapeCasts_S64_S1x64) w2
        (shapeCast Cert.KernelIdeal.S1x1 b2 Cert.KernelIdeal.Gen.shapeCasts_S1_S1x1)
      = addf (Host.dotGeneral Cert.ReferenceIdeal.dot_S1024x64_S64x1_S1024x1_1_0_0_1_n_n none
        (Cert.ReferenceIdeal.RefRun.leakyG (addf (Host.dotGeneral Cert.ReferenceIdeal.dot_S1024x64_S64x64_S1024x64_1_0_0_1_n_n none p w1)
          (broadcastInDim Cert.ReferenceIdeal.S1024x64 ![0, 1] Cert.ReferenceIdeal.Gen.bcast_S1x64_S1024x64_0_1 (broadcastInDim Cert.ReferenceIdeal.S1x64 ![1] Cert.ReferenceIdeal.Gen.bcast_S64_S1x64_1 b1)))) w2)
      (broadcastInDim Cert.ReferenceIdeal.S1024x1 ![0, 1] Cert.ReferenceIdeal.Gen.bcast_S1x1_S1024x1_0_1 (broadcastInDim Cert.ReferenceIdeal.S1x1 ![1] Cert.ReferenceIdeal.Gen.bcast_S1_S1x1_1 b2)) := by
  simp only [Cert.KernelIdeal.Gen.k6_pay1]
  rw [shapeCast_self, shapeCast_self, shapeCast_self, matmul_zero_eq_dotGeneral, matmul_zero_eq_dotGeneral,
    broadcastTo_row_eq b1 _ _ Cert.ReferenceIdeal.Gen.bcast_S64_S1x64_1 Cert.ReferenceIdeal.Gen.bcast_S1x64_S1024x64_0_1,
    broadcastTo_row_eq b2 _ _ Cert.ReferenceIdeal.Gen.bcast_S1_S1x1_1 Cert.ReferenceIdeal.Gen.bcast_S1x1_S1024x1_0_1,
    splat_eq .f32 0x00000000#32 Cert.ReferenceIdeal.Gen.bcast_S_S1024x64, splat_eq .f32 0x3C23D70A#32 Cert.ReferenceIdeal.Gen.bcast_S_S1024x64]
  rfl

/-- The kernel's head, its result reshaped to a vector of length 1024, is the reference's head. -/
theorem head_fold (p : FVec Ideal ⟨2, ![1024, 64]⟩ .f32) (w1 : FVec Ideal ⟨2, ![64, 64]⟩ .f32) (b1 : FVec Ideal ⟨1, ![64]⟩ .f32)
    (w2 : FVec Ideal ⟨2, ![64, 1]⟩ .f32) (b2 : FVec Ideal ⟨1, ![1]⟩ .f32) :
    (fun i => shapeCast Cert.KernelIdeal.S1024
        (Cert.KernelIdeal.Gen.k6_pay1 (F := Ideal) p w1 (fun i => shapeCast Cert.KernelIdeal.S1x64 b1 Cert.KernelIdeal.Gen.shapeCasts_S64_S1x64 i) w2
          (fun i => shapeCast Cert.KernelIdeal.S1x1 b2 Cert.KernelIdeal.Gen.shapeCasts_S1_S1x1 i))
        Cert.KernelIdeal.Gen.shapeCasts_S1024x1_S1024 i)
      = Cert.ReferenceIdeal.RefRun.head (F := Ideal) p w1 b1 w2 b2 := by
  show (fun i => shapeCast Cert.KernelIdeal.S1024
        (Cert.KernelIdeal.Gen.k6_pay1 (F := Ideal) p w1 (shapeCast Cert.KernelIdeal.S1x64 b1 Cert.KernelIdeal.Gen.shapeCasts_S64_S1x64) w2
          (shapeCast Cert.KernelIdeal.S1x1 b2 Cert.KernelIdeal.Gen.shapeCasts_S1_S1x1))
        Cert.KernelIdeal.Gen.shapeCasts_S1024x1_S1024 i) = _
  rw [pay6_eq]
  rfl

end Cert.KernelIdeal.HeadBridge

end
-- ==== Proof.KValue.lean ====
/-
  What the idealized kernel program leaves in its result buffer, as a function of its thirteen argument arrays.

  The program is a three-layer graph convolution followed by a mean pool and a two-layer head.  Its @main alternates
  stretches of host operations with seven pallas_call regions; the buffer contents at the segment boundaries are a fold
  from the launch memory (a stretch applies its operations; a region's exit replaces the region's arrays by what its
  write-backs leave and keeps every other buffer).  Reading that fold at the result buffer, boundary by boundary:

  * the first stretch computes the two rows `src`, `dst` of the edge table, the edge normalisation
    `dis[src]·dis[dst]` and the self-loop normalisation `dis·dis` with `dis = (1 + in-degree)^(-1/2)`;
  * each layer is a dense product `H·W` (a region: block rows of `H` times `W`, which at the ideal instance is the
    host's `dot_general`), the gather of its rows at `src` scaled by the edge normalisation and scatter-added at `dst`
    (host operations), and the combination `leaky (agg + H·W · selfNorm + bias)` (a pointwise region, the host's
    broadcasts and `leaky_relu` read index by index);
  * the pooled embeddings are the per-graph sums divided by `max(count, 1)` (host operations), and the head is
    `leaky (pooled·W₁ + b₁)·W₂ + b₂` (one region on whole arrays), reshaped to a vector.

  Every host operation of the kernel program is the reference's operation of the same name on the same operands, so the
  composed term is the reference's stage functions applied to the launch contents: `out_eq`.
-/
import proofs.«148020_j2370821947640_1_alg».proof.Proof.Gen.KernelIdeal.Frame
import proofs.«148020_j2370821947640_1_alg».proof.Proof.RefStages
import proofs.«148020_j2370821947640_1_alg».proof.Proof.RegionFC
import Idealize.ShloMosaic.Lib.StableHlo.Run
import Idealize.ShloMosaic.Lib.ValueIdx
import Idealize.ShloMosaic.PureOps.Ideal
import proofs.«148020_j2370821947640_1_alg».proof.Proof.RegionMM
import proofs.«148020_j2370821947640_1_alg».proof.Proof.RegionCombine
import proofs.«148020_j2370821947640_1_alg».proof.Proof.HeadBridge

set_option maxRecDepth 16384

noncomputable section

namespace Cert.KernelIdeal.KValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

attribute [local irreducible] Host.gather Host.scatterAdd Host.rsqrt

/-! ## A region's exit keeps every buffer that is not one of the region's arrays -/

theorem W4_keep {b : Ref sig .tc} (h : ∀ w, Pipeline.arrRef spec1 w ≠ b) :
    W4 m ρ c (no_index (Proc.devRef .tc b)) = W3 m ρ c (Proc.devRef .tc b) := W4_of_ne m ρ c b h
theorem W5_keep {b : Ref sig .tc} (h : ∀ w, Pipeline.arrRef spec2 w ≠ b) :
    W5 m ρ c (no_index (Proc.devRef .tc b)) = W4 m ρ c (Proc.devRef .tc b) := W5_of_ne m ρ c b h
theorem W7_keep {b : Ref sig .tc} (h : ∀ w, Pipeline.arrRef spec3 w ≠ b) :
    W7 m ρ c (no_index (Proc.devRef .tc b)) = W6 m ρ c (Proc.devRef .tc b) := W7_of_ne m ρ c b h
theorem W8_keep {b : Ref sig .tc} (h : ∀ w, Pipeline.arrRef spec4 w ≠ b) :
    W8 m ρ c (no_index (Proc.devRef .tc b)) = W7 m ρ c (Proc.devRef .tc b) := W8_of_ne m ρ c b h
theorem W10_keep {b : Ref sig .tc} (h : ∀ w, Pipeline.arrRef spec5 w ≠ b) :
    W10 m ρ c (no_index (Proc.devRef .tc b)) = W9 m ρ c (Proc.devRef .tc b) := W10_of_ne m ρ c b h
theorem W12_keep {b : Ref sig .tc} (h : ∀ w, Pipeline.arrRef spec6 w ≠ b) :
    W12 m ρ c (no_index (Proc.devRef .tc b)) = W11 m ρ c (Proc.devRef .tc b) := W12_of_ne m ρ c b h

/-- An INPUT array of a region is kept as well: its write-back fold is its entry contents. -/
theorem W4_in27 : W4 m ρ c (no_index (Proc.devRef .tc main_v27)) = W3 m ρ c (Proc.devRef .tc main_v27) :=
  (W4_arr m ρ c 2).trans (((dat1 (V3 m ρ) c).arrAt_in 2 rfl _).trans (A_eq1 (V3 m ρ) c 2))
theorem W7_in27 : W7 m ρ c (no_index (Proc.devRef .tc main_v27)) = W6 m ρ c (Proc.devRef .tc main_v27) :=
  (W7_arr m ρ c 2).trans (((dat3 (V6 m ρ) c).arrAt_in 2 rfl _).trans (A_eq3 (V6 m ρ) c 2))

/-! ## After the first stretch and the first dense product

The first stretch of host operations computes, from the edge table, its two rows, the edge normalisation
`dis[src]·dis[dst]` and the self-loop normalisation `dis·dis` (reshaped to a column for the kernels); the first
pallas_call writes the dense product `X·W₁`.  Each is read at the first region's exit, where every later segment finds it. -/

theorem W2_src : W2 m ρ c (no_index (Proc.devRef .tc main_v1)) = Cert.ReferenceIdeal.RefRun.edgeSrc (m ((c : Thread nD τ).loc main_arg1)) := by
  rw [W2_of_ne m ρ c main_v1 (by decide)]
  simp (disch := decide) only [W1, hostOps0, after_cons, after_nil, nullary_result', unary_result', binary_result', ternary_result', quaternary_result', reshape_result', nullary_result_ne', unary_result_ne', binary_result_ne', ternary_result_ne', quaternary_result_ne', reshape_result_ne']
  rfl
theorem W2_dst : W2 m ρ c (no_index (Proc.devRef .tc main_v3)) = Cert.ReferenceIdeal.RefRun.edgeDst (m ((c : Thread nD τ).loc main_arg1)) := by
  rw [W2_of_ne m ρ c main_v3 (by decide)]
  simp (disch := decide) only [W1, hostOps0, after_cons, after_nil, nullary_result', unary_result', binary_result', ternary_result', quaternary_result', reshape_result', nullary_result_ne', unary_result_ne', binary_result_ne', ternary_result_ne', quaternary_result_ne', reshape_result_ne']
  rfl
theorem W2_en : W2 m ρ c (no_index (Proc.devRef .tc main_v25)) = Cert.ReferenceIdeal.RefRun.edgeNorm (Cert.ReferenceIdeal.RefRun.edgeSrc (m ((c : Thread nD τ).loc main_arg1))) (Cert.ReferenceIdeal.RefRun.edgeDst (m ((c : Thread nD τ).loc main_arg1))) := by
  rw [W2_of_ne m ρ c main_v25 (by decide)]
  simp (disch := decide) only [W1, hostOps0, after_cons, after_nil, nullary_result', unary_result', binary_result', ternary_result', quaternary_result', reshape_result', nullary_result_ne', unary_result_ne', binary_result_ne', ternary_result_ne', quaternary_result_ne', reshape_result_ne']
  rfl
theorem W2_sn : W2 m ρ c (no_index (Proc.devRef .tc main_v27)) = (fun i => shapeCast S100000x1 (Cert.ReferenceIdeal.RefRun.selfNorm (Cert.ReferenceIdeal.RefRun.edgeDst (m ((c : Thread nD τ).loc main_arg1)))) shapeCasts_S100000_S100000x1 i) := by
  rw [W2_of_ne m ρ c main_v27 (by decide)]
  simp (disch := decide) only [W1, hostOps0, after_cons, after_nil, nullary_result', unary_result', binary_result', ternary_result', quaternary_result', reshape_result', nullary_result_ne', unary_result_ne', binary_result_ne', ternary_result_ne', quaternary_result_ne', reshape_result_ne']
  rfl
theorem W2_arg2 : W2 m ρ c (no_index (Proc.devRef .tc main_arg2)) = (m ((c : Thread nD τ).loc main_arg2)) := by
  rw [W2_of_ne m ρ c main_arg2 (by decide)]
  simp (disch := decide) only [W1, hostOps0, after_cons, after_nil, nullary_result', unary_result', binary_result', ternary_result', quaternary_result', reshape_result', nullary_result_ne', unary_result_ne', binary_result_ne', ternary_result_ne', quaternary_result_ne', reshape_result_ne']
theorem W2_arg4 : W2 m ρ c (no_index (Proc.devRef .tc main_arg4)) = (m ((c : Thread nD τ).loc main_arg4)) := by
  rw [W2_of_ne m ρ c main_arg4 (by decide)]
  simp (disch := decide) only [W1, hostOps0, after_cons, after_nil, nullary_result', unary_result', binary_result', ternary_result', quaternary_result', reshape_result', nullary_result_ne', unary_result_ne', binary_result_ne', ternary_result_ne', quaternary_result_ne', reshape_result_ne']
theorem W2_arg5 : W2 m ρ c (no_index (Proc.devRef .tc main_arg5)) = (m ((c : Thread nD τ).loc main_arg5)) := by
  rw [W2_of_ne m ρ c main_arg5 (by decide)]
  simp (disch := decide) only [W1, hostOps0, after_cons, after_nil, nullary_result', unary_result', binary_result', ternary_result', quaternary_result', reshape_result', nullary_result_ne', unary_result_ne', binary_result_ne', ternary_result_ne', quaternary_result_ne', reshape_result_ne']
theorem W2_arg6 : W2 m ρ c (no_index (Proc.devRef .tc main_arg6)) = (m ((c : Thread nD τ).loc main_arg6)) := by
  rw [W2_of_ne m ρ c main_arg6 (by decide)]
  simp (disch := decide) only [W1, hostOps0, after_cons, after_nil, nullary_result', unary_result', binary_result', ternary_result', quaternary_result', reshape_result', nullary_result_ne', unary_result_ne', binary_result_ne', ternary_result_ne', quaternary_result_ne', reshape_result_ne']
theorem W2_arg7 : W2 m ρ c (no_index (Proc.devRef .tc main_arg7)) = (m ((c : Thread nD τ).loc main_arg7)) := by
  rw [W2_of_ne m ρ c main_arg7 (by decide)]
  simp (disch := decide) only [W1, hostOps0, after_cons, after_nil, nullary_result', unary_result', binary_result', ternary_result', quaternary_result', reshape_result', nullary_result_ne', unary_result_ne', binary_result_ne', ternary_result_ne', quaternary_result_ne', reshape_result_ne']
theorem W2_arg8 : W2 m ρ c (no_index (Proc.devRef .tc main_arg8)) = (m ((c : Thread nD τ).loc main_arg8)) := by
  rw [W2_of_ne m ρ c main_arg8 (by decide)]
  simp (disch := decide) only [W1, hostOps0, after_cons, after_nil, nullary_result', unary_result', binary_result', ternary_result', quaternary_result', reshape_result', nullary_result_ne', unary_result_ne', binary_result_ne', ternary_result_ne', quaternary_result_ne', reshape_result_ne']
theorem W2_arg9 : W2 m ρ c (no_index (Proc.devRef .tc main_arg9)) = (m ((c : Thread nD τ).loc main_arg9)) := by
  rw [W2_of_ne m ρ c main_arg9 (by decide)]
  simp (disch := decide) only [W1, hostOps0, after_cons, after_nil, nullary_result', unary_result', binary_result', ternary_result', quaternary_result', reshape_result', nullary_result_ne', unary_result_ne', binary_result_ne', ternary_result_ne', quaternary_result_ne', reshape_result_ne']
theorem W2_arg10 : W2 m ρ c (no_index (Proc.devRef .tc main_arg10)) = (m ((c : Thread nD τ).loc main_arg10)) := by
  rw [W2_of_ne m ρ c main_arg10 (by decide)]
  simp (disch := decide) only [W1, hostOps0, after_cons, after_nil, nullary_result', unary_result', binary_result', ternary_result', quaternary_result', reshape_result', nullary_result_ne', unary_result_ne', binary_result_ne', ternary_result_ne', quaternary_result_ne', reshape_result_ne']
theorem W2_arg11 : W2 m ρ c (no_index (Proc.devRef .tc main_arg11)) = (m ((c : Thread nD τ).loc main_arg11)) := by
  rw [W2_of_ne m ρ c main_arg11 (by decide)]
  simp (disch := decide) only [W1, hostOps0, after_cons, after_nil, nullary_result', unary_result', binary_result', ternary_result', quaternary_result', reshape_result', nullary_result_ne', unary_result_ne', binary_result_ne', ternary_result_ne', quaternary_result_ne', reshape_result_ne']
theorem W2_arg12 : W2 m ρ c (no_index (Proc.devRef .tc main_arg12)) = (m ((c : Thread nD τ).loc main_arg12)) := by
  rw [W2_of_ne m ρ c main_arg12 (by decide)]
  simp (disch := decide) only [W1, hostOps0, after_cons, after_nil, nullary_result', unary_result', binary_result', ternary_result', quaternary_result', reshape_result', nullary_result_ne', unary_result_ne', binary_result_ne', ternary_result_ne', quaternary_result_ne', reshape_result_ne']

theorem W2_hp : W2 m ρ c (no_index (Proc.devRef .tc main_v28)) = Cert.ReferenceIdeal.RefRun.dense0 (m ((c : Thread nD τ).loc main_arg0)) (m ((c : Thread nD τ).loc main_arg3)) := by
  refine ((W2_arr m ρ c 2).trans (RegionMM.final0 (V1 m ρ) c)).trans ?_
  show Host.dotGeneral (F := Ideal) (φ₁ := .f32) (φ₂ := .f32) _ none (W1 m ρ c (Proc.devRef .tc main_arg0)) (W1 m ρ c (Proc.devRef .tc main_arg3)) = _
  have ha : W1 m ρ c (Proc.devRef .tc main_arg0) = (m ((c : Thread nD τ).loc main_arg0)) := by simp (disch := decide) only [W1, hostOps0, after_cons, after_nil, nullary_result', unary_result', binary_result', ternary_result', quaternary_result', reshape_result', nullary_result_ne', unary_result_ne', binary_result_ne', ternary_result_ne', quaternary_result_ne', reshape_result_ne']
  have hb : W1 m ρ c (Proc.devRef .tc main_arg3) = (m ((c : Thread nD τ).loc main_arg3)) := by simp (disch := decide) only [W1, hostOps0, after_cons, after_nil, nullary_result', unary_result', binary_result', ternary_result', quaternary_result', reshape_result', nullary_result_ne', unary_result_ne', binary_result_ne', ternary_result_ne', quaternary_result_ne', reshape_result_ne']
  rw [ha, hb]
  rfl

/-! ## Layer 1: aggregate the messages, add the self loop and the bias, rectify -/

theorem W4_fold (ag hp : FVec Ideal ⟨2, ![100000, 64]⟩ .f32) (sn : FVec Ideal ⟨1, ![100000]⟩ .f32) (b : FVec Ideal ⟨1, ![64]⟩ .f32)
    (h0 : W3 m ρ c (Proc.devRef .tc main_v41) = ag) (h1 : W3 m ρ c (Proc.devRef .tc main_v28) = hp)
    (h2 : W3 m ρ c (Proc.devRef .tc main_v27) = (fun i => shapeCast S100000x1 sn shapeCasts_S100000_S100000x1 i)) (h3 : W3 m ρ c (Proc.devRef .tc main_v42) = (fun i => shapeCast S1x64 b shapeCasts_S64_S1x64 i)) :
    W4 m ρ c (Proc.devRef .tc main_v43) = Cert.ReferenceIdeal.RefRun.combine ag hp sn b := by
  refine ((W4_arr m ρ c 4).trans (RegionCombine.final1 (V3 m ρ) c)).trans ?_
  show RegionCombine.combineAt (F := Ideal) (W3 m ρ c (Proc.devRef .tc main_v41)) (W3 m ρ c (Proc.devRef .tc main_v28)) (W3 m ρ c (Proc.devRef .tc main_v27)) (W3 m ρ c (Proc.devRef .tc main_v42)) = _
  rw [h0, h1, h2, h3]
  exact (RegionCombine.refCombine_eq ag hp sn b).symm

theorem W4_h1 : W4 m ρ c (no_index (Proc.devRef .tc main_v43)) = (Cert.ReferenceIdeal.RefRun.layer (Cert.ReferenceIdeal.RefRun.dense0 (m ((c : Thread nD τ).loc main_arg0)) (m ((c : Thread nD τ).loc main_arg3))) (Cert.ReferenceIdeal.RefRun.edgeSrc (m ((c : Thread nD τ).loc main_arg1))) (Cert.ReferenceIdeal.RefRun.edgeDst (m ((c : Thread nD τ).loc main_arg1))) (m ((c : Thread nD τ).loc main_arg4))) :=
  W4_fold m ρ c (Cert.ReferenceIdeal.RefRun.agg (Cert.ReferenceIdeal.RefRun.messages (Cert.ReferenceIdeal.RefRun.dense0 (m ((c : Thread nD τ).loc main_arg0)) (m ((c : Thread nD τ).loc main_arg3))) (Cert.ReferenceIdeal.RefRun.edgeSrc (m ((c : Thread nD τ).loc main_arg1))) (Cert.ReferenceIdeal.RefRun.edgeNorm (Cert.ReferenceIdeal.RefRun.edgeSrc (m ((c : Thread nD τ).loc main_arg1))) (Cert.ReferenceIdeal.RefRun.edgeDst (m ((c : Thread nD τ).loc main_arg1))))) (Cert.ReferenceIdeal.RefRun.edgeDst (m ((c : Thread nD τ).loc main_arg1)))) (Cert.ReferenceIdeal.RefRun.dense0 (m ((c : Thread nD τ).loc main_arg0)) (m ((c : Thread nD τ).loc main_arg3))) (Cert.ReferenceIdeal.RefRun.selfNorm (Cert.ReferenceIdeal.RefRun.edgeDst (m ((c : Thread nD τ).loc main_arg1)))) (m ((c : Thread nD τ).loc main_arg4))
    (by simp (disch := decide) only [W3, W6, W9, W11, W13, hostOps1, hostOps3, hostOps5, hostOps6, hostOps7, after_cons, after_nil, nullary_result', unary_result', binary_result', ternary_result', quaternary_result', reshape_result', nullary_result_ne', unary_result_ne', binary_result_ne', ternary_result_ne', quaternary_result_ne', reshape_result_ne', W4_keep, W5_keep, W7_keep, W8_keep, W10_keep, W12_keep, W4_in27, W7_in27, W2_src, W2_dst, W2_en, W2_sn, W2_hp, W2_arg2, W2_arg4, W2_arg5, W2_arg6, W2_arg7, W2_arg8, W2_arg9, W2_arg10, W2_arg11, W2_arg12]; try rfl) (by simp (disch := decide) only [W3, W6, W9, W11, W13, hostOps1, hostOps3, hostOps5, hostOps6, hostOps7, after_cons, after_nil, nullary_result', unary_result', binary_result', ternary_result', quaternary_result', reshape_result', nullary_result_ne', unary_result_ne', binary_result_ne', ternary_result_ne', quaternary_result_ne', reshape_result_ne', W4_keep, W5_keep, W7_keep, W8_keep, W10_keep, W12_keep, W4_in27, W7_in27, W2_src, W2_dst, W2_en, W2_sn, W2_hp, W2_arg2, W2_arg4, W2_arg5, W2_arg6, W2_arg7, W2_arg8, W2_arg9, W2_arg10, W2_arg11, W2_arg12]; try rfl) (by simp (disch := decide) only [W3, W6, W9, W11, W13, hostOps1, hostOps3, hostOps5, hostOps6, hostOps7, after_cons, after_nil, nullary_result', unary_result', binary_result', ternary_result', quaternary_result', reshape_result', nullary_result_ne', unary_result_ne', binary_result_ne', ternary_result_ne', quaternary_result_ne', reshape_result_ne', W4_keep, W5_keep, W7_keep, W8_keep, W10_keep, W12_keep, W4_in27, W7_in27, W2_src, W2_dst, W2_en, W2_sn, W2_hp, W2_arg2, W2_arg4, W2_arg5, W2_arg6, W2_arg7, W2_arg8, W2_arg9, W2_arg10, W2_arg11, W2_arg12]; try rfl) (by simp (disch := decide) only [W3, W6, W9, W11, W13, hostOps1, hostOps3, hostOps5, hostOps6, hostOps7, after_cons, after_nil, nullary_result', unary_result', binary_result', ternary_result', quaternary_result', reshape_result', nullary_result_ne', unary_result_ne', binary_result_ne', ternary_result_ne', quaternary_result_ne', reshape_result_ne', W4_keep, W5_keep, W7_keep, W8_keep, W10_keep, W12_keep, W4_in27, W7_in27, W2_src, W2_dst, W2_en, W2_sn, W2_hp, W2_arg2, W2_arg4, W2_arg5, W2_arg6, W2_arg7, W2_arg8, W2_arg9, W2_arg10, W2_arg11, W2_arg12]; try rfl)

/-! ## Layer 2 -/

set_option maxHeartbeats 4000000 in
theorem W5_hp : W5 m ρ c (no_index (Proc.devRef .tc main_v44)) = Cert.ReferenceIdeal.RefRun.dense (Cert.ReferenceIdeal.RefRun.layer (Cert.ReferenceIdeal.RefRun.dense0 (m ((c : Thread nD τ).loc main_arg0)) (m ((c : Thread nD τ).loc main_arg3))) (Cert.ReferenceIdeal.RefRun.edgeSrc (m ((c : Thread nD τ).loc main_arg1))) (Cert.ReferenceIdeal.RefRun.edgeDst (m ((c : Thread nD τ).loc main_arg1))) (m ((c : Thread nD τ).loc main_arg4))) (m ((c : Thread nD τ).loc main_arg5)) := by
  refine ((W5_arr m ρ c 2).trans (RegionMM.final2 (V4 m ρ) c)).trans ?_
  show Host.dotGeneral (F := Ideal) (φ₁ := .f32) (φ₂ := .f32) _ none (W4 m ρ c (Proc.devRef .tc main_v43)) (W4 m ρ c (Proc.devRef .tc main_arg5)) = _
  have ha : W4 m ρ c (Proc.devRef .tc main_v43) = (Cert.ReferenceIdeal.RefRun.layer (Cert.ReferenceIdeal.RefRun.dense0 (m ((c : Thread nD τ).loc main_arg0)) (m ((c : Thread nD τ).loc main_arg3))) (Cert.ReferenceIdeal.RefRun.edgeSrc (m ((c : Thread nD τ).loc main_arg1))) (Cert.ReferenceIdeal.RefRun.edgeDst (m ((c : Thread nD τ).loc main_arg1))) (m ((c : Thread nD τ).loc main_arg4))) := W4_h1 m ρ c
  have hb : W4 m ρ c (Proc.devRef .tc main_arg5) = (m ((c : Thread nD τ).loc main_arg5)) := by simp (disch := decide) only [W3, W6, W9, W11, W13, hostOps1, hostOps3, hostOps5, hostOps6, hostOps7, after_cons, after_nil, nullary_result', unary_result', binary_result', ternary_result', quaternary_result', reshape_result', nullary_result_ne', unary_result_ne', binary_result_ne', ternary_result_ne', quaternary_result_ne', reshape_result_ne', W4_keep, W5_keep, W7_keep, W8_keep, W10_keep, W12_keep, W4_in27, W7_in27, W2_src, W2_dst, W2_en, W2_sn, W2_hp, W2_arg2, W2_arg4, W2_arg5, W2_arg6, W2_arg7, W2_arg8, W2_arg9, W2_arg10, W2_arg11, W2_arg12, W4_h1]
  rw [ha, hb]
  rfl

theorem W7_fold (ag hp : FVec Ideal ⟨2, ![100000, 64]⟩ .f32) (sn : FVec Ideal ⟨1, ![100000]⟩ .f32) (b : FVec Ideal ⟨1, ![64]⟩ .f32)
    (h0 : W6 m ρ c (Proc.devRef .tc main_v57) = ag) (h1 : W6 m ρ c (Proc.devRef .tc main_v44) = hp)
    (h2 : W6 m ρ c (Proc.devRef .tc main_v27) = (fun i => shapeCast S100000x1 sn shapeCasts_S100000_S100000x1 i)) (h3 : W6 m ρ c (Proc.devRef .tc main_v58) = (fun i => shapeCast S1x64 b shapeCasts_S64_S1x64 i)) :
    W7 m ρ c (Proc.devRef .tc main_v59) = Cert.ReferenceIdeal.RefRun.combine ag hp sn b := by
  refine ((W7_arr m ρ c 4).trans (RegionCombine.final3 (V6 m ρ) c)).trans ?_
  show RegionCombine.combineAt (F := Ideal) (W6 m ρ c (Proc.devRef .tc main_v57)) (W6 m ρ c (Proc.devRef .tc main_v44)) (W6 m ρ c (Proc.devRef .tc main_v27)) (W6 m ρ c (Proc.devRef .tc main_v58)) = _
  rw [h0, h1, h2, h3]
  exact (RegionCombine.refCombine_eq ag hp sn b).symm

set_option maxHeartbeats 4000000 in
theorem W7_h2 : W7 m ρ c (no_index (Proc.devRef .tc main_v59)) = (Cert.ReferenceIdeal.RefRun.layer (Cert.ReferenceIdeal.RefRun.dense (Cert.ReferenceIdeal.RefRun.layer (Cert.ReferenceIdeal.RefRun.dense0 (m ((c : Thread nD τ).loc main_arg0)) (m ((c : Thread nD τ).loc main_arg3))) (Cert.ReferenceIdeal.RefRun.edgeSrc (m ((c : Thread nD τ).loc main_arg1))) (Cert.ReferenceIdeal.RefRun.edgeDst (m ((c : Thread nD τ).loc main_arg1))) (m ((c : Thread nD τ).loc main_arg4))) (m ((c : Thread nD τ).loc main_arg5))) (Cert.ReferenceIdeal.RefRun.edgeSrc (m ((c : Thread nD τ).loc main_arg1))) (Cert.ReferenceIdeal.RefRun.edgeDst (m ((c : Thread nD τ).loc main_arg1))) (m ((c : Thread nD τ).loc main_arg6))) :=
  W7_fold m ρ c (Cert.ReferenceIdeal.RefRun.agg (Cert.ReferenceIdeal.RefRun.messages (Cert.ReferenceIdeal.RefRun.dense (Cert.ReferenceIdeal.RefRun.layer (Cert.ReferenceIdeal.RefRun.dense0 (m ((c : Thread nD τ).loc main_arg0)) (m ((c : Thread nD τ).loc main_arg3))) (Cert.ReferenceIdeal.RefRun.edgeSrc (m ((c : Thread nD τ).loc main_arg1))) (Cert.ReferenceIdeal.RefRun.edgeDst (m ((c : Thread nD τ).loc main_arg1))) (m ((c : Thread nD τ).loc main_arg4))) (m ((c : Thread nD τ).loc main_arg5))) (Cert.ReferenceIdeal.RefRun.edgeSrc (m ((c : Thread nD τ).loc main_arg1))) (Cert.ReferenceIdeal.RefRun.edgeNorm (Cert.ReferenceIdeal.RefRun.edgeSrc (m ((c : Thread nD τ).loc main_arg1))) (Cert.ReferenceIdeal.RefRun.edgeDst (m ((c : Thread nD τ).loc main_arg1))))) (Cert.ReferenceIdeal.RefRun.edgeDst (m ((c : Thread nD τ).loc main_arg1)))) (Cert.ReferenceIdeal.RefRun.dense (Cert.ReferenceIdeal.RefRun.layer (Cert.ReferenceIdeal.RefRun.dense0 (m ((c : Thread nD τ).loc main_arg0)) (m ((c : Thread nD τ).loc main_arg3))) (Cert.ReferenceIdeal.RefRun.edgeSrc (m ((c : Thread nD τ).loc main_arg1))) (Cert.ReferenceIdeal.RefRun.edgeDst (m ((c : Thread nD τ).loc main_arg1))) (m ((c : Thread nD τ).loc main_arg4))) (m ((c : Thread nD τ).loc main_arg5))) (Cert.ReferenceIdeal.RefRun.selfNorm (Cert.ReferenceIdeal.RefRun.edgeDst (m ((c : Thread nD τ).loc main_arg1)))) (m ((c : Thread nD τ).loc main_arg6))
    (by simp (disch := decide) only [W3, W6, W9, W11, W13, hostOps1, hostOps3, hostOps5, hostOps6, hostOps7, after_cons, after_nil, nullary_result', unary_result', binary_result', ternary_result', quaternary_result', reshape_result', nullary_result_ne', unary_result_ne', binary_result_ne', ternary_result_ne', quaternary_result_ne', reshape_result_ne', W4_keep, W5_keep, W7_keep, W8_keep, W10_keep, W12_keep, W4_in27, W7_in27, W2_src, W2_dst, W2_en, W2_sn, W2_hp, W2_arg2, W2_arg4, W2_arg5, W2_arg6, W2_arg7, W2_arg8, W2_arg9, W2_arg10, W2_arg11, W2_arg12, W4_h1, W5_hp]; try rfl) (by simp (disch := decide) only [W3, W6, W9, W11, W13, hostOps1, hostOps3, hostOps5, hostOps6, hostOps7, after_cons, after_nil, nullary_result', unary_result', binary_result', ternary_result', quaternary_result', reshape_result', nullary_result_ne', unary_result_ne', binary_result_ne', ternary_result_ne', quaternary_result_ne', reshape_result_ne', W4_keep, W5_keep, W7_keep, W8_keep, W10_keep, W12_keep, W4_in27, W7_in27, W2_src, W2_dst, W2_en, W2_sn, W2_hp, W2_arg2, W2_arg4, W2_arg5, W2_arg6, W2_arg7, W2_arg8, W2_arg9, W2_arg10, W2_arg11, W2_arg12, W4_h1, W5_hp]; try rfl) (by simp (disch := decide) only [W3, W6, W9, W11, W13, hostOps1, hostOps3, hostOps5, hostOps6, hostOps7, after_cons, after_nil, nullary_result', unary_result', binary_result', ternary_result', quaternary_result', reshape_result', nullary_result_ne', unary_result_ne', binary_result_ne', ternary_result_ne', quaternary_result_ne', reshape_result_ne', W4_keep, W5_keep, W7_keep, W8_keep, W10_keep, W12_keep, W4_in27, W7_in27, W2_src, W2_dst, W2_en, W2_sn, W2_hp, W2_arg2, W2_arg4, W2_arg5, W2_arg6, W2_arg7, W2_arg8, W2_arg9, W2_arg10, W2_arg11, W2_arg12, W4_h1, W5_hp]; try rfl) (by simp (disch := decide) only [W3, W6, W9, W11, W13, hostOps1, hostOps3, hostOps5, hostOps6, hostOps7, after_cons, after_nil, nullary_result', unary_result', binary_result', ternary_result', quaternary_result', reshape_result', nullary_result_ne', unary_result_ne', binary_result_ne', ternary_result_ne', quaternary_result_ne', reshape_result_ne', W4_keep, W5_keep, W7_keep, W8_keep, W10_keep, W12_keep, W4_in27, W7_in27, W2_src, W2_dst, W2_en, W2_sn, W2_hp, W2_arg2, W2_arg4, W2_arg5, W2_arg6, W2_arg7, W2_arg8, W2_arg9, W2_arg10, W2_arg11, W2_arg12, W4_h1, W5_hp]; try rfl)

/-! ## Layer 3 -/

set_option maxHeartbeats 4000000 in
theorem W8_hp : W8 m ρ c (no_index (Proc.devRef .tc main_v60)) = Cert.ReferenceIdeal.RefRun.dense (Cert.ReferenceIdeal.RefRun.layer (Cert.ReferenceIdeal.RefRun.dense (Cert.ReferenceIdeal.RefRun.layer (Cert.ReferenceIdeal.RefRun.dense0 (m ((c : Thread nD τ).loc main_arg0)) (m ((c : Thread nD τ).loc main_arg3))) (Cert.ReferenceIdeal.RefRun.edgeSrc (m ((c : Thread nD τ).loc main_arg1))) (Cert.ReferenceIdeal.RefRun.edgeDst (m ((c : Thread nD τ).loc main_arg1))) (m ((c : Thread nD τ).loc main_arg4))) (m ((c : Thread nD τ).loc main_arg5))) (Cert.ReferenceIdeal.RefRun.edgeSrc (m ((c : Thread nD τ).loc main_arg1))) (Cert.ReferenceIdeal.RefRun.edgeDst (m ((c : Thread nD τ).loc main_arg1))) (m ((c : Thread nD τ).loc main_arg6))) (m ((c : Thread nD τ).loc main_arg7)) := by
  refine ((W8_arr m ρ c 2).trans (RegionMM.final4 (V7 m ρ) c)).trans ?_
  show Host.dotGeneral (F := Ideal) (φ₁ := .f32) (φ₂ := .f32) _ none (W7 m ρ c (Proc.devRef .tc main_v59)) (W7 m ρ c (Proc.devRef .tc main_arg7)) = _
  have ha : W7 m ρ c (Proc.devRef .tc main_v59) = (Cert.ReferenceIdeal.RefRun.layer (Cert.ReferenceIdeal.RefRun.dense (Cert.ReferenceIdeal.RefRun.layer (Cert.ReferenceIdeal.RefRun.dense0 (m ((c : Thread nD τ).loc main_arg0)) (m ((c : Thread nD τ).loc main_arg3))) (Cert.ReferenceIdeal.RefRun.edgeSrc (m ((c : Thread nD τ).loc main_arg1))) (Cert.ReferenceIdeal.RefRun.edgeDst (m ((c : Thread nD τ).loc main_arg1))) (m ((c : Thread nD τ).loc main_arg4))) (m ((c : Thread nD τ).loc main_arg5))) (Cert.ReferenceIdeal.RefRun.edgeSrc (m ((c : Thread nD τ).loc main_arg1))) (Cert.ReferenceIdeal.RefRun.edgeDst (m ((c : Thread nD τ).loc main_arg1))) (m ((c : Thread nD τ).loc main_arg6))) := W7_h2 m ρ c
  have hb : W7 m ρ c (Proc.devRef .tc main_arg7) = (m ((c : Thread nD τ).loc main_arg7)) := by simp (disch := decide) only [W3, W6, W9, W11, W13, hostOps1, hostOps3, hostOps5, hostOps6, hostOps7, after_cons, after_nil, nullary_result', unary_result', binary_result', ternary_result', quaternary_result', reshape_result', nullary_result_ne', unary_result_ne', binary_result_ne', ternary_result_ne', quaternary_result_ne', reshape_result_ne', W4_keep, W5_keep, W7_keep, W8_keep, W10_keep, W12_keep, W4_in27, W7_in27, W2_src, W2_dst, W2_en, W2_sn, W2_hp, W2_arg2, W2_arg4, W2_arg5, W2_arg6, W2_arg7, W2_arg8, W2_arg9, W2_arg10, W2_arg11, W2_arg12, W4_h1, W5_hp, W7_h2]
  rw [ha, hb]
  rfl

theorem W10_fold (ag hp : FVec Ideal ⟨2, ![100000, 64]⟩ .f32) (sn : FVec Ideal ⟨1, ![100000]⟩ .f32) (b : FVec Ideal ⟨1, ![64]⟩ .f32)
    (h0 : W9 m ρ c (Proc.devRef .tc main_v73) = ag) (h1 : W9 m ρ c (Proc.devRef .tc main_v60) = hp)
    (h2 : W9 m ρ c (Proc.devRef .tc main_v27) = (fun i => shapeCast S100000x1 sn shapeCasts_S100000_S100000x1 i)) (h3 : W9 m ρ c (Proc.devRef .tc main_v74) = (fun i => shapeCast S1x64 b shapeCasts_S64_S1x64 i)) :
    W10 m ρ c (Proc.devRef .tc main_v75) = Cert.ReferenceIdeal.RefRun.combine ag hp sn b := by
  refine ((W10_arr m ρ c 4).trans (RegionCombine.final5 (V9 m ρ) c)).trans ?_
  show RegionCombine.combineAt (F := Ideal) (W9 m ρ c (Proc.devRef .tc main_v73)) (W9 m ρ c (Proc.devRef .tc main_v60)) (W9 m ρ c (Proc.devRef .tc main_v27)) (W9 m ρ c (Proc.devRef .tc main_v74)) = _
  rw [h0, h1, h2, h3]
  exact (RegionCombine.refCombine_eq ag hp sn b).symm

set_option maxHeartbeats 4000000 in
theorem W10_h3 : W10 m ρ c (no_index (Proc.devRef .tc main_v75)) = (Cert.ReferenceIdeal.RefRun.layer (Cert.ReferenceIdeal.RefRun.dense (Cert.ReferenceIdeal.RefRun.layer (Cert.ReferenceIdeal.RefRun.dense (Cert.ReferenceIdeal.RefRun.layer (Cert.ReferenceIdeal.RefRun.dense0 (m ((c : Thread nD τ).loc main_arg0)) (m ((c : Thread nD τ).loc main_arg3))) (Cert.ReferenceIdeal.RefRun.edgeSrc (m ((c : Thread nD τ).loc main_arg1))) (Cert.ReferenceIdeal.RefRun.edgeDst (m ((c : Thread nD τ).loc main_arg1))) (m ((c : Thread nD τ).loc main_arg4))) (m ((c : Thread nD τ).loc main_arg5))) (Cert.ReferenceIdeal.RefRun.edgeSrc (m ((c : Thread nD τ).loc main_arg1))) (Cert.ReferenceIdeal.RefRun.edgeDst (m ((c : Thread nD τ).loc main_arg1))) (m ((c : Thread nD τ).loc main_arg6))) (m ((c : Thread nD τ).loc main_arg7))) (Cert.ReferenceIdeal.RefRun.edgeSrc (m ((c : Thread nD τ).loc main_arg1))) (Cert.ReferenceIdeal.RefRun.edgeDst (m ((c : Thread nD τ).loc main_arg1))) (m ((c : Thread nD τ).loc main_arg8))) :=
  W10_fold m ρ c (Cert.ReferenceIdeal.RefRun.agg (Cert.ReferenceIdeal.RefRun.messages (Cert.ReferenceIdeal.RefRun.dense (Cert.ReferenceIdeal.RefRun.layer (Cert.ReferenceIdeal.RefRun.dense (Cert.ReferenceIdeal.RefRun.layer (Cert.ReferenceIdeal.RefRun.dense0 (m ((c : Thread nD τ).loc main_arg0)) (m ((c : Thread nD τ).loc main_arg3))) (Cert.ReferenceIdeal.RefRun.edgeSrc (m ((c : Thread nD τ).loc main_arg1))) (Cert.ReferenceIdeal.RefRun.edgeDst (m ((c : Thread nD τ).loc main_arg1))) (m ((c : Thread nD τ).loc main_arg4))) (m ((c : Thread nD τ).loc main_arg5))) (Cert.ReferenceIdeal.RefRun.edgeSrc (m ((c : Thread nD τ).loc main_arg1))) (Cert.ReferenceIdeal.RefRun.edgeDst (m ((c : Thread nD τ).loc main_arg1))) (m ((c : Thread nD τ).loc main_arg6))) (m ((c : Thread nD τ).loc main_arg7))) (Cert.ReferenceIdeal.RefRun.edgeSrc (m ((c : Thread nD τ).loc main_arg1))) (Cert.ReferenceIdeal.RefRun.edgeNorm (Cert.ReferenceIdeal.RefRun.edgeSrc (m ((c : Thread nD τ).loc main_arg1))) (Cert.ReferenceIdeal.RefRun.edgeDst (m ((c : Thread nD τ).loc main_arg1))))) (Cert.ReferenceIdeal.RefRun.edgeDst (m ((c : Thread nD τ).loc main_arg1)))) (Cert.ReferenceIdeal.RefRun.dense (Cert.ReferenceIdeal.RefRun.layer (Cert.ReferenceIdeal.RefRun.dense (Cert.ReferenceIdeal.RefRun.layer (Cert.ReferenceIdeal.RefRun.dense0 (m ((c : Thread nD τ).loc main_arg0)) (m ((c : Thread nD τ).loc main_arg3))) (Cert.ReferenceIdeal.RefRun.edgeSrc (m ((c : Thread nD τ).loc main_arg1))) (Cert.ReferenceIdeal.RefRun.edgeDst (m ((c : Thread nD τ).loc main_arg1))) (m ((c : Thread nD τ).loc main_arg4))) (m ((c : Thread nD τ).loc main_arg5))) (Cert.ReferenceIdeal.RefRun.edgeSrc (m ((c : Thread nD τ).loc main_arg1))) (Cert.ReferenceIdeal.RefRun.edgeDst (m ((c : Thread nD τ).loc main_arg1))) (m ((c : Thread nD τ).loc main_arg6))) (m ((c : Thread nD τ).loc main_arg7))) (Cert.ReferenceIdeal.RefRun.selfNorm (Cert.ReferenceIdeal.RefRun.edgeDst (m ((c : Thread nD τ).loc main_arg1)))) (m ((c : Thread nD τ).loc main_arg8))
    (by simp (disch := decide) only [W3, W6, W9, W11, W13, hostOps1, hostOps3, hostOps5, hostOps6, hostOps7, after_cons, after_nil, nullary_result', unary_result', binary_result', ternary_result', quaternary_result', reshape_result', nullary_result_ne', unary_result_ne', binary_result_ne', ternary_result_ne', quaternary_result_ne', reshape_result_ne', W4_keep, W5_keep, W7_keep, W8_keep, W10_keep, W12_keep, W4_in27, W7_in27, W2_src, W2_dst, W2_en, W2_sn, W2_hp, W2_arg2, W2_arg4, W2_arg5, W2_arg6, W2_arg7, W2_arg8, W2_arg9, W2_arg10, W2_arg11, W2_arg12, W4_h1, W5_hp, W7_h2, W8_hp]; try rfl) (by simp (disch := decide) only [W3, W6, W9, W11, W13, hostOps1, hostOps3, hostOps5, hostOps6, hostOps7, after_cons, after_nil, nullary_result', unary_result', binary_result', ternary_result', quaternary_result', reshape_result', nullary_result_ne', unary_result_ne', binary_result_ne', ternary_result_ne', quaternary_result_ne', reshape_result_ne', W4_keep, W5_keep, W7_keep, W8_keep, W10_keep, W12_keep, W4_in27, W7_in27, W2_src, W2_dst, W2_en, W2_sn, W2_hp, W2_arg2, W2_arg4, W2_arg5, W2_arg6, W2_arg7, W2_arg8, W2_arg9, W2_arg10, W2_arg11, W2_arg12, W4_h1, W5_hp, W7_h2, W8_hp]; try rfl) (by simp (disch := decide) only [W3, W6, W9, W11, W13, hostOps1, hostOps3, hostOps5, hostOps6, hostOps7, after_cons, after_nil, nullary_result', unary_result', binary_result', ternary_result', quaternary_result', reshape_result', nullary_result_ne', unary_result_ne', binary_result_ne', ternary_result_ne', quaternary_result_ne', reshape_result_ne', W4_keep, W5_keep, W7_keep, W8_keep, W10_keep, W12_keep, W4_in27, W7_in27, W2_src, W2_dst, W2_en, W2_sn, W2_hp, W2_arg2, W2_arg4, W2_arg5, W2_arg6, W2_arg7, W2_arg8, W2_arg9, W2_arg10, W2_arg11, W2_arg12, W4_h1, W5_hp, W7_h2, W8_hp]; try rfl) (by simp (disch := decide) only [W3, W6, W9, W11, W13, hostOps1, hostOps3, hostOps5, hostOps6, hostOps7, after_cons, after_nil, nullary_result', unary_result', binary_result', ternary_result', quaternary_result', reshape_result', nullary_result_ne', unary_result_ne', binary_result_ne', ternary_result_ne', quaternary_result_ne', reshape_result_ne', W4_keep, W5_keep, W7_keep, W8_keep, W10_keep, W12_keep, W4_in27, W7_in27, W2_src, W2_dst, W2_en, W2_sn, W2_hp, W2_arg2, W2_arg4, W2_arg5, W2_arg6, W2_arg7, W2_arg8, W2_arg9, W2_arg10, W2_arg11, W2_arg12, W4_h1, W5_hp, W7_h2, W8_hp]; try rfl)

/-! ## The pooled embeddings, the head, and the result -/

set_option maxHeartbeats 4000000 in
/-- The result buffer after the last segment is what the reference computes from the same thirteen arrays. -/
theorem out_eq : W13 m ρ c (Proc.devRef .tc main_v91) = Cert.ReferenceIdeal.RefRun.refOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  have h90 : W12 m ρ c (Proc.devRef .tc main_v90) = k6_pay1 (F := Ideal) (Cert.ReferenceIdeal.RefRun.pool (Cert.ReferenceIdeal.RefRun.sums (Cert.ReferenceIdeal.RefRun.layer (Cert.ReferenceIdeal.RefRun.dense (Cert.ReferenceIdeal.RefRun.layer (Cert.ReferenceIdeal.RefRun.dense (Cert.ReferenceIdeal.RefRun.layer (Cert.ReferenceIdeal.RefRun.dense0 (m ((c : Thread nD τ).loc main_arg0)) (m ((c : Thread nD τ).loc main_arg3))) (Cert.ReferenceIdeal.RefRun.edgeSrc (m ((c : Thread nD τ).loc main_arg1))) (Cert.ReferenceIdeal.RefRun.edgeDst (m ((c : Thread nD τ).loc main_arg1))) (m ((c : Thread nD τ).loc main_arg4))) (m ((c : Thread nD τ).loc main_arg5))) (Cert.ReferenceIdeal.RefRun.edgeSrc (m ((c : Thread nD τ).loc main_arg1))) (Cert.ReferenceIdeal.RefRun.edgeDst (m ((c : Thread nD τ).loc main_arg1))) (m ((c : Thread nD τ).loc main_arg6))) (m ((c : Thread nD τ).loc main_arg7))) (Cert.ReferenceIdeal.RefRun.edgeSrc (m ((c : Thread nD τ).loc main_arg1))) (Cert.ReferenceIdeal.RefRun.edgeDst (m ((c : Thread nD τ).loc main_arg1))) (m ((c : Thread nD τ).loc main_arg8))) (m ((c : Thread nD τ).loc main_arg2))) (Cert.ReferenceIdeal.RefRun.counts (m ((c : Thread nD τ).loc main_arg2)))) (m ((c : Thread nD τ).loc main_arg9)) (fun i => shapeCast S1x64 (m ((c : Thread nD τ).loc main_arg10)) shapeCasts_S64_S1x64 i) (m ((c : Thread nD τ).loc main_arg11)) (fun i => shapeCast S1x1 (m ((c : Thread nD τ).loc main_arg12)) shapeCasts_S1_S1x1 i) := by
    refine ((W12_arr m ρ c 5).trans (RegionFC.final6 (V11 m ρ) c)).trans ?_
    show k6_pay1 (F := Ideal) (W11 m ρ c (Proc.devRef .tc main_v87)) (W11 m ρ c (Proc.devRef .tc main_arg9)) (W11 m ρ c (Proc.devRef .tc main_v88)) (W11 m ρ c (Proc.devRef .tc main_arg11)) (W11 m ρ c (Proc.devRef .tc main_v89)) = _
    have e0 : W11 m ρ c (Proc.devRef .tc main_v87) = (Cert.ReferenceIdeal.RefRun.pool (Cert.ReferenceIdeal.RefRun.sums (Cert.ReferenceIdeal.RefRun.layer (Cert.ReferenceIdeal.RefRun.dense (Cert.ReferenceIdeal.RefRun.layer (Cert.ReferenceIdeal.RefRun.dense (Cert.ReferenceIdeal.RefRun.layer (Cert.ReferenceIdeal.RefRun.dense0 (m ((c : Thread nD τ).loc main_arg0)) (m ((c : Thread nD τ).loc main_arg3))) (Cert.ReferenceIdeal.RefRun.edgeSrc (m ((c : Thread nD τ).loc main_arg1))) (Cert.ReferenceIdeal.RefRun.edgeDst (m ((c : Thread nD τ).loc main_arg1))) (m ((c : Thread nD τ).loc main_arg4))) (m ((c : Thread nD τ).loc main_arg5))) (Cert.ReferenceIdeal.RefRun.edgeSrc (m ((c : Thread nD τ).loc main_arg1))) (Cert.ReferenceIdeal.RefRun.edgeDst (m ((c : Thread nD τ).loc main_arg1))) (m ((c : Thread nD τ).loc main_arg6))) (m ((c : Thread nD τ).loc main_arg7))) (Cert.ReferenceIdeal.RefRun.edgeSrc (m ((c : Thread nD τ).loc main_arg1))) (Cert.ReferenceIdeal.RefRun.edgeDst (m ((c : Thread nD τ).loc main_arg1))) (m ((c : Thread nD τ).loc main_arg8))) (m ((c : Thread nD τ).loc main_arg2))) (Cert.ReferenceIdeal.RefRun.counts (m ((c : Thread nD τ).loc main_arg2)))) := by simp (disch := decide) only [W3, W6, W9, W11, W13, hostOps1, hostOps3, hostOps5, hostOps6, hostOps7, after_cons, after_nil, nullary_result', unary_result', binary_result', ternary_result', quaternary_result', reshape_result', nullary_result_ne', unary_result_ne', binary_result_ne', ternary_result_ne', quaternary_result_ne', reshape_result_ne', W4_keep, W5_keep, W7_keep, W8_keep, W10_keep, W12_keep, W4_in27, W7_in27, W2_src, W2_dst, W2_en, W2_sn, W2_hp, W2_arg2, W2_arg4, W2_arg5, W2_arg6, W2_arg7, W2_arg8, W2_arg9, W2_arg10, W2_arg11, W2_arg12, W4_h1, W5_hp, W7_h2, W8_hp, W10_h3]; try rfl
    have e1 : W11 m ρ c (Proc.devRef .tc main_arg9) = (m ((c : Thread nD τ).loc main_arg9)) := by simp (disch := decide) only [W3, W6, W9, W11, W13, hostOps1, hostOps3, hostOps5, hostOps6, hostOps7, after_cons, after_nil, nullary_result', unary_result', binary_result', ternary_result', quaternary_result', reshape_result', nullary_result_ne', unary_result_ne', binary_result_ne', ternary_result_ne', quaternary_result_ne', reshape_result_ne', W4_keep, W5_keep, W7_keep, W8_keep, W10_keep, W12_keep, W4_in27, W7_in27, W2_src, W2_dst, W2_en, W2_sn, W2_hp, W2_arg2, W2_arg4, W2_arg5, W2_arg6, W2_arg7, W2_arg8, W2_arg9, W2_arg10, W2_arg11, W2_arg12, W4_h1, W5_hp, W7_h2, W8_hp, W10_h3]
    have e2 : W11 m ρ c (Proc.devRef .tc main_v88) = (fun i => shapeCast S1x64 (m ((c : Thread nD τ).loc main_arg10)) shapeCasts_S64_S1x64 i) := by simp (disch := decide) only [W3, W6, W9, W11, W13, hostOps1, hostOps3, hostOps5, hostOps6, hostOps7, after_cons, after_nil, nullary_result', unary_result', binary_result', ternary_result', quaternary_result', reshape_result', nullary_result_ne', unary_result_ne', binary_result_ne', ternary_result_ne', quaternary_result_ne', reshape_result_ne', W4_keep, W5_keep, W7_keep, W8_keep, W10_keep, W12_keep, W4_in27, W7_in27, W2_src, W2_dst, W2_en, W2_sn, W2_hp, W2_arg2, W2_arg4, W2_arg5, W2_arg6, W2_arg7, W2_arg8, W2_arg9, W2_arg10, W2_arg11, W2_arg12, W4_h1, W5_hp, W7_h2, W8_hp, W10_h3]; try rfl
    have e3 : W11 m ρ c (Proc.devRef .tc main_arg11) = (m ((c : Thread nD τ).loc main_arg11)) := by simp (disch := decide) only [W3, W6, W9, W11, W13, hostOps1, hostOps3, hostOps5, hostOps6, hostOps7, after_cons, after_nil, nullary_result', unary_result', binary_result', ternary_result', quaternary_result', reshape_result', nullary_result_ne', unary_result_ne', binary_result_ne', ternary_result_ne', quaternary_result_ne', reshape_result_ne', W4_keep, W5_keep, W7_keep, W8_keep, W10_keep, W12_keep, W4_in27, W7_in27, W2_src, W2_dst, W2_en, W2_sn, W2_hp, W2_arg2, W2_arg4, W2_arg5, W2_arg6, W2_arg7, W2_arg8, W2_arg9, W2_arg10, W2_arg11, W2_arg12, W4_h1, W5_hp, W7_h2, W8_hp, W10_h3]
    have e4 : W11 m ρ c (Proc.devRef .tc main_v89) = (fun i => shapeCast S1x1 (m ((c : Thread nD τ).loc main_arg12)) shapeCasts_S1_S1x1 i) := by simp (disch := decide) only [W3, W6, W9, W11, W13, hostOps1, hostOps3, hostOps5, hostOps6, hostOps7, after_cons, after_nil, nullary_result', unary_result', binary_result', ternary_result', quaternary_result', reshape_result', nullary_result_ne', unary_result_ne', binary_result_ne', ternary_result_ne', quaternary_result_ne', reshape_result_ne', W4_keep, W5_keep, W7_keep, W8_keep, W10_keep, W12_keep, W4_in27, W7_in27, W2_src, W2_dst, W2_en, W2_sn, W2_hp, W2_arg2, W2_arg4, W2_arg5, W2_arg6, W2_arg7, W2_arg8, W2_arg9, W2_arg10, W2_arg11, W2_arg12, W4_h1, W5_hp, W7_h2, W8_hp, W10_h3]; try rfl
    rw [e0, e1, e2, e3, e4]
  simp (disch := decide) only [W13, hostOps7, after_cons, after_nil, nullary_result', unary_result', binary_result', ternary_result', quaternary_result', reshape_result', nullary_result_ne', unary_result_ne', binary_result_ne', ternary_result_ne', quaternary_result_ne', reshape_result_ne']
  rw [h90]
  exact HeadBridge.head_fold (Cert.ReferenceIdeal.RefRun.pool (Cert.ReferenceIdeal.RefRun.sums (Cert.ReferenceIdeal.RefRun.layer (Cert.ReferenceIdeal.RefRun.dense (Cert.ReferenceIdeal.RefRun.layer (Cert.ReferenceIdeal.RefRun.dense (Cert.ReferenceIdeal.RefRun.layer (Cert.ReferenceIdeal.RefRun.dense0 (m ((c : Thread nD τ).loc main_arg0)) (m ((c : Thread nD τ).loc main_arg3))) (Cert.ReferenceIdeal.RefRun.edgeSrc (m ((c : Thread nD τ).loc main_arg1))) (Cert.ReferenceIdeal.RefRun.edgeDst (m ((c : Thread nD τ).loc main_arg1))) (m ((c : Thread nD τ).loc main_arg4))) (m ((c : Thread nD τ).loc main_arg5))) (Cert.ReferenceIdeal.RefRun.edgeSrc (m ((c : Thread nD τ).loc main_arg1))) (Cert.ReferenceIdeal.RefRun.edgeDst (m ((c : Thread nD τ).loc main_arg1))) (m ((c : Thread nD τ).loc main_arg6))) (m ((c : Thread nD τ).loc main_arg7))) (Cert.ReferenceIdeal.RefRun.edgeSrc (m ((c : Thread nD τ).loc main_arg1))) (Cert.ReferenceIdeal.RefRun.edgeDst (m ((c : Thread nD τ).loc main_arg1))) (m ((c : Thread nD τ).loc main_arg8))) (m ((c : Thread nD τ).loc main_arg2))) (Cert.ReferenceIdeal.RefRun.counts (m ((c : Thread nD τ).loc main_arg2)))) (m ((c : Thread nD τ).loc main_arg9)) (m ((c : Thread nD τ).loc main_arg10)) (m ((c : Thread nD τ).loc main_arg11)) (m ((c : Thread nD τ).loc main_arg12))

end Cert.KernelIdeal.KValue

end
-- ==== Proof.RefOps.lean ====
import proofs.«148020_j2370821947640_1_alg».proof.Proof.Gen.ReferenceIdeal
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! The reference program as a straight line of host operations, window by window, each call of the
    leaky rectifier replaced by the seven operations of its body over that call's own buffers. -/

/-- Operations of the first window: the edge table's rows, the degree and its inverse square root, the edge and
    self normalisations, and the first graph-convolution layer up to its leaky rectifier. -/
abbrev ops0 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_cst (constant S_ .f32 0x3F800000#32),
    unary main_cst main_v4 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v3 main_v6 (broadcastInDim S1600000x1 ![0] bcast_S1600000_S1600000x1_0 : (⟨S1600000, .i32⟩ : BufTy).Contents (Elt F) → (⟨S1600000x1, .i32⟩ : BufTy).Contents (Elt F)),
    ternary main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x3F800000#32),
    unary main_cst_1 main_v8 (broadcastInDim S100000 ![] bcast_S_S100000 : (⟨S_, .f32⟩ : BufTy).Contents (Elt F) → (⟨S100000, .f32⟩ : BufTy).Contents (Elt F)),
    binary main_v7 main_v8 main_v9 (addf : (⟨S100000, .f32⟩ : BufTy).Contents (Elt F) → (⟨S100000, .f32⟩ : BufTy).Contents (Elt F) → (⟨S100000, .f32⟩ : BufTy).Contents (Elt F)),
    unary main_v9 main_v10 (Host.rsqrt : (⟨S100000, .f32⟩ : BufTy).Contents (Elt F) → (⟨S100000, .f32⟩ : BufTy).Contents (Elt F)),
    nullary main_c (constantI S_ 32 0#32),
    unary main_c main_v11 (broadcastInDim S1600000 ![] bcast_S_S1600000 : (⟨S_, .i32⟩ : BufTy).Contents (Elt F) → (⟨S1600000, .i32⟩ : BufTy).Contents (Elt F)),
    binary main_v1 main_v11 main_v12 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v13 (broadcastInDim S1600000 ![] bcast_S_S1600000 : (⟨S_, .i32⟩ : BufTy).Contents (Elt F) → (⟨S1600000, .i32⟩ : BufTy).Contents (Elt F)),
    binary main_v1 main_v13 main_v14 (addi : (⟨S1600000, .i32⟩ : BufTy).Contents (Elt F) → (⟨S1600000, .i32⟩ : BufTy).Contents (Elt F) → (⟨S1600000, .i32⟩ : BufTy).Contents (Elt F)),
    ternary main_v12 main_v14 main_v1 main_v15 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v15 main_v16 (broadcastInDim S1600000x1 ![0] bcast_S1600000_S1600000x1_0 : (⟨S1600000, .i32⟩ : BufTy).Contents (Elt F) → (⟨S1600000x1, .i32⟩ : BufTy).Contents (Elt F)),
    binary main_v10 main_v16 main_v17 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_3 (constantI S_ 32 0#32),
    unary main_c_3 main_v18 (broadcastInDim S1600000 ![] bcast_S_S1600000 : (⟨S_, .i32⟩ : BufTy).Contents (Elt F) → (⟨S1600000, .i32⟩ : BufTy).Contents (Elt F)),
    binary main_v3 main_v18 main_v19 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v20 (broadcastInDim S1600000 ![] bcast_S_S1600000 : (⟨S_, .i32⟩ : BufTy).Contents (Elt F) → (⟨S1600000, .i32⟩ : BufTy).Contents (Elt F)),
    binary main_v3 main_v20 main_v21 (addi : (⟨S1600000, .i32⟩ : BufTy).Contents (Elt F) → (⟨S1600000, .i32⟩ : BufTy).Contents (Elt F) → (⟨S1600000, .i32⟩ : BufTy).Contents (Elt F)),
    ternary main_v19 main_v21 main_v3 main_v22 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v22 main_v23 (broadcastInDim S1600000x1 ![0] bcast_S1600000_S1600000x1_0 : (⟨S1600000, .i32⟩ : BufTy).Contents (Elt F) → (⟨S1600000x1, .i32⟩ : BufTy).Contents (Elt F)),
    binary main_v10 main_v23 main_v24 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v17 main_v24 main_v25 (mulf : (⟨S1600000, .f32⟩ : BufTy).Contents (Elt F) → (⟨S1600000, .f32⟩ : BufTy).Contents (Elt F) → (⟨S1600000, .f32⟩ : BufTy).Contents (Elt F)),
    binary main_v10 main_v10 main_v26 (mulf : (⟨S100000, .f32⟩ : BufTy).Contents (Elt F) → (⟨S100000, .f32⟩ : BufTy).Contents (Elt F) → (⟨S100000, .f32⟩ : BufTy).Contents (Elt F)),
    binary main_arg0 main_arg3 main_v27 ((fun l r => Host.dotGeneral dot_S100000x163_S163x64_S100000x64_1_0_0_1_n_n none l r) : (⟨S100000x163, .f32⟩ : BufTy).Contents (Elt F) → (⟨S163x64, .f32⟩ : BufTy).Contents (Elt F) → (⟨S100000x64, .f32⟩ : BufTy).Contents (Elt F)),
    nullary main_c_5 (constantI S_ 32 0#32),
    unary main_c_5 main_v28 (broadcastInDim S1600000 ![] bcast_S_S1600000 : (⟨S_, .i32⟩ : BufTy).Contents (Elt F) → (⟨S1600000, .i32⟩ : BufTy).Contents (Elt F)),
    binary main_v1 main_v28 main_v29 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v30 (broadcastInDim S1600000 ![] bcast_S_S1600000 : (⟨S_, .i32⟩ : BufTy).Contents (Elt F) → (⟨S1600000, .i32⟩ : BufTy).Contents (Elt F)),
    binary main_v1 main_v30 main_v31 (addi : (⟨S1600000, .i32⟩ : BufTy).Contents (Elt F) → (⟨S1600000, .i32⟩ : BufTy).Contents (Elt F) → (⟨S1600000, .i32⟩ : BufTy).Contents (Elt F)),
    ternary main_v29 main_v31 main_v1 main_v32 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v32 main_v33 (broadcastInDim S1600000x1 ![0] bcast_S1600000_S1600000x1_0 : (⟨S1600000, .i32⟩ : BufTy).Contents (Elt F) → (⟨S1600000x1, .i32⟩ : BufTy).Contents (Elt F)),
    binary main_v27 main_v33 main_v34 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v25 main_v35 (broadcastInDim S1600000x1 ![0] bcast_S1600000_S1600000x1_0 : (⟨S1600000, .f32⟩ : BufTy).Contents (Elt F) → (⟨S1600000x1, .f32⟩ : BufTy).Contents (Elt F)),
    unary main_v35 main_v36 (broadcastInDim S1600000x64 ![0, 1] bcast_S1600000x1_S1600000x64_0_1 : (⟨S1600000x1, .f32⟩ : BufTy).Contents (Elt F) → (⟨S1600000x64, .f32⟩ : BufTy).Contents (Elt F)),
    binary main_v34 main_v36 main_v37 (mulf : (⟨S1600000x64, .f32⟩ : BufTy).Contents (Elt F) → (⟨S1600000x64, .f32⟩ : BufTy).Contents (Elt F) → (⟨S1600000x64, .f32⟩ : BufTy).Contents (Elt F)),
    nullary main_cst_7 (constant S_ .f32 0x00000000#32),
    unary main_cst_7 main_v38 (broadcastInDim S100000x64 ![] bcast_S_S100000x64 : (⟨S_, .f32⟩ : BufTy).Contents (Elt F) → (⟨S100000x64, .f32⟩ : BufTy).Contents (Elt F)),
    unary main_v3 main_v39 (broadcastInDim S1600000x1 ![0] bcast_S1600000_S1600000x1_0 : (⟨S1600000, .i32⟩ : BufTy).Contents (Elt F) → (⟨S1600000x1, .i32⟩ : BufTy).Contents (Elt F)),
    ternary main_v38 main_v39 main_v37 main_v40 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    unary main_v26 main_v41 (broadcastInDim S100000x1 ![0] bcast_S100000_S100000x1_0 : (⟨S100000, .f32⟩ : BufTy).Contents (Elt F) → (⟨S100000x1, .f32⟩ : BufTy).Contents (Elt F)),
    unary main_v41 main_v42 (broadcastInDim S100000x64 ![0, 1] bcast_S100000x1_S100000x64_0_1 : (⟨S100000x1, .f32⟩ : BufTy).Contents (Elt F) → (⟨S100000x64, .f32⟩ : BufTy).Contents (Elt F)),
    binary main_v27 main_v42 main_v43 (mulf : (⟨S100000x64, .f32⟩ : BufTy).Contents (Elt F) → (⟨S100000x64, .f32⟩ : BufTy).Contents (Elt F) → (⟨S100000x64, .f32⟩ : BufTy).Contents (Elt F)),
    binary main_v40 main_v43 main_v44 (addf : (⟨S100000x64, .f32⟩ : BufTy).Contents (Elt F) → (⟨S100000x64, .f32⟩ : BufTy).Contents (Elt F) → (⟨S100000x64, .f32⟩ : BufTy).Contents (Elt F)),
    unary main_arg4 main_v45 (broadcastInDim S1x64 ![1] bcast_S64_S1x64_1 : (⟨S64, .f32⟩ : BufTy).Contents (Elt F) → (⟨S1x64, .f32⟩ : BufTy).Contents (Elt F)),
    unary main_v45 main_v46 (broadcastInDim S100000x64 ![0, 1] bcast_S1x64_S100000x64_0_1 : (⟨S1x64, .f32⟩ : BufTy).Contents (Elt F) → (⟨S100000x64, .f32⟩ : BufTy).Contents (Elt F)),
    binary main_v44 main_v46 main_v47 (addf : (⟨S100000x64, .f32⟩ : BufTy).Contents (Elt F) → (⟨S100000x64, .f32⟩ : BufTy).Contents (Elt F) → (⟨S100000x64, .f32⟩ : BufTy).Contents (Elt F)),
    nullary main_cst_8 (constant S_ .f32 0x3C23D70A#32),
    TRef.nullary main_call0.cst (constant S_ .f32 0x00000000#32),
    TRef.unary main_call0.cst main_call0.v0 (broadcastInDim S100000x64 ![] bcast_S_S100000x64),
    TRef.binary (.of main_v47) main_call0.v0 main_call0.v1 (cmpf .oge),
    TRef.unary (.of main_cst_8) main_call0.v2 id,
    TRef.unary main_call0.v2 main_call0.v3 (broadcastInDim S100000x64 ![] bcast_S_S100000x64),
    TRef.binary main_call0.v3 (.of main_v47) main_call0.v4 mulf,
    TRef.ternary main_call0.v1 (.of main_v47) main_call0.v4 main_call0.call0.v0 select ]

/-- Operations of the second window: the second and third layers, and the per-graph node counts. -/
abbrev ops1 : List (HloOp τ sig (Elt F)) :=
  [ binary main_v48 main_arg5 main_v49 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_9 (constantI S_ 32 0#32),
    unary main_c_9 main_v50 (broadcastInDim S1600000 ![] bcast_S_S1600000 : (⟨S_, .i32⟩ : BufTy).Contents (Elt F) → (⟨S1600000, .i32⟩ : BufTy).Contents (Elt F)),
    binary main_v1 main_v50 main_v51 (cmpi .slt : (⟨S1600000, .i32⟩ : BufTy).Contents (Elt F) → (⟨S1600000, .i32⟩ : BufTy).Contents (Elt F) → (⟨S1600000, .i1⟩ : BufTy).Contents (Elt F)),
    nullary main_c_10 (constantI S_ 32 100000#32),
    unary main_c_10 main_v52 (broadcastInDim S1600000 ![] bcast_S_S1600000 : (⟨S_, .i32⟩ : BufTy).Contents (Elt F) → (⟨S1600000, .i32⟩ : BufTy).Contents (Elt F)),
    binary main_v1 main_v52 main_v53 (addi : (⟨S1600000, .i32⟩ : BufTy).Contents (Elt F) → (⟨S1600000, .i32⟩ : BufTy).Contents (Elt F) → (⟨S1600000, .i32⟩ : BufTy).Contents (Elt F)),
    ternary main_v51 main_v53 main_v1 main_v54 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v54 main_v55 (broadcastInDim S1600000x1 ![0] bcast_S1600000_S1600000x1_0 : (⟨S1600000, .i32⟩ : BufTy).Contents (Elt F) → (⟨S1600000x1, .i32⟩ : BufTy).Contents (Elt F)),
    binary main_v49 main_v55 main_v56 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v25 main_v57 (broadcastInDim S1600000x1 ![0] bcast_S1600000_S1600000x1_0 : (⟨S1600000, .f32⟩ : BufTy).Contents (Elt F) → (⟨S1600000x1, .f32⟩ : BufTy).Contents (Elt F)),
    unary main_v57 main_v58 (broadcastInDim S1600000x64 ![0, 1] bcast_S1600000x1_S1600000x64_0_1 : (⟨S1600000x1, .f32⟩ : BufTy).Contents (Elt F) → (⟨S1600000x64, .f32⟩ : BufTy).Contents (Elt F)),
    binary main_v56 main_v58 main_v59 (mulf : (⟨S1600000x64, .f32⟩ : BufTy).Contents (Elt F) → (⟨S1600000x64, .f32⟩ : BufTy).Contents (Elt F) → (⟨S1600000x64, .f32⟩ : BufTy).Contents (Elt F)),
    nullary main_cst_11 (constant S_ .f32 0x00000000#32),
    unary main_cst_11 main_v60 (broadcastInDim S100000x64 ![] bcast_S_S100000x64 : (⟨S_, .f32⟩ : BufTy).Contents (Elt F) → (⟨S100000x64, .f32⟩ : BufTy).Contents (Elt F)),
    unary main_v3 main_v61 (broadcastInDim S1600000x1 ![0] bcast_S1600000_S1600000x1_0 : (⟨S1600000, .i32⟩ : BufTy).Contents (Elt F) → (⟨S1600000x1, .i32⟩ : BufTy).Contents (Elt F)),
    ternary main_v60 main_v61 main_v59 main_v62 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    unary main_v26 main_v63 (broadcastInDim S100000x1 ![0] bcast_S100000_S100000x1_0 : (⟨S100000, .f32⟩ : BufTy).Contents (Elt F) → (⟨S100000x1, .f32⟩ : BufTy).Contents (Elt F)),
    unary main_v63 main_v64 (broadcastInDim S100000x64 ![0, 1] bcast_S100000x1_S100000x64_0_1 : (⟨S100000x1, .f32⟩ : BufTy).Contents (Elt F) → (⟨S100000x64, .f32⟩ : BufTy).Contents (Elt F)),
    binary main_v49 main_v64 main_v65 (mulf : (⟨S100000x64, .f32⟩ : BufTy).Contents (Elt F) → (⟨S100000x64, .f32⟩ : BufTy).Contents (Elt F) → (⟨S100000x64, .f32⟩ : BufTy).Contents (Elt F)),
    binary main_v62 main_v65 main_v66 (addf : (⟨S100000x64, .f32⟩ : BufTy).Contents (Elt F) → (⟨S100000x64, .f32⟩ : BufTy).Contents (Elt F) → (⟨S100000x64, .f32⟩ : BufTy).Contents (Elt F)),
    unary main_arg6 main_v67 (broadcastInDim S1x64 ![1] bcast_S64_S1x64_1 : (⟨S64, .f32⟩ : BufTy).Contents (Elt F) → (⟨S1x64, .f32⟩ : BufTy).Contents (Elt F)),
    unary main_v67 main_v68 (broadcastInDim S100000x64 ![0, 1] bcast_S1x64_S100000x64_0_1 : (⟨S1x64, .f32⟩ : BufTy).Contents (Elt F) → (⟨S100000x64, .f32⟩ : BufTy).Contents (Elt F)),
    binary main_v66 main_v68 main_v69 (addf : (⟨S100000x64, .f32⟩ : BufTy).Contents (Elt F) → (⟨S100000x64, .f32⟩ : BufTy).Contents (Elt F) → (⟨S100000x64, .f32⟩ : BufTy).Contents (Elt F)),
    nullary main_cst_12 (constant S_ .f32 0x3C23D70A#32),
    TRef.nullary main_call1.cst (constant S_ .f32 0x00000000#32),
    TRef.unary main_call1.cst main_call1.v0 (broadcastInDim S100000x64 ![] bcast_S_S100000x64),
    TRef.binary (.of main_v69) main_call1.v0 main_call1.v1 (cmpf .oge),
    TRef.unary (.of main_cst_12) main_call1.v2 id,
    TRef.unary main_call1.v2 main_call1.v3 (broadcastInDim S100000x64 ![] bcast_S_S100000x64),
    TRef.binary main_call1.v3 (.of main_v69) main_call1.v4 mulf,
    TRef.ternary main_call1.v1 (.of main_v69) main_call1.v4 main_call1.call0.v0 select,
    binary main_v70 main_arg7 main_v71 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_13 (constantI S_ 32 0#32),
    unary main_c_13 main_v72 (broadcastInDim S1600000 ![] bcast_S_S1600000 : (⟨S_, .i32⟩ : BufTy).Contents (Elt F) → (⟨S1600000, .i32⟩ : BufTy).Contents (Elt F)),
    binary main_v1 main_v72 main_v73 (cmpi .slt : (⟨S1600000, .i32⟩ : BufTy).Contents (Elt F) → (⟨S1600000, .i32⟩ : BufTy).Contents (Elt F) → (⟨S1600000, .i1⟩ : BufTy).Contents (Elt F)),
    nullary main_c_14 (constantI S_ 32 100000#32),
    unary main_c_14 main_v74 (broadcastInDim S1600000 ![] bcast_S_S1600000 : (⟨S_, .i32⟩ : BufTy).Contents (Elt F) → (⟨S1600000, .i32⟩ : BufTy).Contents (Elt F)),
    binary main_v1 main_v74 main_v75 (addi : (⟨S1600000, .i32⟩ : BufTy).Contents (Elt F) → (⟨S1600000, .i32⟩ : BufTy).Contents (Elt F) → (⟨S1600000, .i32⟩ : BufTy).Contents (Elt F)),
    ternary main_v73 main_v75 main_v1 main_v76 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v76 main_v77 (broadcastInDim S1600000x1 ![0] bcast_S1600000_S1600000x1_0 : (⟨S1600000, .i32⟩ : BufTy).Contents (Elt F) → (⟨S1600000x1, .i32⟩ : BufTy).Contents (Elt F)),
    binary main_v71 main_v77 main_v78 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v25 main_v79 (broadcastInDim S1600000x1 ![0] bcast_S1600000_S1600000x1_0 : (⟨S1600000, .f32⟩ : BufTy).Contents (Elt F) → (⟨S1600000x1, .f32⟩ : BufTy).Contents (Elt F)),
    unary main_v79 main_v80 (broadcastInDim S1600000x64 ![0, 1] bcast_S1600000x1_S1600000x64_0_1 : (⟨S1600000x1, .f32⟩ : BufTy).Contents (Elt F) → (⟨S1600000x64, .f32⟩ : BufTy).Contents (Elt F)),
    binary main_v78 main_v80 main_v81 (mulf : (⟨S1600000x64, .f32⟩ : BufTy).Contents (Elt F) → (⟨S1600000x64, .f32⟩ : BufTy).Contents (Elt F) → (⟨S1600000x64, .f32⟩ : BufTy).Contents (Elt F)),
    nullary main_cst_15 (constant S_ .f32 0x00000000#32),
    unary main_cst_15 main_v82 (broadcastInDim S100000x64 ![] bcast_S_S100000x64 : (⟨S_, .f32⟩ : BufTy).Contents (Elt F) → (⟨S100000x64, .f32⟩ : BufTy).Contents (Elt F)),
    unary main_v3 main_v83 (broadcastInDim S1600000x1 ![0] bcast_S1600000_S1600000x1_0 : (⟨S1600000, .i32⟩ : BufTy).Contents (Elt F) → (⟨S1600000x1, .i32⟩ : BufTy).Contents (Elt F)),
    ternary main_v82 main_v83 main_v81 main_v84 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    unary main_v26 main_v85 (broadcastInDim S100000x1 ![0] bcast_S100000_S100000x1_0 : (⟨S100000, .f32⟩ : BufTy).Contents (Elt F) → (⟨S100000x1, .f32⟩ : BufTy).Contents (Elt F)),
    unary main_v85 main_v86 (broadcastInDim S100000x64 ![0, 1] bcast_S100000x1_S100000x64_0_1 : (⟨S100000x1, .f32⟩ : BufTy).Contents (Elt F) → (⟨S100000x64, .f32⟩ : BufTy).Contents (Elt F)),
    binary main_v71 main_v86 main_v87 (mulf : (⟨S100000x64, .f32⟩ : BufTy).Contents (Elt F) → (⟨S100000x64, .f32⟩ : BufTy).Contents (Elt F) → (⟨S100000x64, .f32⟩ : BufTy).Contents (Elt F)),
    binary main_v84 main_v87 main_v88 (addf : (⟨S100000x64, .f32⟩ : BufTy).Contents (Elt F) → (⟨S100000x64, .f32⟩ : BufTy).Contents (Elt F) → (⟨S100000x64, .f32⟩ : BufTy).Contents (Elt F)),
    unary main_arg8 main_v89 (broadcastInDim S1x64 ![1] bcast_S64_S1x64_1 : (⟨S64, .f32⟩ : BufTy).Contents (Elt F) → (⟨S1x64, .f32⟩ : BufTy).Contents (Elt F)),
    unary main_v89 main_v90 (broadcastInDim S100000x64 ![0, 1] bcast_S1x64_S100000x64_0_1 : (⟨S1x64, .f32⟩ : BufTy).Contents (Elt F) → (⟨S100000x64, .f32⟩ : BufTy).Contents (Elt F)),
    binary main_v88 main_v90 main_v91 (addf : (⟨S100000x64, .f32⟩ : BufTy).Contents (Elt F) → (⟨S100000x64, .f32⟩ : BufTy).Contents (Elt F) → (⟨S100000x64, .f32⟩ : BufTy).Contents (Elt F)),
    nullary main_cst_16 (constant S_ .f32 0x3C23D70A#32),
    TRef.nullary main_call2.cst (constant S_ .f32 0x00000000#32),
    TRef.unary main_call2.cst main_call2.v0 (broadcastInDim S100000x64 ![] bcast_S_S100000x64),
    TRef.binary (.of main_v91) main_call2.v0 main_call2.v1 (cmpf .oge),
    TRef.unary (.of main_cst_16) main_call2.v2 id,
    TRef.unary main_call2.v2 main_call2.v3 (broadcastInDim S100000x64 ![] bcast_S_S100000x64),
    TRef.binary main_call2.v3 (.of main_v91) main_call2.v4 mulf,
    TRef.ternary main_call2.v1 (.of main_v91) main_call2.v4 main_call2.call0.v0 select,
    nullary main_cst_17 (constant S_ .f32 0x3F800000#32),
    unary main_cst_17 main_v93 (broadcastInDim S100000 ![] bcast_S_S100000 : (⟨S_, .f32⟩ : BufTy).Contents (Elt F) → (⟨S100000, .f32⟩ : BufTy).Contents (Elt F)),
    nullary main_cst_18 (constant S_ .f32 0x00000000#32),
    unary main_cst_18 main_v94 (broadcastInDim S1024 ![] bcast_S_S1024 : (⟨S_, .f32⟩ : BufTy).Contents (Elt F) → (⟨S1024, .f32⟩ : BufTy).Contents (Elt F)),
    unary main_arg2 main_v95 (broadcastInDim S100000x1 ![0] bcast_S100000_S100000x1_0 : (⟨S100000, .i32⟩ : BufTy).Contents (Elt F) → (⟨S100000x1, .i32⟩ : BufTy).Contents (Elt F)),
    ternary main_v94 main_v95 main_v93 main_v96 ((fun x i u => Host.scatterAdd scatter_S1024_S100000x1_S100000_n_0_0_1 x i u) : (⟨S1024, .f32⟩ : BufTy).Contents (Elt F) → (⟨S100000x1, .i32⟩ : BufTy).Contents (Elt F) → (⟨S100000, .f32⟩ : BufTy).Contents (Elt F) → (⟨S1024, .f32⟩ : BufTy).Contents (Elt F)),
    nullary main_cst_19 (constant S_ .f32 0x00000000#32),
    unary main_cst_19 main_v97 (broadcastInDim S1024x64 ![] bcast_S_S1024x64 : (⟨S_, .f32⟩ : BufTy).Contents (Elt F) → (⟨S1024x64, .f32⟩ : BufTy).Contents (Elt F)) ]

/-- Operations of the third window: the per-graph mean and the two-layer head. -/
abbrev ops2 : List (HloOp τ sig (Elt F)) :=
  [ unary main_arg2 main_v98 (broadcastInDim S100000x1 ![0] bcast_S100000_S100000x1_0 : (⟨S100000, .i32⟩ : BufTy).Contents (Elt F) → (⟨S100000x1, .i32⟩ : BufTy).Contents (Elt F)),
    ternary main_v97 main_v98 main_v92 main_v99 ((fun x i u => Host.scatterAdd scatter_S1024x64_S100000x1_S100000x64_1_0_0_1 x i u) : (⟨S1024x64, .f32⟩ : BufTy).Contents (Elt F) → (⟨S100000x1, .i32⟩ : BufTy).Contents (Elt F) → (⟨S100000x64, .f32⟩ : BufTy).Contents (Elt F) → (⟨S1024x64, .f32⟩ : BufTy).Contents (Elt F)),
    nullary main_cst_20 (constant S_ .f32 0x3F800000#32),
    unary main_cst_20 main_v100 (broadcastInDim S1024 ![] bcast_S_S1024 : (⟨S_, .f32⟩ : BufTy).Contents (Elt F) → (⟨S1024, .f32⟩ : BufTy).Contents (Elt F)),
    binary main_v96 main_v100 main_v101 (maximumf : (⟨S1024, .f32⟩ : BufTy).Contents (Elt F) → (⟨S1024, .f32⟩ : BufTy).Contents (Elt F) → (⟨S1024, .f32⟩ : BufTy).Contents (Elt F)),
    unary main_v101 main_v102 (broadcastInDim S1024x1 ![0] bcast_S1024_S1024x1_0 : (⟨S1024, .f32⟩ : BufTy).Contents (Elt F) → (⟨S1024x1, .f32⟩ : BufTy).Contents (Elt F)),
    unary main_v102 main_v103 (broadcastInDim S1024x64 ![0, 1] bcast_S1024x1_S1024x64_0_1 : (⟨S1024x1, .f32⟩ : BufTy).Contents (Elt F) → (⟨S1024x64, .f32⟩ : BufTy).Contents (Elt F)),
    binary main_v99 main_v103 main_v104 (Host.divf : (⟨S1024x64, .f32⟩ : BufTy).Contents (Elt F) → (⟨S1024x64, .f32⟩ : BufTy).Contents (Elt F) → (⟨S1024x64, .f32⟩ : BufTy).Contents (Elt F)),
    binary main_v104 main_arg9 main_v105 ((fun l r => Host.dotGeneral dot_S1024x64_S64x64_S1024x64_1_0_0_1_n_n none l r) : (⟨S1024x64, .f32⟩ : BufTy).Contents (Elt F) → (⟨S64x64, .f32⟩ : BufTy).Contents (Elt F) → (⟨S1024x64, .f32⟩ : BufTy).Contents (Elt F)),
    unary main_arg10 main_v106 (broadcastInDim S1x64 ![1] bcast_S64_S1x64_1 : (⟨S64, .f32⟩ : BufTy).Contents (Elt F) → (⟨S1x64, .f32⟩ : BufTy).Contents (Elt F)),
    unary main_v106 main_v107 (broadcastInDim S1024x64 ![0, 1] bcast_S1x64_S1024x64_0_1 : (⟨S1x64, .f32⟩ : BufTy).Contents (Elt F) → (⟨S1024x64, .f32⟩ : BufTy).Contents (Elt F)),
    binary main_v105 main_v107 main_v108 (addf : (⟨S1024x64, .f32⟩ : BufTy).Contents (Elt F) → (⟨S1024x64, .f32⟩ : BufTy).Contents (Elt F) → (⟨S1024x64, .f32⟩ : BufTy).Contents (Elt F)),
    nullary main_cst_21 (constant S_ .f32 0x3C23D70A#32),
    TRef.nullary main_call3.cst (constant S_ .f32 0x00000000#32),
    TRef.unary main_call3.cst main_call3.v0 (broadcastInDim S1024x64 ![] bcast_S_S1024x64),
    TRef.binary (.of main_v108) main_call3.v0 main_call3.v1 (cmpf .oge),
    TRef.unary (.of main_cst_21) main_call3.v2 id,
    TRef.unary main_call3.v2 main_call3.v3 (broadcastInDim S1024x64 ![] bcast_S_S1024x64),
    TRef.binary main_call3.v3 (.of main_v108) main_call3.v4 mulf,
    TRef.ternary main_call3.v1 (.of main_v108) main_call3.v4 main_call3.call0.v0 select,
    binary main_v109 main_arg11 main_v110 ((fun l r => Host.dotGeneral dot_S1024x64_S64x1_S1024x1_1_0_0_1_n_n none l r) : (⟨S1024x64, .f32⟩ : BufTy).Contents (Elt F) → (⟨S64x1, .f32⟩ : BufTy).Contents (Elt F) → (⟨S1024x1, .f32⟩ : BufTy).Contents (Elt F)),
    unary main_arg12 main_v111 (broadcastInDim S1x1 ![1] bcast_S1_S1x1_1 : (⟨S1, .f32⟩ : BufTy).Contents (Elt F) → (⟨S1x1, .f32⟩ : BufTy).Contents (Elt F)),
    unary main_v111 main_v112 (broadcastInDim S1024x1 ![0, 1] bcast_S1x1_S1024x1_0_1 : (⟨S1x1, .f32⟩ : BufTy).Contents (Elt F) → (⟨S1024x1, .f32⟩ : BufTy).Contents (Elt F)),
    binary main_v110 main_v112 main_v113 (addf : (⟨S1024x1, .f32⟩ : BufTy).Contents (Elt F) → (⟨S1024x1, .f32⟩ : BufTy).Contents (Elt F) → (⟨S1024x1, .f32⟩ : BufTy).Contents (Elt F)),
    reshape main_v113 main_v114 rfl shapeCasts_S1024x1_S1024 ]

/-- All the operations, in program order. -/
abbrev ops : List (HloOp τ sig (Elt F)) := ops0 ++ (ops1 ++ ops2)

set_option maxRecDepth 4096 in
theorem main_part0_eq (c : Dev nD) : main_part0 (F := F) c = seq ops0 := by
  simp only [main_part0, fn_leaky_relu.body, fn_where.body, seq, bind_assoc, pure_bind]

set_option maxRecDepth 4096 in
theorem main_part1_eq (c : Dev nD) : main_part1 (F := F) c = seq ops1 := by
  simp only [main_part1, fn_leaky_relu.body, fn_where.body, seq, bind_assoc, pure_bind]
  rfl

set_option maxRecDepth 4096 in
theorem main_part2_eq (c : Dev nD) : main_part2 (F := F) c = seq ops2 := by
  simp only [main_part2, fn_leaky_relu_0.body, fn_where_1.body, seq, bind_assoc, pure_bind]

/-- The program is the straight line of all its operations. -/
theorem main_eq (c : Dev nD) : main (F := F) c = seq ops := by
  rw [show (ops : List (HloOp τ sig (Elt F))) = ops0 ++ (ops1 ++ ops2) from rfl, seq_append, seq_append,
    ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub ..,
    nullary_bufs_sub .., unary_bufs_sub .., unary_bufs_sub .., ternary_bufs_sub .., nullary_bufs_sub .., unary_bufs_sub ..,
    binary_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., binary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., unary_bufs_sub .., binary_bufs_sub .., nullary_bufs_sub ..,
    unary_bufs_sub .., unary_bufs_sub .., ternary_bufs_sub .., unary_bufs_sub .., unary_bufs_sub .., binary_bufs_sub ..,
    binary_bufs_sub .., unary_bufs_sub .., unary_bufs_sub .., binary_bufs_sub .., nullary_bufs_sub .., nullary_bufs_sub ..,
    unary_bufs_sub .., binary_bufs_sub .., unary_bufs_sub .., unary_bufs_sub .., binary_bufs_sub .., ternary_bufs_sub ..⟩
theorem ops1_sub : (ops1 : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., unary_bufs_sub ..,
    unary_bufs_sub .., binary_bufs_sub .., binary_bufs_sub .., unary_bufs_sub .., unary_bufs_sub .., binary_bufs_sub ..,
    nullary_bufs_sub .., nullary_bufs_sub .., unary_bufs_sub .., binary_bufs_sub .., unary_bufs_sub .., unary_bufs_sub ..,
    binary_bufs_sub .., ternary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., unary_bufs_sub .., binary_bufs_sub .., nullary_bufs_sub .., unary_bufs_sub .., unary_bufs_sub ..,
    ternary_bufs_sub .., unary_bufs_sub .., unary_bufs_sub .., binary_bufs_sub .., binary_bufs_sub .., unary_bufs_sub ..,
    unary_bufs_sub .., binary_bufs_sub .., nullary_bufs_sub .., nullary_bufs_sub .., unary_bufs_sub .., binary_bufs_sub ..,
    unary_bufs_sub .., unary_bufs_sub .., binary_bufs_sub .., ternary_bufs_sub .., nullary_bufs_sub .., unary_bufs_sub ..,
    nullary_bufs_sub .., unary_bufs_sub .., unary_bufs_sub .., ternary_bufs_sub .., nullary_bufs_sub .., unary_bufs_sub ..⟩
theorem ops2_sub : (ops2 : List (HloOp τ sig (Elt F))).Forall fun op => op.bufs ⊆ tcRefs τ sig :=
  ⟨unary_bufs_sub .., ternary_bufs_sub .., nullary_bufs_sub .., unary_bufs_sub .., binary_bufs_sub .., unary_bufs_sub ..,
    unary_bufs_sub .., binary_bufs_sub .., binary_bufs_sub .., unary_bufs_sub .., unary_bufs_sub .., binary_bufs_sub ..,
    nullary_bufs_sub .., nullary_bufs_sub .., unary_bufs_sub .., binary_bufs_sub .., unary_bufs_sub .., unary_bufs_sub ..,
    binary_bufs_sub .., ternary_bufs_sub .., binary_bufs_sub .., unary_bufs_sub .., unary_bufs_sub .., binary_bufs_sub ..,
    reshape_bufs_sub ..⟩

theorem ops_sub : (ops : List (HloOp τ sig (Elt F))).Forall fun op => op.bufs ⊆ tcRefs τ sig := by
  rw [List.forall_iff_forall_mem]
  intro op h
  rcases List.mem_append.mp h with h | h
  · exact List.forall_iff_forall_mem.mp ops0_sub op h
  rcases List.mem_append.mp h with h | h
  · exact List.forall_iff_forall_mem.mp ops1_sub op h
  · exact List.forall_iff_forall_mem.mp ops2_sub op h

/-- The fold over all the operations is the third window's over the second's over the first's. -/
theorem after_ops (V : Valuation τ sig (Elt F)) : after ops V = after ops2 (after ops1 (after ops0 V)) := by
  rw [show (ops : List (HloOp τ sig (Elt F))) = ops0 ++ (ops1 ++ ops2) from rfl, StableHlo.after_append, StableHlo.after_append]

/-- On every device, for any float values, from any memory with zero counters: every weakly fair execution of the
    program terminates, and every buffer ends at the fold of the operations' results over its launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (by
      intro _ op h
      have h0 : ∀ op ∈ (ops0 : List (HloOp τ sig (Elt F))), op.fresh = ∅ := by
        intro _ h; (repeat (cases h with | head => rfl | tail _ h => ?_)); exact nomatch h
      have h1 : ∀ op ∈ (ops1 : List (HloOp τ sig (Elt F))), op.fresh = ∅ := by
        intro _ h; (repeat (cases h with | head => rfl | tail _ h => ?_)); exact nomatch h
      have h2 : ∀ op ∈ (ops2 : List (HloOp τ sig (Elt F))), op.fresh = ∅ := by
        intro _ h; (repeat (cases h with | head => rfl | tail _ h => ?_)); exact nomatch h
      rcases List.mem_append.mp h with h | h
      · exact h0 op h
      rcases List.mem_append.mp h with h | h
      · exact h1 op h
      · exact h2 op h)

end Cert.ReferenceIdeal.RefRun

end
-- ==== Proof.RefRun.lean ====
import proofs.«148020_j2370821947640_1_alg».proof.Proof.RefOps
import proofs.«148020_j2370821947640_1_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! The reference's run read back: what each window leaves in the buffers the later windows read, then the result buffer
    after the whole program as the named stages' composition of the arguments, the arguments unchanged. -/

/-! ## The first window -/

attribute [local irreducible] Host.gather Host.scatterAdd Host.rsqrt in
set_option maxRecDepth 16384 in
set_option maxHeartbeats 1600000 in
theorem w0_v1 (V : Valuation τ sig (Elt F)) :
    after ops0 V (main_v1 : DevRef τ sig) = edgeSrc (V (main_arg1 : DevRef τ sig)) := by
  after_results_simp
  rfl

attribute [local irreducible] Host.gather Host.scatterAdd Host.rsqrt in
set_option maxRecDepth 16384 in
set_option maxHeartbeats 1600000 in
theorem w0_v3 (V : Valuation τ sig (Elt F)) :
    after ops0 V (main_v3 : DevRef τ sig) = edgeDst (V (main_arg1 : DevRef τ sig)) := by
  after_results_simp
  rfl

attribute [local irreducible] Host.gather Host.scatterAdd Host.rsqrt in
set_option maxRecDepth 16384 in
set_option maxHeartbeats 1600000 in
theorem w0_v25 (V : Valuation τ sig (Elt F)) :
    after ops0 V (main_v25 : DevRef τ sig) = edgeNorm (edgeSrc (V (main_arg1 : DevRef τ sig))) (edgeDst (V (main_arg1 : DevRef τ sig))) := by
  after_results_simp
  rfl

attribute [local irreducible] Host.gather Host.scatterAdd Host.rsqrt in
set_option maxRecDepth 16384 in
set_option maxHeartbeats 1600000 in
theorem w0_v26 (V : Valuation τ sig (Elt F)) :
    after ops0 V (main_v26 : DevRef τ sig) = selfNorm (edgeDst (V (main_arg1 : DevRef τ sig))) := by
  after_results_simp
  rfl

attribute [local irreducible] Host.gather Host.scatterAdd Host.rsqrt in
set_option maxRecDepth 16384 in
set_option maxHeartbeats 1600000 in
theorem w0_v48 (V : Valuation τ sig (Elt F)) :
    after ops0 V (main_v48 : DevRef τ sig) = layer (dense0 (V (main_arg0 : DevRef τ sig)) (V (main_arg3 : DevRef τ sig))) (edgeSrc (V (main_arg1 : DevRef τ sig))) (edgeDst (V (main_arg1 : DevRef τ sig))) (V (main_arg4 : DevRef τ sig)) := by
  after_results_simp
  rfl

attribute [local irreducible] Host.gather Host.scatterAdd Host.rsqrt in
set_option maxRecDepth 16384 in
set_option maxHeartbeats 1600000 in
theorem w0_arg0 (V : Valuation τ sig (Elt F)) :
    after ops0 V (main_arg0 : DevRef τ sig) = V (main_arg0 : DevRef τ sig) := by
  simp only [after_cons, after_nil]
  rfl

attribute [local irreducible] Host.gather Host.scatterAdd Host.rsqrt in
set_option maxRecDepth 16384 in
set_option maxHeartbeats 1600000 in
theorem w0_arg1 (V : Valuation τ sig (Elt F)) :
    after ops0 V (main_arg1 : DevRef τ sig) = V (main_arg1 : DevRef τ sig) := by
  simp only [after_cons, after_nil]
  rfl

attribute [local irreducible] Host.gather Host.scatterAdd Host.rsqrt in
set_option maxRecDepth 16384 in
set_option maxHeartbeats 1600000 in
theorem w0_arg2 (V : Valuation τ sig (Elt F)) :
    after ops0 V (main_arg2 : DevRef τ sig) = V (main_arg2 : DevRef τ sig) := by
  simp only [after_cons, after_nil]
  rfl

attribute [local irreducible] Host.gather Host.scatterAdd Host.rsqrt in
set_option maxRecDepth 16384 in
set_option maxHeartbeats 1600000 in
theorem w0_arg3 (V : Valuation τ sig (Elt F)) :
    after ops0 V (main_arg3 : DevRef τ sig) = V (main_arg3 : DevRef τ sig) := by
  simp only [after_cons, after_nil]
  rfl

attribute [local irreducible] Host.gather Host.scatterAdd Host.rsqrt in
set_option maxRecDepth 16384 in
set_option maxHeartbeats 1600000 in
theorem w0_arg4 (V : Valuation τ sig (Elt F)) :
    after ops0 V (main_arg4 : DevRef τ sig) = V (main_arg4 : DevRef τ sig) := by
  simp only [after_cons, after_nil]
  rfl

attribute [local irreducible] Host.gather Host.scatterAdd Host.rsqrt in
set_option maxRecDepth 16384 in
set_option maxHeartbeats 1600000 in
theorem w0_arg5 (V : Valuation τ sig (Elt F)) :
    after ops0 V (main_arg5 : DevRef τ sig) = V (main_arg5 : DevRef τ sig) := by
  simp only [after_cons, after_nil]
  rfl

attribute [local irreducible] Host.gather Host.scatterAdd Host.rsqrt in
set_option maxRecDepth 16384 in
set_option maxHeartbeats 1600000 in
theorem w0_arg6 (V : Valuation τ sig (Elt F)) :
    after ops0 V (main_arg6 : DevRef τ sig) = V (main_arg6 : DevRef τ sig) := by
  simp only [after_cons, after_nil]
  rfl

attribute [local irreducible] Host.gather Host.scatterAdd Host.rsqrt in
set_option maxRecDepth 16384 in
set_option maxHeartbeats 1600000 in
theorem w0_arg7 (V : Valuation τ sig (Elt F)) :
    after ops0 V (main_arg7 : DevRef τ sig) = V (main_arg7 : DevRef τ sig) := by
  simp only [after_cons, after_nil]
  rfl

attribute [local irreducible] Host.gather Host.scatterAdd Host.rsqrt in
set_option maxRecDepth 16384 in
set_option maxHeartbeats 1600000 in
theorem w0_arg8 (V : Valuation τ sig (Elt F)) :
    after ops0 V (main_arg8 : DevRef τ sig) = V (main_arg8 : DevRef τ sig) := by
  simp only [after_cons, after_nil]
  rfl

attribute [local irreducible] Host.gather Host.scatterAdd Host.rsqrt in
set_option maxRecDepth 16384 in
set_option maxHeartbeats 1600000 in
theorem w0_arg9 (V : Valuation τ sig (Elt F)) :
    after ops0 V (main_arg9 : DevRef τ sig) = V (main_arg9 : DevRef τ sig) := by
  simp only [after_cons, after_nil]
  rfl

attribute [local irreducible] Host.gather Host.scatterAdd Host.rsqrt in
set_option maxRecDepth 16384 in
set_option maxHeartbeats 1600000 in
theorem w0_arg10 (V : Valuation τ sig (Elt F)) :
    after ops0 V (main_arg10 : DevRef τ sig) = V (main_arg10 : DevRef τ sig) := by
  simp only [after_cons, after_nil]
  rfl

attribute [local irreducible] Host.gather Host.scatterAdd Host.rsqrt in
set_option maxRecDepth 16384 in
set_option maxHeartbeats 1600000 in
theorem w0_arg11 (V : Valuation τ sig (Elt F)) :
    after ops0 V (main_arg11 : DevRef τ sig) = V (main_arg11 : DevRef τ sig) := by
  simp only [after_cons, after_nil]
  rfl

attribute [local irreducible] Host.gather Host.scatterAdd Host.rsqrt in
set_option maxRecDepth 16384 in
set_option maxHeartbeats 1600000 in
theorem w0_arg12 (V : Valuation τ sig (Elt F)) :
    after ops0 V (main_arg12 : DevRef τ sig) = V (main_arg12 : DevRef τ sig) := by
  simp only [after_cons, after_nil]
  rfl

/-! ## The second window -/

attribute [local irreducible] Host.gather Host.scatterAdd Host.rsqrt in
set_option maxRecDepth 16384 in
set_option maxHeartbeats 1600000 in
theorem w1_v92 (V : Valuation τ sig (Elt F)) :
    after ops1 V (main_v92 : DevRef τ sig) = layerWith (dense (layerWith (dense (V (main_v48 : DevRef τ sig)) (V (main_arg5 : DevRef τ sig))) (V (main_v1 : DevRef τ sig)) (V (main_v3 : DevRef τ sig)) (V (main_v25 : DevRef τ sig)) (V (main_v26 : DevRef τ sig)) (V (main_arg6 : DevRef τ sig))) (V (main_arg7 : DevRef τ sig))) (V (main_v1 : DevRef τ sig)) (V (main_v3 : DevRef τ sig)) (V (main_v25 : DevRef τ sig)) (V (main_v26 : DevRef τ sig)) (V (main_arg8 : DevRef τ sig)) := by
  after_results_simp
  rfl

attribute [local irreducible] Host.gather Host.scatterAdd Host.rsqrt in
set_option maxRecDepth 16384 in
set_option maxHeartbeats 1600000 in
theorem w1_v96 (V : Valuation τ sig (Elt F)) :
    after ops1 V (main_v96 : DevRef τ sig) = counts (V (main_arg2 : DevRef τ sig)) := by
  after_results_simp
  rfl

attribute [local irreducible] Host.gather Host.scatterAdd Host.rsqrt in
set_option maxRecDepth 16384 in
set_option maxHeartbeats 1600000 in
theorem w1_v97 (V : Valuation τ sig (Elt F)) :
    after ops1 V (main_v97 : DevRef τ sig) = broadcastInDim S1024x64 ![] bcast_S_S1024x64 (constant S_ .f32 0x00000000#32) := by
  after_results_simp

attribute [local irreducible] Host.gather Host.scatterAdd Host.rsqrt in
set_option maxRecDepth 16384 in
set_option maxHeartbeats 1600000 in
theorem w1_arg0 (V : Valuation τ sig (Elt F)) :
    after ops1 V (main_arg0 : DevRef τ sig) = V (main_arg0 : DevRef τ sig) := by
  simp only [after_cons, after_nil]
  rfl

attribute [local irreducible] Host.gather Host.scatterAdd Host.rsqrt in
set_option maxRecDepth 16384 in
set_option maxHeartbeats 1600000 in
theorem w1_arg1 (V : Valuation τ sig (Elt F)) :
    after ops1 V (main_arg1 : DevRef τ sig) = V (main_arg1 : DevRef τ sig) := by
  simp only [after_cons, after_nil]
  rfl

attribute [local irreducible] Host.gather Host.scatterAdd Host.rsqrt in
set_option maxRecDepth 16384 in
set_option maxHeartbeats 1600000 in
theorem w1_arg2 (V : Valuation τ sig (Elt F)) :
    after ops1 V (main_arg2 : DevRef τ sig) = V (main_arg2 : DevRef τ sig) := by
  simp only [after_cons, after_nil]
  rfl

attribute [local irreducible] Host.gather Host.scatterAdd Host.rsqrt in
set_option maxRecDepth 16384 in
set_option maxHeartbeats 1600000 in
theorem w1_arg3 (V : Valuation τ sig (Elt F)) :
    after ops1 V (main_arg3 : DevRef τ sig) = V (main_arg3 : DevRef τ sig) := by
  simp only [after_cons, after_nil]
  rfl

attribute [local irreducible] Host.gather Host.scatterAdd Host.rsqrt in
set_option maxRecDepth 16384 in
set_option maxHeartbeats 1600000 in
theorem w1_arg4 (V : Valuation τ sig (Elt F)) :
    after ops1 V (main_arg4 : DevRef τ sig) = V (main_arg4 : DevRef τ sig) := by
  simp only [after_cons, after_nil]
  rfl

attribute [local irreducible] Host.gather Host.scatterAdd Host.rsqrt in
set_option maxRecDepth 16384 in
set_option maxHeartbeats 1600000 in
theorem w1_arg5 (V : Valuation τ sig (Elt F)) :
    after ops1 V (main_arg5 : DevRef τ sig) = V (main_arg5 : DevRef τ sig) := by
  simp only [after_cons, after_nil]
  rfl

attribute [local irreducible] Host.gather Host.scatterAdd Host.rsqrt in
set_option maxRecDepth 16384 in
set_option maxHeartbeats 1600000 in
theorem w1_arg6 (V : Valuation τ sig (Elt F)) :
    after ops1 V (main_arg6 : DevRef τ sig) = V (main_arg6 : DevRef τ sig) := by
  simp only [after_cons, after_nil]
  rfl

attribute [local irreducible] Host.gather Host.scatterAdd Host.rsqrt in
set_option maxRecDepth 16384 in
set_option maxHeartbeats 1600000 in
theorem w1_arg7 (V : Valuation τ sig (Elt F)) :
    after ops1 V (main_arg7 : DevRef τ sig) = V (main_arg7 : DevRef τ sig) := by
  simp only [after_cons, after_nil]
  rfl

attribute [local irreducible] Host.gather Host.scatterAdd Host.rsqrt in
set_option maxRecDepth 16384 in
set_option maxHeartbeats 1600000 in
theorem w1_arg8 (V : Valuation τ sig (Elt F)) :
    after ops1 V (main_arg8 : DevRef τ sig) = V (main_arg8 : DevRef τ sig) := by
  simp only [after_cons, after_nil]
  rfl

attribute [local irreducible] Host.gather Host.scatterAdd Host.rsqrt in
set_option maxRecDepth 16384 in
set_option maxHeartbeats 1600000 in
theorem w1_arg9 (V : Valuation τ sig (Elt F)) :
    after ops1 V (main_arg9 : DevRef τ sig) = V (main_arg9 : DevRef τ sig) := by
  simp only [after_cons, after_nil]
  rfl

attribute [local irreducible] Host.gather Host.scatterAdd Host.rsqrt in
set_option maxRecDepth 16384 in
set_option maxHeartbeats 1600000 in
theorem w1_arg10 (V : Valuation τ sig (Elt F)) :
    after ops1 V (main_arg10 : DevRef τ sig) = V (main_arg10 : DevRef τ sig) := by
  simp only [after_cons, after_nil]
  rfl

attribute [local irreducible] Host.gather Host.scatterAdd Host.rsqrt in
set_option maxRecDepth 16384 in
set_option maxHeartbeats 1600000 in
theorem w1_arg11 (V : Valuation τ sig (Elt F)) :
    after ops1 V (main_arg11 : DevRef τ sig) = V (main_arg11 : DevRef τ sig) := by
  simp only [after_cons, after_nil]
  rfl

attribute [local irreducible] Host.gather Host.scatterAdd Host.rsqrt in
set_option maxRecDepth 16384 in
set_option maxHeartbeats 1600000 in
theorem w1_arg12 (V : Valuation τ sig (Elt F)) :
    after ops1 V (main_arg12 : DevRef τ sig) = V (main_arg12 : DevRef τ sig) := by
  simp only [after_cons, after_nil]
  rfl

/-! ## The third window -/

attribute [local irreducible] Host.gather Host.scatterAdd Host.rsqrt in
set_option maxRecDepth 16384 in
set_option maxHeartbeats 1600000 in
theorem w2_v114 (V : Valuation τ sig (Elt F)) :
    after ops2 V (main_v114 : DevRef τ sig) = head (pool (Host.scatterAdd scatter_S1024x64_S100000x1_S100000x64_1_0_0_1 (V (main_v97 : DevRef τ sig)) (broadcastInDim S100000x1 ![0] bcast_S100000_S100000x1_0 (V (main_arg2 : DevRef τ sig))) (V (main_v92 : DevRef τ sig))) (V (main_v96 : DevRef τ sig))) (V (main_arg9 : DevRef τ sig)) (V (main_arg10 : DevRef τ sig)) (V (main_arg11 : DevRef τ sig)) (V (main_arg12 : DevRef τ sig)) := by
  after_results_simp
  rfl

attribute [local irreducible] Host.gather Host.scatterAdd Host.rsqrt in
set_option maxRecDepth 16384 in
set_option maxHeartbeats 1600000 in
theorem w2_arg0 (V : Valuation τ sig (Elt F)) :
    after ops2 V (main_arg0 : DevRef τ sig) = V (main_arg0 : DevRef τ sig) := by
  simp only [after_cons, after_nil]
  rfl

attribute [local irreducible] Host.gather Host.scatterAdd Host.rsqrt in
set_option maxRecDepth 16384 in
set_option maxHeartbeats 1600000 in
theorem w2_arg1 (V : Valuation τ sig (Elt F)) :
    after ops2 V (main_arg1 : DevRef τ sig) = V (main_arg1 : DevRef τ sig) := by
  simp only [after_cons, after_nil]
  rfl

attribute [local irreducible] Host.gather Host.scatterAdd Host.rsqrt in
set_option maxRecDepth 16384 in
set_option maxHeartbeats 1600000 in
theorem w2_arg2 (V : Valuation τ sig (Elt F)) :
    after ops2 V (main_arg2 : DevRef τ sig) = V (main_arg2 : DevRef τ sig) := by
  simp only [after_cons, after_nil]
  rfl

attribute [local irreducible] Host.gather Host.scatterAdd Host.rsqrt in
set_option maxRecDepth 16384 in
set_option maxHeartbeats 1600000 in
theorem w2_arg3 (V : Valuation τ sig (Elt F)) :
    after ops2 V (main_arg3 : DevRef τ sig) = V (main_arg3 : DevRef τ sig) := by
  simp only [after_cons, after_nil]
  rfl

attribute [local irreducible] Host.gather Host.scatterAdd Host.rsqrt in
set_option maxRecDepth 16384 in
set_option maxHeartbeats 1600000 in
theorem w2_arg4 (V : Valuation τ sig (Elt F)) :
    after ops2 V (main_arg4 : DevRef τ sig) = V (main_arg4 : DevRef τ sig) := by
  simp only [after_cons, after_nil]
  rfl

attribute [local irreducible] Host.gather Host.scatterAdd Host.rsqrt in
set_option maxRecDepth 16384 in
set_option maxHeartbeats 1600000 in
theorem w2_arg5 (V : Valuation τ sig (Elt F)) :
    after ops2 V (main_arg5 : DevRef τ sig) = V (main_arg5 : DevRef τ sig) := by
  simp only [after_cons, after_nil]
  rfl

attribute [local irreducible] Host.gather Host.scatterAdd Host.rsqrt in
set_option maxRecDepth 16384 in
set_option maxHeartbeats 1600000 in
theorem w2_arg6 (V : Valuation τ sig (Elt F)) :
    after ops2 V (main_arg6 : DevRef τ sig) = V (main_arg6 : DevRef τ sig) := by
  simp only [after_cons, after_nil]
  rfl

attribute [local irreducible] Host.gather Host.scatterAdd Host.rsqrt in
set_option maxRecDepth 16384 in
set_option maxHeartbeats 1600000 in
theorem w2_arg7 (V : Valuation τ sig (Elt F)) :
    after ops2 V (main_arg7 : DevRef τ sig) = V (main_arg7 : DevRef τ sig) := by
  simp only [after_cons, after_nil]
  rfl

attribute [local irreducible] Host.gather Host.scatterAdd Host.rsqrt in
set_option maxRecDepth 16384 in
set_option maxHeartbeats 1600000 in
theorem w2_arg8 (V : Valuation τ sig (Elt F)) :
    after ops2 V (main_arg8 : DevRef τ sig) = V (main_arg8 : DevRef τ sig) := by
  simp only [after_cons, after_nil]
  rfl

attribute [local irreducible] Host.gather Host.scatterAdd Host.rsqrt in
set_option maxRecDepth 16384 in
set_option maxHeartbeats 1600000 in
theorem w2_arg9 (V : Valuation τ sig (Elt F)) :
    after ops2 V (main_arg9 : DevRef τ sig) = V (main_arg9 : DevRef τ sig) := by
  simp only [after_cons, after_nil]
  rfl

attribute [local irreducible] Host.gather Host.scatterAdd Host.rsqrt in
set_option maxRecDepth 16384 in
set_option maxHeartbeats 1600000 in
theorem w2_arg10 (V : Valuation τ sig (Elt F)) :
    after ops2 V (main_arg10 : DevRef τ sig) = V (main_arg10 : DevRef τ sig) := by
  simp only [after_cons, after_nil]
  rfl

attribute [local irreducible] Host.gather Host.scatterAdd Host.rsqrt in
set_option maxRecDepth 16384 in
set_option maxHeartbeats 1600000 in
theorem w2_arg11 (V : Valuation τ sig (Elt F)) :
    after ops2 V (main_arg11 : DevRef τ sig) = V (main_arg11 : DevRef τ sig) := by
  simp only [after_cons, after_nil]
  rfl

attribute [local irreducible] Host.gather Host.scatterAdd Host.rsqrt in
set_option maxRecDepth 16384 in
set_option maxHeartbeats 1600000 in
theorem w2_arg12 (V : Valuation τ sig (Elt F)) :
    after ops2 V (main_arg12 : DevRef τ sig) = V (main_arg12 : DevRef τ sig) := by
  simp only [after_cons, after_nil]
  rfl

/-! ## The whole program -/

/-- The result buffer after all the operations is `refOut` of the arguments' contents. -/
theorem out_eq (V : Valuation τ sig (Elt F)) :
    after ops V (main_v114 : DevRef τ sig) = refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) := by
  rw [after_ops, w2_v114, w1_v92, w1_v96, w1_v97, w1_arg2, w1_arg9, w1_arg10, w1_arg11, w1_arg12,
    w0_v1, w0_v3, w0_v25, w0_v26, w0_v48, w0_arg2, w0_arg5, w0_arg6, w0_arg7, w0_arg8, w0_arg9, w0_arg10, w0_arg11, w0_arg12]
  rfl

theorem arg0_eq (V : Valuation τ sig (Elt F)) :
    after ops V (main_arg0 : DevRef τ sig) = V (main_arg0 : DevRef τ sig) := by
  rw [after_ops, w2_arg0, w1_arg0, w0_arg0]

theorem arg1_eq (V : Valuation τ sig (Elt F)) :
    after ops V (main_arg1 : DevRef τ sig) = V (main_arg1 : DevRef τ sig) := by
  rw [after_ops, w2_arg1, w1_arg1, w0_arg1]

theorem arg2_eq (V : Valuation τ sig (Elt F)) :
    after ops V (main_arg2 : DevRef τ sig) = V (main_arg2 : DevRef τ sig) := by
  rw [after_ops, w2_arg2, w1_arg2, w0_arg2]

theorem arg3_eq (V : Valuation τ sig (Elt F)) :
    after ops V (main_arg3 : DevRef τ sig) = V (main_arg3 : DevRef τ sig) := by
  rw [after_ops, w2_arg3, w1_arg3, w0_arg3]

theorem arg4_eq (V : Valuation τ sig (Elt F)) :
    after ops V (main_arg4 : DevRef τ sig) = V (main_arg4 : DevRef τ sig) := by
  rw [after_ops, w2_arg4, w1_arg4, w0_arg4]

theorem arg5_eq (V : Valuation τ sig (Elt F)) :
    after ops V (main_arg5 : DevRef τ sig) = V (main_arg5 : DevRef τ sig) := by
  rw [after_ops, w2_arg5, w1_arg5, w0_arg5]

theorem arg6_eq (V : Valuation τ sig (Elt F)) :
    after ops V (main_arg6 : DevRef τ sig) = V (main_arg6 : DevRef τ sig) := by
  rw [after_ops, w2_arg6, w1_arg6, w0_arg6]

theorem arg7_eq (V : Valuation τ sig (Elt F)) :
    after ops V (main_arg7 : DevRef τ sig) = V (main_arg7 : DevRef τ sig) := by
  rw [after_ops, w2_arg7, w1_arg7, w0_arg7]

theorem arg8_eq (V : Valuation τ sig (Elt F)) :
    after ops V (main_arg8 : DevRef τ sig) = V (main_arg8 : DevRef τ sig) := by
  rw [after_ops, w2_arg8, w1_arg8, w0_arg8]

theorem arg9_eq (V : Valuation τ sig (Elt F)) :
    after ops V (main_arg9 : DevRef τ sig) = V (main_arg9 : DevRef τ sig) := by
  rw [after_ops, w2_arg9, w1_arg9, w0_arg9]

theorem arg10_eq (V : Valuation τ sig (Elt F)) :
    after ops V (main_arg10 : DevRef τ sig) = V (main_arg10 : DevRef τ sig) := by
  rw [after_ops, w2_arg10, w1_arg10, w0_arg10]

theorem arg11_eq (V : Valuation τ sig (Elt F)) :
    after ops V (main_arg11 : DevRef τ sig) = V (main_arg11 : DevRef τ sig) := by
  rw [after_ops, w2_arg11, w1_arg11, w0_arg11]

theorem arg12_eq (V : Valuation τ sig (Elt F)) :
    after ops V (main_arg12 : DevRef τ sig) = V (main_arg12 : DevRef τ sig) := by
  rw [after_ops, w2_arg12, w1_arg12, w0_arg12]

/-- On every device, for any float values, from any memory with zero counters: every weakly fair execution of the
    program terminates with the result at `refOut` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v114) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v114).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _)⟩)
    (run_all m ρ)

end Cert.ReferenceIdeal.RefRun

end
-- ==== Proof.lean ====
/-
  The proof of `Cert.Claim` for a three-layer graph convolution with a mean pool and a two-layer head: the Pallas
  program (dense products, pointwise combinations and the head in seven pallas_call regions, the gathers and
  scatter-adds on the host) against its jnp reference.

  * The three frames: each program terminates without a fault and leaves its thirteen argument arrays unchanged — for
    the two kernel programs the segment-by-segment run over @main's thirteen segments, for the reference its run as a
    straight line of host operations with the result dropped.
  * `preserves`: the idealization rewrote nothing, so there is nothing to restate.
  * `algebraic`: at the ideal instance both programs end with the SAME function of the arguments in their result
    buffers — the reference's composition `refOut` of its stage functions.  For the kernel program that is
    `KValue.out_eq` (each dense product region is the host's `dot_general`, since a matmul into a zero accumulator and
    a `dot_general` are one sum over the contraction index on the extended reals; each combination region is the
    host's broadcasts, additions and leaky rectifier read index by index; every other operation is shared); for the
    reference it is its own run, read at arguments that agree with the kernel's.  No law that needs finite operands is
    used: the precondition is never opened.
-/
import proofs.«148020_j2370821947640_1_alg».proof.Defs
import proofs.«148020_j2370821947640_1_alg».proof.Proof.Gen.Kernel
import proofs.«148020_j2370821947640_1_alg».proof.Proof.Gen.Kernel.Frame
import proofs.«148020_j2370821947640_1_alg».proof.Proof.Gen.KernelIdeal
import proofs.«148020_j2370821947640_1_alg».proof.Proof.Gen.KernelIdeal.Frame
import proofs.«148020_j2370821947640_1_alg».proof.Proof.Gen.ReferenceIdeal
import proofs.«148020_j2370821947640_1_alg».proof.Proof.Gen.Pre_finite_inputs
import proofs.«148020_j2370821947640_1_alg».proof.Proof.KRun
import proofs.«148020_j2370821947640_1_alg».proof.Proof.KValue
import proofs.«148020_j2370821947640_1_alg».proof.Proof.RefRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both programs end, from memories that agree on the arguments, with the reference's function `refOut` of the
    kernel's argument arrays in their result buffers. -/
theorem algebraic : Cert.algebraic_KernelIdeal_ReferenceIdeal := by
  intro m ρ m' ρ' _ hagree
  refine ⟨fun c => Cert.ReferenceIdeal.RefRun.refOut (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.KValue.out_eq m ρ c), (h c).2⟩)
      (Cert.KernelIdeal.KRun.run_value (F := Ideal) m ρ)
  · refine (θ_run Cert.ReferenceIdeal.defs _ _).mono (fun r h c => ⟨?_, (h c).2⟩)
      (Cert.ReferenceIdeal.RefRun.run (F := Ideal) m' ρ')
    obtain ⟨a0, a1, a2, a3, a4, a5, a6, a7, a8, a9, a10, a11, a12⟩ := hagree c
    rw [(h c).1, a0, a1, a2, a3, a4, a5, a6, a7, a8, a9, a10, a11, a12]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
